-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_arg7 : FVec F S3x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩

abbrev nBuf : Space → Nat
  | .hbm => 136
  | .vmem => 60
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x800000, .i32⟩
  | 10 => ⟨S800000, .i32⟩
  | 11 => ⟨S1x800000, .i32⟩
  | 12 => ⟨S800000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S1x128, .f32⟩
  | 39 => ⟨S1x128, .f32⟩
  | 40 => ⟨S50000x128, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S50000x128, .f32⟩
  | 54 => ⟨S1x128x128, .f32⟩
  | 55 => ⟨S128x128, .f32⟩
  | 56 => ⟨S1x128, .f32⟩
  | 57 => ⟨S128, .f32⟩
  | 58 => ⟨S1x128x128, .f32⟩
  | 59 => ⟨S128x128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S1x128, .f32⟩
  | 80 => ⟨S1x128, .f32⟩
  | 81 => ⟨S50000x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S50000x128, .f32⟩
  | 95 => ⟨S1x128x128, .f32⟩
  | 96 => ⟨S128x128, .f32⟩
  | 97 => ⟨S1x128, .f32⟩
  | 98 => ⟨S128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1x128, .f32⟩
  | 121 => ⟨S1x128, .f32⟩
  | 122 => ⟨S50000x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_3 : Ref sig .tc := ⟨.hbm, 66, rfl⟩
abbrev main_v50 : Ref sig .tc := ⟨.hbm, 67, rfl⟩
abbrev main_v51 : Ref sig .tc := ⟨.hbm, 68, rfl⟩
abbrev main_c_4 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62_0 : Ref sig .tc := ⟨.hbm, 81, rfl⟩
abbrev main_v62_1 : Ref sig .tc := ⟨.hbm, 82, rfl⟩
abbrev main_v62_2 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_8 : Ref sig .tc := ⟨.hbm, 107, rfl⟩
abbrev main_v84 : Ref sig .tc := ⟨.hbm, 108, rfl⟩
abbrev main_v85 : Ref sig .tc := ⟨.hbm, 109, rfl⟩
abbrev main_c_9 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_10 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96_0 : Ref sig .tc := ⟨.hbm, 122, rfl⟩
abbrev main_v96_1 : Ref sig .tc := ⟨.hbm, 123, rfl⟩
abbrev main_v96_2 : Ref sig .tc := ⟨.hbm, 124, rfl⟩
abbrev main_cst_11 : Ref sig .tc := ⟨.hbm, 125, rfl⟩
abbrev main_v97 : Ref sig .tc := ⟨.hbm, 126, rfl⟩
abbrev main_v98 : Ref sig .tc := ⟨.hbm, 127, rfl⟩
abbrev main_cst_12 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v28_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v62_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v62_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v96_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v96_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v96_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v96_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩

abbrev nBuf : Space → Nat
  | .hbm => 223
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x800000, .i32⟩
  | 10 => ⟨S800000, .i32⟩
  | 11 => ⟨S1x800000, .i32⟩
  | 12 => ⟨S800000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128x128, .f32⟩
  | 84 => ⟨S128x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128x128, .f32⟩
  | 26 => ⟨S128x128, .f32⟩
  | 27 => ⟨S1x128, .f32⟩
  | 28 => ⟨S128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_cst : Ref sig .tc := ⟨.hbm, 50, rfl⟩
abbrev main_call1_v0 : Ref sig .tc := ⟨.hbm, 51, rfl⟩
abbrev main_v36 : Ref sig .tc := ⟨.hbm, 52, rfl⟩
abbrev main_cst_1 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_6 : Ref sig .tc := ⟨.hbm, 95, rfl⟩
abbrev main_v74 : Ref sig .tc := ⟨.hbm, 96, rfl⟩
abbrev main_v75 : Ref sig .tc := ⟨.hbm, 97, rfl⟩
abbrev main_c_7 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_8 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call2_cst : Ref sig .tc := ⟨.hbm, 113, rfl⟩
abbrev main_call2_v0 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_call3_cst : Ref sig .tc := ⟨.hbm, 120, rfl⟩
abbrev main_call3_v0 : Ref sig .tc := ⟨.hbm, 121, rfl⟩
abbrev main_v94 : Ref sig .tc := ⟨.hbm, 122, rfl⟩
abbrev main_cst_9 : Ref sig .tc := ⟨.hbm, 123, rfl⟩
abbrev main_v95 : Ref sig .tc := ⟨.hbm, 124, rfl⟩
abbrev main_cst_10 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_11 : Ref sig .tc := ⟨.hbm, 132, rfl⟩
abbrev main_v102 : Ref sig .tc := ⟨.hbm, 133, rfl⟩
abbrev main_cst_12 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_13 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_c_14 : Ref sig .tc := ⟨.hbm, 165, rfl⟩
abbrev main_v132 : Ref sig .tc := ⟨.hbm, 166, rfl⟩
abbrev main_v133 : Ref sig .tc := ⟨.hbm, 167, rfl⟩
abbrev main_c_15 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_16 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_call4_cst : Ref sig .tc := ⟨.hbm, 183, rfl⟩
abbrev main_call4_v0 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_call5_cst : Ref sig .tc := ⟨.hbm, 190, rfl⟩
abbrev main_call5_v0 : Ref sig .tc := ⟨.hbm, 191, rfl⟩
abbrev main_v152 : Ref sig .tc := ⟨.hbm, 192, rfl⟩
abbrev main_cst_17 : Ref sig .tc := ⟨.hbm, 193, rfl⟩
abbrev main_v153 : Ref sig .tc := ⟨.hbm, 194, rfl⟩
abbrev main_cst_18 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_19 : Ref sig .tc := ⟨.hbm, 202, rfl⟩
abbrev main_v160 : Ref sig .tc := ⟨.hbm, 203, rfl⟩
abbrev main_cst_20 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_cst_21 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's whole run with its result array named.

  @main is twelve segments: six stretches of host operations and six launches.  The buffer contents at each segment
  boundary are a fold from the launch memory (a stretch applies its operations; a launch leaves each of its arrays at
  what its write-backs give and every other buffer as it was).  Every weakly fair execution terminates in a state
  whose unscoped buffers hold the last boundary's contents; read at the result buffer this names the result array,
  and read at an argument it is the launch contents.
-/
import proofs.«104403_j38585986187615_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v105) = W12 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v105 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunV

end
-- ==== Proof.KHost1.lean ====
/-
  The host operations before the first layer's launches, read as the reference's own stage functions of the arguments.

  Both programs begin with the same host lines (the two rows of the edge list, the wrap of negative source indices,
  the gather of source rows, the scatter-add into destination rows, the slices of the weight arrays), so what the
  kernel's program holds in those buffers when its first launch is entered is, term for term, what the reference's
  stage functions compute from the same arguments.
-/
import proofs.«104403_j38585986187615_1_alg».proof.Proof.Gen.KernelIdeal.Frame
import proofs.«104403_j38585986187615_1_alg».proof.Proof.RefReadP
import Idealize.ShloMosaic.Lib.StableHlo.Run
import Idealize.ShloMosaic.Lib.Pipeline.Value

set_option maxRecDepth 16384

noncomputable section

namespace Cert.KernelIdeal.Host1

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

theorem s0_arg0 (c : Dev nD) : W1 m ρ c (Proc.devRef .tc main_arg0) = (m ((c : Thread nD τ).loc main_arg0)) := by
  show StableHlo.after hostOps0 (W0 m ρ c) (Proc.devRef .tc main_arg0) = _
  after_results_simp

theorem s0_v25 (c : Dev nD) : W1 m ρ c (Proc.devRef .tc main_v25) = Cert.ReferenceIdeal.ReadP.val_main_v25 (F := Ideal) (m ((c : Thread nD τ).loc main_arg0)) (m ((c : Thread nD τ).loc main_arg1)) := by
  show StableHlo.after hostOps0 (W0 m ρ c) (Proc.devRef .tc main_v25) = _
  after_results_simp
  rfl

theorem s0_v5 (c : Dev nD) : W1 m ρ c (Proc.devRef .tc main_v5) = Cert.ReferenceIdeal.ReadP.val_main_v5 (F := Ideal) (m ((c : Thread nD τ).loc main_arg3)) := by
  show StableHlo.after hostOps0 (W0 m ρ c) (Proc.devRef .tc main_v5) = _
  after_results_simp
  rfl

theorem s0_v9 (c : Dev nD) : W1 m ρ c (Proc.devRef .tc main_v9) = Cert.ReferenceIdeal.ReadP.val_main_v9 (F := Ideal) (m ((c : Thread nD τ).loc main_arg5)) := by
  show StableHlo.after hostOps0 (W0 m ρ c) (Proc.devRef .tc main_v9) = _
  after_results_simp
  rfl

theorem s0_v26 (c : Dev nD) : W1 m ρ c (Proc.devRef .tc main_v26) = shapeCast S1x128 (Cert.ReferenceIdeal.ReadP.val_main_v7 (F := Ideal) (m ((c : Thread nD τ).loc main_arg4))) shapeCasts_S128_S1x128 := by
  show StableHlo.after hostOps0 (W0 m ρ c) (Proc.devRef .tc main_v26) = _
  after_results_simp
  rfl

theorem s0_v27 (c : Dev nD) : W1 m ρ c (Proc.devRef .tc main_v27) = shapeCast S1x128 (Cert.ReferenceIdeal.ReadP.val_main_v11 (F := Ideal) (m ((c : Thread nD τ).loc main_arg6))) shapeCasts_S128_S1x128 := by
  show StableHlo.after hostOps0 (W0 m ρ c) (Proc.devRef .tc main_v27) = _
  after_results_simp
  rfl

theorem s0_v13 (c : Dev nD) : W1 m ρ c (Proc.devRef .tc main_v13) = Cert.ReferenceIdeal.ReadP.val_main_v13 (F := Ideal) (m ((c : Thread nD τ).loc main_arg7)) := by
  show StableHlo.after hostOps0 (W0 m ρ c) (Proc.devRef .tc main_v13) = _
  after_results_simp
  rfl

theorem s0_v15 (c : Dev nD) : W1 m ρ c (Proc.devRef .tc main_v15) = Cert.ReferenceIdeal.ReadP.val_main_v15 (F := Ideal) (m ((c : Thread nD τ).loc main_arg8)) := by
  show StableHlo.after hostOps0 (W0 m ρ c) (Proc.devRef .tc main_v15) = _
  after_results_simp
  rfl

theorem s0_v1 (c : Dev nD) : W1 m ρ c (Proc.devRef .tc main_v1) = Cert.ReferenceIdeal.ReadP.val_main_v1 (F := Ideal) (m ((c : Thread nD τ).loc main_arg1)) := by
  show StableHlo.after hostOps0 (W0 m ρ c) (Proc.devRef .tc main_v1) = _
  after_results_simp
  rfl

theorem s0_v3 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  rfl

end Cert.KernelIdeal.Host1

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Spec.lean ====
/-
  One layer of a graph-isomorphism network with batch normalisation, as functions on the extended reals.

  A layer takes node features `h : [50000, 128]`, adds to every node the sum of the features of the nodes that send it
  an edge, passes the result through two rectified dense layers (`z = relu (relu ((h + a) · W₁ + b₁) · W₂ + b₂)`), and
  normalises each column of `z` by its mean and variance over the 50000 nodes:
  `out = γ · (z − μ) · (var + ε)^(-1/2) + β`.  The column variance can be computed in two ways: as the mean of the
  squared deviations from the mean (two passes over the column), or as the mean of the squares minus the square of
  the mean (one pass).  Both layers are written here; they differ in that one place only.
-/
import Idealize.ShloMosaic.PureOps.Ideal
import Idealize.ShloMosaic.Lib.ValueIdx
import proofs.«104403_j38585986187615_1_alg».proof.Proof.LibDense

noncomputable section

namespace Cert.Gin

open Idealize.ShloMosaic Idealize.ShloMosaic.ValueIdx

/-- Node features: 50000 nodes, 128 channels. -/
abbrev SN : Shape := ⟨2, ![50000, 128]⟩
/-- A weight matrix. -/
abbrev SW : Shape := ⟨2, ![128, 128]⟩
/-- A column of 800000 edge end points. -/
abbrev SE : Shape := ⟨2, ![800000, 1]⟩

/-- The number of nodes as the f32 word the programs divide by (50000.0). -/
def nW : EReal := Ideal.ofBits .f32 0x47435000#32
/-- The variance offset as the f32 word the programs add (the float nearest 1e-5). -/
def epsW : EReal := Ideal.ofBits .f32 0x3727C5AC#32

/-- The neighbour sum: node `r` receives, channel by channel, the features of the source node of every edge whose
    destination word reads `r`; a source word is read signed and clamped into the node range. -/
def agg (h : SN.Idx → EReal) (src dst : IVec SE 32) : SN.Idx → EReal :=
  fun i => 0 + ∑ e : Fin 800000,
    if (dst (ix2 e 0)).toInt = ((i 0).val : Int)
    then h (ix2 ⟨min (src (ix2 e 0)).toInt.toNat (50000 - 1), by omega⟩ (i 1)) else 0

/-- Two rectified dense layers applied to `h + a`, row by row. -/
def mlp (h a : SN.Idx → EReal) (W1 : SW.Idx → EReal) (b1 : Fin 128 → EReal) (W2 : SW.Idx → EReal) (b2 : Fin 128 → EReal) :
    SN.Idx → EReal :=
  fun i => max (Cert.LibDense.prod (n := 50000) (K := 128) (d := 128)
      (fun i' => max (Cert.LibDense.prod (n := 50000) (K := 128) (d := 128) (fun i'' => h i'' + a i'') W1 i' + b1 (i' 1)) 0)
      W2 i + b2 (i 1)) 0

/-- The sum of column `j` over the 50000 nodes. -/
def colSum (z : SN.Idx → EReal) (j : Fin 128) : EReal := ∑ r : Fin 50000, z (ix2 r j)

/-- The column mean. -/
def mean (z : SN.Idx → EReal) (j : Fin 128) : EReal := Ideal.div (colSum z j) nW

/-- The column variance in two passes: the mean of the squared deviations from the mean. -/
def varTwoPass (z : SN.Idx → EReal) (j : Fin 128) : EReal :=
  Ideal.div (colSum (fun i => (z i - mean z (i 1)) * (z i - mean z (i 1))) j) nW

/-- The column variance in one pass: the mean of the squares minus the square of the mean. -/
def varOnePass (z : SN.Idx → EReal) (j : Fin 128) : EReal :=
  Ideal.div (colSum (fun i => z i * z i) j) nW - mean z j * mean z j

/-- The normalisation of `z` by given column statistics, scaled by `g` and shifted by `be`. -/
def bn (z : SN.Idx → EReal) (mu var g be : Fin 128 → EReal) : SN.Idx → EReal :=
  fun i => g (i 1) * (z i - mu (i 1)) * Ideal.rsqrt (var (i 1) + epsW) + be (i 1)

/-- The layer with the two-pass variance. -/
def layerTwoPass (h a : SN.Idx → EReal) (W1 : SW.Idx → EReal) (b1 : Fin 128 → EReal) (W2 : SW.Idx → EReal)
    (b2 g be : Fin 128 → EReal) : SN.Idx → EReal :=
  bn (mlp h a W1 b1 W2 b2) (mean (mlp h a W1 b1 W2 b2)) (varTwoPass (mlp h a W1 b1 W2 b2)) g be

/-- The layer with the one-pass variance. -/
def layerOnePass (h a : SN.Idx → EReal) (W1 : SW.Idx → EReal) (b1 : Fin 128 → EReal) (W2 : SW.Idx → EReal)
    (b2 g be : Fin 128 → EReal) : SN.Idx → EReal :=
  bn (mlp h a W1 b1 W2 b2) (mean (mlp h a W1 b1 W2 b2)) (varOnePass (mlp h a W1 b1 W2 b2)) g be

/-- Every entry is a real number (neither infinity). -/
def AllReal {ι : Type} (x : ι → EReal) : Prop := ∀ i, ∃ r : ℝ, x i = (r : EReal)

end Cert.Gin

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.KMlp0a.lean ====
/-
  The dense part of one layer's first kernel on a band of rows, index by index on the extended reals.

  A band holds `n` rows of the node features `h` and of the neighbour sums `a`.  The body forms `h + a`, multiplies by
  `W₁`, adds the bias row `b₁`, rectifies, multiplies by `W₂`, adds `b₂` and rectifies again; the conversions to the
  narrower float format before each product are the identity on the extended reals and the zero word reads 0.  Entry
  (p, q) of the result depends on row p of the band only, so the band of the result is the same formula of the whole
  arrays read at the band's rows.  The body also forms the column sums of the result and of its squares over the band.
-/
import proofs.«104403_j38585986187615_1_alg».proof.Proof.Gen.KernelIdeal.Skeleton
import proofs.«104403_j38585986187615_1_alg».proof.Proof.Spec
import proofs.«104403_j38585986187615_1_alg».proof.Proof.LibDense
import proofs.«104403_j38585986187615_1_alg».proof.Proof.LibBiasRows
import proofs.«104403_j38585986187615_1_alg».proof.Proof.LibAxisSum
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Mlp0

open Cert.KernelIdeal Cert.KernelIdeal.Gen

/-- Row 0 of a one-row array, as a function of the column. -/
abbrev row (x : S1x128.Idx → EReal) : Fin 128 → EReal := fun j => x (ix2 ⟨0, Nat.one_pos⟩ j)

/-- Two rectified dense layers applied to `h + a` on `n` rows. -/
def dense {n : ℕ} (h a : (⟨2, ![n, 128]⟩ : Shape).Idx → EReal) (W1 : S128x128.Idx → EReal) (b1 : Fin 128 → EReal)
    (W2 : S128x128.Idx → EReal) (b2 : Fin 128 → EReal) : (⟨2, ![n, 128]⟩ : Shape).Idx → EReal :=
  fun i => max (Cert.LibDense.prod (n := n) (K := 128) (d := 128)
      (fun i' => max (Cert.LibDense.prod (n := n) (K := 128) (d := 128) (fun i'' => h i'' + a i'') W1 i' + b1 (i' 1)) 0)
      W2 i + b2 (i 1)) 0

/-- On the 50000 rows it is the layer's dense part. -/
theorem dense_eq_mlp (h a : S50000x128.Idx → EReal) (W1 : S128x128.Idx → EReal) (b1 : Fin 128 → EReal)
    (W2 : S128x128.Idx → EReal) (b2 : Fin 128 → EReal) :
    dense (n := 50000) h a W1 b1 W2 b2 = Cert.Gin.mlp h a W1 b1 W2 b2 := rfl

/-- An entry reads one row of each row operand: two sets of row operands that agree on that row give the same entry. -/
theorem dense_congr {n n' : ℕ} (h a : (⟨2, ![n, 128]⟩ : Shape).Idx → EReal) (h' a' : (⟨2, ![n', 128]⟩ : Shape).Idx → EReal)
    (W1 : S128x128.Idx → EReal) (b1 : Fin 128 → EReal) (W2 : S128x128.Idx → EReal) (b2 : Fin 128 → EReal)
    (p : Fin n) (p' : Fin n') (q : Fin 128)
    (hh : ∀ k : Fin 128, h (ix2 p k) = h' (ix2 p' k)) (ha : ∀ k : Fin 128, a (ix2 p k) = a' (ix2 p' k)) :
    dense h a W1 b1 W2 b2 (ix2 p q) = dense h' a' W1 b1 W2 b2 (ix2 p' q) := by
  unfold dense Cert.LibDense.prod
  refine congrArg (fun x => max (x + b2 q) 0) ?_
  refine Finset.sum_congr rfl fun k _ => congrArg (fun x => max (x + b1 k) 0 * W2 (ix2 k q)) ?_
  refine Finset.sum_congr rfl fun k' _ => ?_
  show (h (ix2 p k') + a (ix2 p k')) * _ = (h' (ix2 p' k') + a' (ix2 p' k')) * _
  rw [hh k', ha k']
  rfl

/-- The body's rectified output at an entry of the band. -/
theorem pay5_apply (v3 v4 : Vec Ideal S5000x128 .f32) (v8 : Vec Ideal S128x128 .f32) (v12 : Vec Ideal S1x128 .f32)
    (v19 : Vec Ideal S128x128 .f32) (v23 : Vec Ideal S1x128 .f32) (i : S5000x128.Idx) :
    k0_pay5 (F := Ideal) v3 v4 v8 v12 v19 v23 i = dense (n := 5000) v3 v4 v8 (row v12) v19 (row v23) i := by
  unfold k0_pay5
  simp only [shapeCast_self]
  show max (FloatOps.matmul (DotDims.plain 5000 128 128) none _ _ (constant (F := Ideal) ⟨2, ![5000, 128]⟩ .f32 0x00000000#32) i
      + broadcastTo S5000x128 v23 broadcasts_S1x128_S5000x128 i) (Ideal.ofBits .f32 0x00000000#32) = _
  rw [Cert.LibDense.matmul_plain, Cert.LibBiasRows.row_broadcast, Ideal.ofBits_zero_f32]
  unfold dense
  refine congrArg (fun x => max (x + v23 (ix2 ⟨0, Nat.one_pos⟩ (i 1))) 0) ?_
  unfold Cert.LibDense.prod
  refine Finset.sum_congr rfl fun k _ => congrArg (· * v19 (ix2 k (i 1))) ?_
  show max (FloatOps.matmul (DotDims.plain 5000 128 128) none _ _ (constant (F := Ideal) ⟨2, ![5000, 128]⟩ .f32 0x00000000#32) (ix2 (i 0) k)
      + broadcastTo S5000x128 v12 broadcasts_S1x128_S5000x128 (ix2 (i 0) k)) (Ideal.ofBits .f32 0x00000000#32) = _
  rw [Cert.LibDense.matmul_plain, Cert.LibBiasRows.row_broadcast, Ideal.ofBits_zero_f32]
  rfl

/-- The body's column sums of its output over the band, at a column. -/
theorem pay7_apply (v3 v4 : Vec Ideal S5000x128 .f32) (v8 : Vec Ideal S128x128 .f32) (v12 : Vec Ideal S1x128 .f32)
    (v19 : Vec Ideal S128x128 .f32) (v23 : Vec Ideal S1x128 .f32) (q : Fin 128) :
    k0_pay7 (F := Ideal) v3 v4 v8 v12 v19 v23 (ix2 ⟨0, Nat.one_pos⟩ q)
      = ∑ p : Fin 5000, k0_pay5 (F := Ideal) v3 v4 v8 v12 v19 v23 (ix2 p q) := by
  unfold k0_pay7
  rw [Cert.LibBiasRows.row_of_vector]
  exact Cert.LibAxisSum.sum_first (n := 5000) (d := 128) (φ := .f32) (k0_pay5 (F := Ideal) v3 v4 v8 v12 v19 v23)
    0x00000000#32 reduces_S5000x128_S128 (.inl rfl) rfl q

/-- The first accumulator's new contents: the old contents plus the band's column sums. -/
theorem pay1_apply (acc s : Vec Ideal S1x128 .f32) (j : S1x128.Idx) :
    k0_pay1 (F := Ideal) acc s j = acc j + s j := rfl

/-- The old contents pass through a cast to their own shape. -/
theorem pay6_eq (acc : Vec Ideal S1x128 .f32) : k0_pay6 (F := Ideal) acc = acc := by
  unfold k0_pay6
  exact shapeCast_self _ _

/-- The second accumulator's new contents: the old contents plus the band's column sums of squares. -/
theorem pay2_apply (z : Vec Ideal S5000x128 .f32) (acc : Vec Ideal S1x128 .f32) (q : Fin 128) :
    k0_pay2 (F := Ideal) z acc (ix2 ⟨0, Nat.one_pos⟩ q)
      = acc (ix2 ⟨0, Nat.one_pos⟩ q) + ∑ p : Fin 5000, z (ix2 p q) * z (ix2 p q) := by
  unfold k0_pay2
  simp only [shapeCast_self]
  show acc _ + shapeCast S1x128 _ shapeCasts_S128_S1x128 (ix2 ⟨0, Nat.one_pos⟩ q) = _
  rw [Cert.LibBiasRows.row_of_vector]
  exact congrArg (acc (ix2 ⟨0, Nat.one_pos⟩ q) + ·) (Cert.LibAxisSum.sum_first (n := 5000) (d := 128) (φ := .f32)
    (mulf z z) 0x00000000#32 reduces_S5000x128_S128 (.inl rfl) rfl q)

/-- The zero row the first band stores. -/
theorem pay3_apply (j : S1x128.Idx) : k0_pay3 (F := Ideal) j = 0 := Ideal.ofBits_zero_f32
theorem pay4_apply (j : S1x128.Idx) : k0_pay4 (F := Ideal) j = 0 := Ideal.ofBits_zero_f32

end Cert.KernelIdeal.Mlp0

end
-- ==== Proof.KMlp0b.lean ====
/-
  The first kernel of one layer, point by point: what its three staging buffers hold after each of the ten bands.

  At every band the body stores the band's rectified output `z`.  At band 0 it first stores zero rows in the two
  accumulators and reads them back, so it leaves `0 + s₀` and `0 + s₀'` there (`sₜ` the column sums of band `t`'s
  `z`, `sₜ'` those of its squares); at a later band it leaves what the band before left plus `sₜ`, `sₜ'`.  By
  induction on the band the accumulators hold, after band `n`, the sums of `s₀ … sₙ` and of `s₀' … sₙ'`.  A band's
  `z` is the layer's dense part of the whole arrays read at the band's rows.
-/
import proofs.«104403_j38585986187615_1_alg».proof.Proof.Gen.KernelIdeal.Frame
import proofs.«104403_j38585986187615_1_alg».proof.Proof.KMlp0a
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Mlp0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## What one run of the body leaves, in each of its two cases -/

/-- A later band: the output buffer holds the band's rectified output. -/
theorem out_B_6 (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond0_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out0_B_6 (F := Ideal) c i a1 h1 a2 h2 a3 h3 a4 h4 a5 h5 a6 h6 a7 h7 a8 h8 a9 h9 hc x0 x1 x2 x3 x4 x5 xo7 xo8 = k0_pay5 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- A later band: the first accumulator holds its old contents plus the band's column sums. -/
theorem out_B_7 (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond0_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out0_B_7 (F := Ideal) c i a1 h1 a2 h2 a3 h3 a4 h4 a5 h5 a6 h6 a7 h7 a8 h8 a9 h9 hc x0 x1 x2 x3 x4 x5 xo7 xo8 = k0_pay1 (k0_pay6 xo7) (k0_pay7 x0 x1 x2 x3 x4 x5) := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- A later band: the second accumulator holds its old contents plus the band's column sums of squares. -/
theorem out_B_8 (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond0_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out0_B_8 (F := Ideal) c i a1 h1 a2 h2 a3 h3 a4 h4 a5 h5 a6 h6 a7 h7 a8 h8 a9 h9 hc x0 x1 x2 x3 x4 x5 xo7 xo8 = k0_pay2 (k0_pay5 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the output buffer holds the band's rectified output. -/
theorem out_A_6 (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond0_0 i)
    (x0 x1 : Vec Ideal S5000x128 .f32) (x2 : Vec Ideal S128x128 .f32) (x3 : Vec Ideal S1x128 .f32)
    (x4 : Vec Ideal S128x128 .f32) (x5 : Vec Ideal S1x128 .f32) :
    out0_A_6 (F := Ideal) c i a1 h1 a2 h2 a3 h3 a4 h4 a5 h5 a6 h6 a7 h7 a8 h8 a9 h9 hc x0 x1 x2 x3 x4 x5 = k0_pay5 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the first accumulator holds the stored zero row, read back, plus the band's column sums. -/
theorem out_A_7 (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond0_0 i)
    (x0 x1 : Vec Ideal S5000x128 .f32) (x2 : Vec Ideal S128x128 .f32) (x3 : Vec Ideal S1x128 .f32)
    (x4 : Vec Ideal S128x128 .f32) (x5 : Vec Ideal S1x128 .f32) :
    out0_A_7 (F := Ideal) c i a1 h1 a2 h2 a3 h3 a4 h4 a5 h5 a6 h6 a7 h7 a8 h8 a9 h9 hc x0 x1 x2 x3 x4 x5
      = k0_pay1 (k0_pay6 (k0_pay3 (F := Ideal))) (k0_pay7 x0 x1 x2 x3 x4 x5) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the second accumulator holds the stored zero row, read back, plus the band's column sums of squares. -/
theorem out_A_8 (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond0_0 i)
    (x0 x1 : Vec Ideal S5000x128 .f32) (x2 : Vec Ideal S128x128 .f32) (x3 : Vec Ideal S1x128 .f32)
    (x4 : Vec Ideal S128x128 .f32) (x5 : Vec Ideal S1x128 .f32) :
    out0_A_8 (F := Ideal) c i a1 h1 a2 h2 a3 h3 a4 h4 a5 h5 a6 h6 a7 h7 a8 h8 a9 h9 hc x0 x1 x2 x3 x4 x5
      = k0_pay2 (k0_pay5 x0 x1 x2 x3 x4 x5) (k0_pay4 (F := Ideal)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-! ## The blocks the body reads at a band -/

/-- The six input blocks at band `t`, at their literal vector types. -/
def B0 (c : Dev nD) (t : Fin cfg0.N) : Vec Ideal S5000x128 .f32 := iblk0 V c 0 t
def B1 (c : Dev nD) (t : Fin cfg0.N) : Vec Ideal S5000x128 .f32 := iblk0 V c 1 t
def B2 (c : Dev nD) (t : Fin cfg0.N) : Vec Ideal S128x128 .f32 := iblk0 V c 2 t
def B3 (c : Dev nD) (t : Fin cfg0.N) : Vec Ideal S1x128 .f32 := iblk0 V c 3 t
def B4 (c : Dev nD) (t : Fin cfg0.N) : Vec Ideal S128x128 .f32 := iblk0 V c 4 t
def B5 (c : Dev nD) (t : Fin cfg0.N) : Vec Ideal S1x128 .f32 := iblk0 V c 5 t

/-- The band's rectified output. -/
def zb (c : Dev nD) (t : Fin cfg0.N) : Vec Ideal S5000x128 .f32 :=
  k0_pay5 (B0 V c t) (B1 V c t) (B2 V c t) (B3 V c t) (B4 V c t) (B5 V c t)

/-! ## The three buffers after each band -/

/-- After band 0: the band's output; the zero rows, read back, plus the band's column sums. -/
theorem outs_A (c : Dev nD) (t : Fin cfg0.N) (h0 : t.val % 10 = 0) :
    outsAt0 V c t.val t.isLt = (zb V c t,
      k0_pay1 (F := Ideal) (k0_pay6 (F := Ideal) (k0_pay3 (F := Ideal)))
        (k0_pay7 (F := Ideal) (B0 V c t) (B1 V c t) (B2 V c t) (B3 V c t) (B4 V c t) (B5 V c t)),
      k0_pay2 (F := Ideal) (zb V c t) (k0_pay4 (F := Ideal))) :=
  (outsAt0_A V c t h0).trans (congrArg₂ Prod.mk
    (out_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) ((hcond0_0 t).mpr h0)
      (iblk0 V c 0 t) (iblk0 V c 1 t) (iblk0 V c 2 t) (iblk0 V c 3 t) (iblk0 V c 4 t) (iblk0 V c 5 t))
    (congrArg₂ Prod.mk
      (out_A_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) ((hcond0_0 t).mpr h0)
      (iblk0 V c 0 t) (iblk0 V c 1 t) (iblk0 V c 2 t) (iblk0 V c 3 t) (iblk0 V c 4 t) (iblk0 V c 5 t))
      (out_A_8 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) ((hcond0_0 t).mpr h0)
      (iblk0 V c 0 t) (iblk0 V c 1 t) (iblk0 V c 2 t) (iblk0 V c 3 t) (iblk0 V c 4 t) (iblk0 V c 5 t))))

/-- After a later band: the band's output; what the band before left in the accumulators plus the band's column sums. -/
theorem outs_B (c : Dev nD) (t : Fin cfg0.N) (h0 : ¬t.val % 10 = 0) :
    outsAt0 V c t.val t.isLt = (zb V c t,
      k0_pay1 (F := Ideal) (k0_pay6 (F := Ideal) (outsAt0 V c (t.val - 1) (Nat.lt_of_le_of_lt (Nat.sub_le _ _) t.isLt)).2.1)
        (k0_pay7 (F := Ideal) (B0 V c t) (B1 V c t) (B2 V c t) (B3 V c t) (B4 V c t) (B5 V c t)),
      k0_pay2 (F := Ideal) (zb V c t) (outsAt0 V c (t.val - 1) (Nat.lt_of_le_of_lt (Nat.sub_le _ _) t.isLt)).2.2) :=
  (outsAt0_B V c t h0).trans (congrArg₂ Prod.mk
    (out_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (fun hq => h0 ((hcond0_0 t).mp hq))
      (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out_B_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (fun hq => h0 ((hcond0_0 t).mp hq))
      (iblk0 V c 0 t) (iblk0 V c 1 t) (iblk0 V c 2 t) (iblk0 V c 3 t) (iblk0 V c 4 t) (iblk0 V c 5 t)
        (outsAt0 V c (t.val - 1) (Nat.lt_of_le_of_lt (Nat.sub_le _ _) t.isLt)).2.1 (outsAt0 V c (t.val - 1) (Nat.lt_of_le_of_lt (Nat.sub_le _ _) t.isLt)).2.2)
      (out_B_8 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (fun hq => h0 ((hcond0_0 t).mp hq))
      (iblk0 V c 0 t) (iblk0 V c 1 t) (iblk0 V c 2 t) (iblk0 V c 3 t) (iblk0 V c 4 t) (iblk0 V c 5 t)
        (outsAt0 V c (t.val - 1) (Nat.lt_of_le_of_lt (Nat.sub_le _ _) t.isLt)).2.1 (outsAt0 V c (t.val - 1) (Nat.lt_of_le_of_lt (Nat.sub_le _ _) t.isLt)).2.2)))

/-- The output buffer after band `t` holds the band's rectified output. -/
theorem outs6 (c : Dev nD) (t : Fin cfg0.N) : (outsAt0 V c t.val t.isLt).1 = zb V c t := by
  by_cases h0 : t.val % 10 = 0
  · rw [outs_A V c t h0]
  · rw [outs_B V c t h0]

/-- The first accumulator after band `n` holds the sum over the bands `0 … n` of their column sums. -/
theorem acc7 (c : Dev nD) : ∀ (n : ℕ) (h : n < cfg0.N) (q : Fin 128),
    (outsAt0 V c n h).2.1 (ix2 ⟨0, Nat.one_pos⟩ q)
      = ∑ x : Fin (n + 1), ∑ p : Fin 5000, zb V c ⟨x.val, Nat.lt_of_lt_of_le x.isLt h⟩ (ix2 p q)
  | 0, h, q => by
    have e := outs_A V c ⟨0, h⟩ rfl
    dsimp only at e
    rw [e, Fin.sum_univ_one]
    show k0_pay6 (F := Ideal) (k0_pay3 (F := Ideal)) _ + k0_pay7 (F := Ideal) _ _ _ _ _ _ _ = _
    rw [pay6_eq, pay3_apply, zero_add, pay7_apply]
    rfl
  | n + 1, h, q => by
    have hN : cfg0.N = 10 := N_0
    have h0 : ¬(⟨n + 1, h⟩ : Fin cfg0.N).val % 10 = 0 := by dsimp only; omega
    have e := outs_B V c ⟨n + 1, h⟩ h0
    dsimp only at e
    rw [e, Fin.sum_univ_castSucc]
    show k0_pay6 (F := Ideal) (outsAt0 V c n _).2.1 _ + k0_pay7 (F := Ideal) _ _ _ _ _ _ _ = _
    rw [pay6_eq, pay7_apply, acc7 c n (Nat.lt_of_succ_lt h) q]
    rfl

/-- The second accumulator after band `n` holds the sum over the bands `0 … n` of their column sums of squares. -/
theorem acc8 (c : Dev nD) : ∀ (n : ℕ) (h : n < cfg0.N) (q : Fin 128),
    (outsAt0 V c n h).2.2 (ix2 ⟨0, Nat.one_pos⟩ q)
      = ∑ x : Fin (n + 1), ∑ p : Fin 5000, zb V c ⟨x.val, Nat.lt_of_lt_of_le x.isLt h⟩ (ix2 p q)
          * zb V c ⟨x.val, Nat.lt_of_lt_of_le x.isLt h⟩ (ix2 p q)
  | 0, h, q => by
    have e := outs_A V c ⟨0, h⟩ rfl
    dsimp only at e
    rw [e, Fin.sum_univ_one]
    show k0_pay2 (F := Ideal) _ (k0_pay4 (F := Ideal)) _ = _
    rw [pay2_apply, pay4_apply, zero_add]
    rfl
  | n + 1, h, q => by
    have hN : cfg0.N = 10 := N_0
    have h0 : ¬(⟨n + 1, h⟩ : Fin cfg0.N).val % 10 = 0 := by dsimp only; omega
    have e := outs_B V c ⟨n + 1, h⟩ h0
    dsimp only at e
    rw [e, Fin.sum_univ_castSucc]
    show k0_pay2 (F := Ideal) _ (outsAt0 V c n _).2.2 _ = _
    rw [pay2_apply, acc8 c n (Nat.lt_of_succ_lt h) q]
    rfl

end Cert.KernelIdeal.Mlp0

end
-- ==== Proof.KMlp0.lean ====
/-
  The first kernel of one layer: what its three result arrays hold after the launch.

  Band `t` of the ten bands reads rows `5000 t … 5000 t + 4999` of the node features and of the neighbour sums and the
  whole weight and bias arrays, and writes rows `5000 t …` of the first result; the bands tile the 50000 rows, so the
  first result is the layer's dense part `z` of the whole arrays.  The two one-row results are written once, after the
  last band, with what the accumulators hold then: the sum over the ten bands of the bands' column sums of `z` and of
  `z²`, which is the column sum over all 50000 rows — a finite sum on the extended reals regroups freely.
-/
import proofs.«104403_j38585986187615_1_alg».proof.Proof.Gen.KernelIdeal.Frame
import proofs.«104403_j38585986187615_1_alg».proof.Proof.Spec
import proofs.«104403_j38585986187615_1_alg».proof.Proof.LibSumBlocks
import proofs.«104403_j38585986187615_1_alg».proof.Proof.KMlp0a
import proofs.«104403_j38585986187615_1_alg».proof.Proof.KMlp0b
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Mlp0

open Cert.KernelIdeal Cert.KernelIdeal.Gen

variable (V : (c : Dev nD) → (b : Ref sig .tc) → Buf (Elt Ideal) ((c : Thread nD τ).loc b))

/-- The layer's dense part of the six arrays the kernel reads, as the launch finds them. -/
abbrev Z (c : Dev nD) : S50000x128.Idx → EReal :=
  Cert.Gin.mlp (V c main_arg0) (V c main_v25) (V c main_v5) (row (V c main_v26)) (V c main_v9) (row (V c main_v27))

/-- The printed index maps over the ten bands: the row operands and the first result move with the band, the weight,
    bias and accumulator blocks stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of band `t` is row `5000 t + p` of the array. -/
theorem row_lt (t : Fin cfg0.N) (p : Fin 5000) : t.val * 5000 + p.val < 50000 := by
  have hN : cfg0.N = 10 := N_0
  have h1 := t.isLt
  have h2 := p.isLt
  omega

/-! ## The input blocks, read off the arrays -/

theorem B0_apply (c : Dev nD) (t : Fin cfg0.N) (p : Fin 5000) (k : Fin 128) :
    B0 V c t (ix2 p k) = V c main_arg0 (ix2 ⟨t.val * 5000 + p.val, row_lt t p⟩ k) := by
  obtain ⟨e0, e1, -⟩ := idx_facts t
  unfold B0 iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem B1_apply (c : Dev nD) (t : Fin cfg0.N) (p : Fin 5000) (k : Fin 128) :
    B1 V c t (ix2 p k) = V c main_v25 (ix2 ⟨t.val * 5000 + p.val, row_lt t p⟩ k) := by
  obtain ⟨-, -, e0, e1, -⟩ := idx_facts t
  unfold B1 iblk0
  rw [View.read_apply]
  show V c main_v25 _ = V c main_v25 _
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

theorem B2_eq (c : Dev nD) (t : Fin cfg0.N) : B2 V c t = V c main_v5 := by
  obtain ⟨-, -, -, -, e0, e1, -⟩ := idx_facts t
  funext j
  unfold B2 iblk0
  rw [View.read_apply]
  show V c main_v5 _ = V c main_v5 j
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

theorem B3_eq (c : Dev nD) (t : Fin cfg0.N) : B3 V c t = V c main_v26 := by
  obtain ⟨-, -, -, -, -, -, e0, e1, -⟩ := idx_facts t
  funext j
  unfold B3 iblk0
  rw [View.read_apply]
  show V c main_v26 _ = V c main_v26 j
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

theorem B4_eq (c : Dev nD) (t : Fin cfg0.N) : B4 V c t = V c main_v9 := by
  obtain ⟨-, -, -, -, -, -, -, -, e0, e1, -⟩ := idx_facts t
  funext j
  unfold B4 iblk0
  rw [View.read_apply]
  show V c main_v9 _ = V c main_v9 j
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem B5_eq (c : Dev nD) (t : Fin cfg0.N) : B5 V c t = V c main_v27 := by
  obtain ⟨-, -, -, -, -, -, -, -, -, -, e0, e1, -⟩ := idx_facts t
  funext j
  unfold B5 iblk0
  rw [View.read_apply]
  show V c main_v27 _ = V c main_v27 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

/-- Entry (p, q) of band `t`'s output is entry (5000 t + p, q) of the dense part of the whole arrays. -/
theorem zb_apply (c : Dev nD) (t : Fin cfg0.N) (p : Fin 5000) (q : Fin 128) :
    zb V c t (ix2 p q) = Z V c (ix2 ⟨t.val * 5000 + p.val, row_lt t p⟩ q) := by
  unfold zb
  refine (pay5_apply (B0 V c t) (B1 V c t) (B2 V c t) (B3 V c t) (B4 V c t) (B5 V c t) (ix2 p q)).trans ?_
  rw [B2_eq, B3_eq, B4_eq, B5_eq]
  exact dense_congr (n := 5000) (n' := 50000) (B0 V c t) (B1 V c t) (V c main_arg0) (V c main_v25) (V c main_v5)
    (row (V c main_v26)) (V c main_v9) (row (V c main_v27)) p ⟨t.val * 5000 + p.val, row_lt t p⟩ q
    (B0_apply V c t p) (B1_apply V c t p)

/-! ## The first result: the bands tile it -/

/-- What band `t` writes back is band `t` of `Z`. -/
theorem flushed6_eq (c : Dev nD) (t : Fin cfg0.N) :
    (dat0 V c).flushed 6 t = ((cfg0.win 6).blk t).view.read (Elt Ideal) (Z V c) := by
  show (cfg0.win 6).cut (grid0.coords t) ((dat0 V c).after 6 t) = _
  rw [after0_6, outs6]
  obtain ⟨-, -, -, -, -, -, -, -, -, -, -, -, e0, e1, -⟩ := idx_facts t
  funext j
  obtain ⟨p, q, rfl⟩ : ∃ (p : Fin 5000) (q : Fin 128), j = ix2 p q := ⟨j 0, j 1, eq_ix2 j⟩
  refine (zb_apply V c t p q).trans ?_
  rw [View.read_apply]
  show Z V c _ = Z V c _
  congr 1
  funext a
  apply Fin.ext
  match a with
  | ⟨0, _⟩ => show t.val * 5000 + p.val = win0_6.index t (0 : Fin 2) * 5000 + 1 * p.val; rw [e0]; omega
  | ⟨1, _⟩ => show q.val = win0_6.index t (1 : Fin 2) * 128 + 1 * q.val; rw [e1]; omega

/-- An index of the first result is in band `t`'s block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v28_0).slice (win0_6.rect t)).set ↔ _
  rw [View.set_slice_whole, Rect.mem_set_unit]
  exact Iff.rfl

/-- The first result array ends holding `Z`. -/
theorem final6 (c : Dev nD) : (dat0 V c).arrAt 6 cfg0.N = Z V c :=
  (dat0 V c).arrAt_eq_of_cover 6 (Z V c) (fun t _ => flushed6_eq V c t) fun i => by
    have hN : cfg0.N = 10 := N_0
    have hi0 : (i 0).val < 50000 := (i 0).isLt
    have hi1 : (i 1).val < 128 := (i 1).isLt
    obtain ⟨-, -, -, -, -, -, -, -, -, -, -, -, e0, e1, -⟩ := idx_facts ⟨(i 0).val / 5000, by omega⟩
    refine ⟨⟨(i 0).val / 5000, by omega⟩, flush0_6 _, ?_⟩
    rw [mem_blk6]
    intro a
    match a with
    | ⟨0, _⟩ =>
      show win0_6.index _ (0 : Fin 2) * 5000 ≤ (i 0).val ∧ (i 0).val < win0_6.index _ (0 : Fin 2) * 5000 + 5000
      rw [e0]; dsimp only; omega
    | ⟨1, _⟩ =>
      show win0_6.index _ (1 : Fin 2) * 128 ≤ (i 1).val ∧ (i 1).val < win0_6.index _ (1 : Fin 2) * 128 + 128
      rw [e1]; omega

/-! ## The two accumulators: written back once, after the last band -/

/-- The ten bands' column sums add up to the column sum over all rows. -/
theorem bands_sum (c : Dev nD) (q : Fin 128) (h : 9 < cfg0.N) :
    ∑ x : Fin (9 + 1), ∑ p : Fin 5000, zb V c ⟨x.val, Nat.lt_of_lt_of_le x.isLt h⟩ (ix2 p q)
      = Cert.Gin.colSum (Z V c) q :=
  (Finset.sum_congr rfl fun x _ => Finset.sum_congr rfl fun p _ =>
      zb_apply V c ⟨x.val, Nat.lt_of_lt_of_le x.isLt h⟩ p q).trans
    (Cert.SumBlocks.sum_fin_blocks 10 5000 rfl (fun r : Fin 50000 => Z V c (ix2 r q))).symm

/-- The same for the squares. -/
theorem bands_sum_sq (c : Dev nD) (q : Fin 128) (h : 9 < cfg0.N) :
    ∑ x : Fin (9 + 1), ∑ p : Fin 5000, zb V c ⟨x.val, Nat.lt_of_lt_of_le x.isLt h⟩ (ix2 p q)
        * zb V c ⟨x.val, Nat.lt_of_lt_of_le x.isLt h⟩ (ix2 p q)
      = Cert.Gin.colSum (fun i' => Z V c i' * Z V c i') q :=
  (Finset.sum_congr rfl fun x _ => Finset.sum_congr rfl fun p _ =>
      congrArg (fun y => y * y) (zb_apply V c ⟨x.val, Nat.lt_of_lt_of_le x.isLt h⟩ p q)).trans
    (Cert.SumBlocks.sum_fin_blocks 10 5000 rfl (fun r : Fin 50000 => Z V c (ix2 r q) * Z V c (ix2 r q))).symm

/-- The block of a one-row array read through window 7 is the array. -/
theorem read_blk7 (G : S1x128.Idx → EReal) (t : Fin cfg0.N) (q : Fin 128) :
    ((cfg0.win 7).blk t).view.read (Elt Ideal) G (ix2 ⟨0, Nat.one_pos⟩ q) = G (ix2 ⟨0, Nat.one_pos⟩ q) := by
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  rw [View.read_apply]
  show G _ = G _
  congr 1
  funext a
  apply Fin.ext
  match a with
  | ⟨0, _⟩ => show win0_7.index t (0 : Fin 2) * 1 + 1 * 0 = 0; rw [e0]
  | ⟨1, _⟩ => show win0_7.index t (1 : Fin 2) * 128 + 1 * q.val = q.val; rw [e1]; omega

/-- The one write-back of the second result, after band 9, writes the column sums of `Z`. -/
theorem flushed7_eq (c : Dev nD) (t : Fin cfg0.N) (hf : (cfg0.win 7).flush t = true) :
    (dat0 V c).flushed 7 t = ((cfg0.win 7).blk t).view.read (Elt Ideal)
      (fun i : S1x128.Idx => Cert.Gin.colSum (Z V c) (i 1)) := by
  have hN : cfg0.N = 10 := N_0
  have h9 : t.val = 9 := by have := (flush0_7 t).mp hf; have := t.isLt; omega
  obtain ⟨n, hn⟩ := t
  dsimp only at h9
  show (cfg0.win 7).cut (grid0.coords ⟨n, hn⟩) ((dat0 V c).after 7 ⟨n, hn⟩) = _
  rw [after0_7]
  funext j
  obtain ⟨r, q, rfl⟩ : ∃ (r : Fin 1) (q : Fin 128), j = ix2 r q := ⟨j 0, j 1, eq_ix2 j⟩
  obtain rfl : r = ⟨0, Nat.one_pos⟩ := Subsingleton.elim _ _
  refine (acc7 V c n hn q).trans ?_
  refine Eq.trans ?_ (read_blk7 (fun i : S1x128.Idx => Cert.Gin.colSum (Z V c) (i 1)) ⟨n, hn⟩ q).symm
  subst h9
  exact bands_sum V c q hn

/-- An index of a one-row result is in its one block. -/
theorem mem_blk7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v28_1).slice (win0_7.rect t)).set ↔ _
  rw [View.set_slice_whole, Rect.mem_set_unit]
  exact Iff.rfl

/-- The second result array ends holding the column sums of `Z`. -/
theorem final7 (c : Dev nD) : (dat0 V c).arrAt 7 cfg0.N = fun i => Cert.Gin.colSum (Z V c) (i 1) :=
  (dat0 V c).arrAt_eq_of_cover 7 (fun i : S1x128.Idx => Cert.Gin.colSum (Z V c) (i 1)) (flushed7_eq V c) fun i => by
    have hN : cfg0.N = 10 := N_0
    have hi0 : (i 0).val < 1 := (i 0).isLt
    have hi1 : (i 1).val < 128 := (i 1).isLt
    obtain ⟨-, -, -, -, -, -, -, -, -, -, -, -, -, -, e0, e1, -⟩ := idx_facts ⟨9, by omega⟩
    refine ⟨⟨9, by omega⟩, (flush0_7 _).mpr rfl, ?_⟩
    rw [mem_blk7]
    intro a
    match a with
    | ⟨0, _⟩ =>
      show win0_7.index _ (0 : Fin 2) * 1 ≤ (i 0).val ∧ (i 0).val < win0_7.index _ (0 : Fin 2) * 1 + 1
      rw [e0]; omega
    | ⟨1, _⟩ =>
      show win0_7.index _ (1 : Fin 2) * 128 ≤ (i 1).val ∧ (i 1).val < win0_7.index _ (1 : Fin 2) * 128 + 128
      rw [e1]; omega

/-- The block of a one-row array read through window 8 is the array. -/
theorem read_blk8 (G : S1x128.Idx → EReal) (t : Fin cfg0.N) (q : Fin 128) :
    ((cfg0.win 8).blk t).view.read (Elt Ideal) G (ix2 ⟨0, Nat.one_pos⟩ q) = G (ix2 ⟨0, Nat.one_pos⟩ q) := by
  have e0 : win0_8.index t (0 : Fin 2) = 0 := (idx_facts t).2.2.2.2.2.2.2.2.2.2.2.2.2.2.2.2.1
  have e1 : win0_8.index t (1 : Fin 2) = 0 := (idx_facts t).2.2.2.2.2.2.2.2.2.2.2.2.2.2.2.2.2
  rw [View.read_apply]
  show G _ = G _
  congr 1
  funext a
  apply Fin.ext
  match a with
  | ⟨0, _⟩ => show win0_8.index t (0 : Fin 2) * 1 + 1 * 0 = 0; rw [e0]
  | ⟨1, _⟩ => show win0_8.index t (1 : Fin 2) * 128 + 1 * q.val = q.val; rw [e1]; omega

/-- The one write-back of the third result, after band 9, writes the column sums of the squares of `Z`. -/
theorem flushed8_eq (c : Dev nD) (t : Fin cfg0.N) (hf : (cfg0.win 8).flush t = true) :
    (dat0 V c).flushed 8 t = ((cfg0.win 8).blk t).view.read (Elt Ideal)
      (fun i : S1x128.Idx => Cert.Gin.colSum (fun i' => Z V c i' * Z V c i') (i 1)) := by
  have hN : cfg0.N = 10 := N_0
  have h9 : t.val = 9 := by have := (flush0_8 t).mp hf; have := t.isLt; omega
  obtain ⟨n, hn⟩ := t
  dsimp only at h9
  show (cfg0.win 8).cut (grid0.coords ⟨n, hn⟩) ((dat0 V c).after 8 ⟨n, hn⟩) = _
  rw [after0_8]
  funext j
  obtain ⟨r, q, rfl⟩ : ∃ (r : Fin 1) (q : Fin 128), j = ix2 r q := ⟨j 0, j 1, eq_ix2 j⟩
  obtain rfl : r = ⟨0, Nat.one_pos⟩ := Subsingleton.elim _ _
  refine (acc8 V c n hn q).trans ?_
  refine Eq.trans ?_ (read_blk8 (fun i : S1x128.Idx => Cert.Gin.colSum (fun i' => Z V c i' * Z V c i') (i 1)) ⟨n, hn⟩ q).symm
  subst h9
  exact bands_sum_sq V c q hn

theorem mem_blk8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v28_2).slice (win0_8.rect t)).set ↔ _
  rw [View.set_slice_whole, Rect.mem_set_unit]
  exact Iff.rfl

/-- The third result array ends holding the column sums of the squares of `Z`. -/
theorem final8 (c : Dev nD) :
    (dat0 V c).arrAt 8 cfg0.N = fun i => Cert.Gin.colSum (fun i' => Z V c i' * Z V c i') (i 1) :=
  (dat0 V c).arrAt_eq_of_cover 8 (fun i : S1x128.Idx => Cert.Gin.colSum (fun i' => Z V c i' * Z V c i') (i 1))
    (flushed8_eq V c) fun i => by
    have hN : cfg0.N = 10 := N_0
    have hi0 : (i 0).val < 1 := (i 0).isLt
    have hi1 : (i 1).val < 128 := (i 1).isLt
    obtain ⟨-, -, -, -, -, -, -, -, -, -, -, -, -, -, -, -, e0, e1⟩ := idx_facts ⟨9, by omega⟩
    refine ⟨⟨9, by omega⟩, (flush0_8 _).mpr rfl, ?_⟩
    rw [mem_blk8]
    intro a
    match a with
    | ⟨0, _⟩ =>
      show win0_8.index _ (0 : Fin 2) * 1 ≤ (i 0).val ∧ (i 0).val < win0_8.index _ (0 : Fin 2) * 1 + 1
      rw [e0]; omega
    | ⟨1, _⟩ =>
      show win0_8.index _ (1 : Fin 2) * 128 ≤ (i 1).val ∧ (i 1).val < win0_8.index _ (1 : Fin 2) * 128 + 128
      rw [e1]; omega

end Cert.KernelIdeal.Mlp0

end
-- ==== Proof.KBn1.lean ====
/-
  The normalisation kernel of one layer (a launch over ten row bands of 5000 nodes): what its result array holds.

  Band `t` of the result is computed from band `t` of `z` and the four one-row arrays (mean, variance, scale, shift),
  every entry by the same formula  g · (z − μ) · (var + ε)^(-1/2) + β  of its own column's statistics; the ten bands
  tile the 50000 rows, so the array is that formula of the whole arrays, index by index.
-/
import proofs.«104403_j38585986187615_1_alg».proof.Proof.Gen.KernelIdeal.Frame
import proofs.«104403_j38585986187615_1_alg».proof.Proof.Spec
import proofs.«104403_j38585986187615_1_alg».proof.Proof.LibBiasRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Bn1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row 0 of a one-row array, as a function of the column. -/
abbrev row (x : S1x128.Idx → EReal) : Fin 128 → EReal := fun j => x (ix2 ⟨0, Nat.one_pos⟩ j)

/-- The normalised array as a function of the five arrays the kernel reads. -/
abbrev G (z : S50000x128.Idx → EReal) (mu var g be : S1x128.Idx → EReal) : S50000x128.Idx → EReal :=
  Cert.Gin.bn z (row mu) (row var) (row g) (row be)

/-- The body's arithmetic at an entry (p, q) of a band: the band's entry and column q of the four rows. -/
theorem pay_apply (v0 v5 : Vec Ideal S1x128 .f32) (v7 : Vec Ideal S5000x128 .f32) (v9 v17 : Vec Ideal S1x128 .f32)
    (p : Fin 5000) (q : Fin 128) :
    k1_pay1 (F := Ideal) v0 v5 v7 v9 v17 (ix2 p q)
      = row v5 q * (v7 (ix2 p q) - row v9 q) * Ideal.rsqrt (row v0 q + Cert.Gin.epsW) + row v17 q := by
  unfold k1_pay1
  simp only [shapeCast_self]
  show (_ * (_ - _)) * _ + _ = _
  rw [Cert.LibBiasRows.row_broadcast, Cert.LibBiasRows.row_broadcast, Cert.LibBiasRows.row_broadcast,
    Cert.LibBiasRows.row_broadcast]
  rfl

/-- The formula at an entry reads `z` at that entry and the four rows at the entry's column. -/
theorem G_congr (z : S50000x128.Idx → EReal) (mu var g be : S1x128.Idx → EReal) (i0 i5 : S50000x128.Idx)
    (i1 i2 i3 i4 : S1x128.Idx) (h0 : i0 = i5) (h1 : i1 = ix2 ⟨0, Nat.one_pos⟩ (i5 1))
    (h2 : i2 = ix2 ⟨0, Nat.one_pos⟩ (i5 1)) (h3 : i3 = ix2 ⟨0, Nat.one_pos⟩ (i5 1))
    (h4 : i4 = ix2 ⟨0, Nat.one_pos⟩ (i5 1)) :
    g i3 * (z i0 - mu i1) * Ideal.rsqrt (var i2 + Cert.Gin.epsW) + be i4 = G z mu var g be i5 := by
  subst h0 h1 h2 h3 h4; rfl

/-- The index maps over the ten bands: the band of `z` moves with the result's band, the one-row arrays stay. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry (p, q) of band `t` of `z` sits where entry (p, q) of band `t` of the result sits: row t · 5000 + p, column q. -/
theorem emb0 (t : Fin cfg1.N) (p : Fin 5000) (q : Fin 128) :
    ((cfg1.win 0).blk t).view.emb (ix2 p q) = ((cfg1.win 5).blk t).view.emb (ix2 p q) := by
  obtain ⟨e0, e1, e2, e3, e4, e5, e6, e7, e8, e9, e10, e11⟩ := idx_facts t
  funext a; apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 128 + 1 * q.val = win1_5.index t (1 : Fin 2) * 128 + 1 * q.val; omega

/-- Column q of the mean's row is the column of the result's entry (p, q) of any band. -/
theorem emb1 (t : Fin cfg1.N) (p : Fin 5000) (q : Fin 128) :
    ((cfg1.win 1).blk t).view.emb (ix2 ⟨0, Nat.one_pos⟩ q)
      = ix2 ⟨0, Nat.one_pos⟩ ((((cfg1.win 5).blk t).view.emb (ix2 p q)) 1) := by
  obtain ⟨e0, e1, e2, e3, e4, e5, e6, e7, e8, e9, e10, e11⟩ := idx_facts t
  funext a; apply Fin.ext
  match a with
  | ⟨0, _⟩ => show win1_1.index t (0 : Fin 2) * 1 + 1 * 0 = 0; omega
  | ⟨1, _⟩ => show win1_1.index t (1 : Fin 2) * 128 + 1 * q.val = win1_5.index t (1 : Fin 2) * 128 + 1 * q.val; omega

/-- The same for the variance's row. -/
theorem emb2 (t : Fin cfg1.N) (p : Fin 5000) (q : Fin 128) :
    ((cfg1.win 2).blk t).view.emb (ix2 ⟨0, Nat.one_pos⟩ q)
      = ix2 ⟨0, Nat.one_pos⟩ ((((cfg1.win 5).blk t).view.emb (ix2 p q)) 1) := by
  obtain ⟨e0, e1, e2, e3, e4, e5, e6, e7, e8, e9, e10, e11⟩ := idx_facts t
  funext a; apply Fin.ext
  match a with
  | ⟨0, _⟩ => show win1_2.index t (0 : Fin 2) * 1 + 1 * 0 = 0; omega
  | ⟨1, _⟩ => show win1_2.index t (1 : Fin 2) * 128 + 1 * q.val = win1_5.index t (1 : Fin 2) * 128 + 1 * q.val; omega

/-- The same for the scale's row. -/
theorem emb3 (t : Fin cfg1.N) (p : Fin 5000) (q : Fin 128) :
    ((cfg1.win 3).blk t).view.emb (ix2 ⟨0, Nat.one_pos⟩ q)
      = ix2 ⟨0, Nat.one_pos⟩ ((((cfg1.win 5).blk t).view.emb (ix2 p q)) 1) := by
  obtain ⟨e0, e1, e2, e3, e4, e5, e6, e7, e8, e9, e10, e11⟩ := idx_facts t
  funext a; apply Fin.ext
  match a with
  | ⟨0, _⟩ => show win1_3.index t (0 : Fin 2) * 1 + 1 * 0 = 0; omega
  | ⟨1, _⟩ => show win1_3.index t (1 : Fin 2) * 128 + 1 * q.val = win1_5.index t (1 : Fin 2) * 128 + 1 * q.val; omega

/-- The same for the shift's row. -/
theorem emb4 (t : Fin cfg1.N) (p : Fin 5000) (q : Fin 128) :
    ((cfg1.win 4).blk t).view.emb (ix2 ⟨0, Nat.one_pos⟩ q)
      = ix2 ⟨0, Nat.one_pos⟩ ((((cfg1.win 5).blk t).view.emb (ix2 p q)) 1) := by
  obtain ⟨e0, e1, e2, e3, e4, e5, e6, e7, e8, e9, e10, e11⟩ := idx_facts t
  funext a; apply Fin.ext
  match a with
  | ⟨0, _⟩ => show win1_4.index t (0 : Fin 2) * 1 + 1 * 0 = 0; omega
  | ⟨1, _⟩ => show win1_4.index t (1 : Fin 2) * 128 + 1 * q.val = win1_5.index t (1 : Fin 2) * 128 + 1 * q.val; omega

/-- What band `t` writes back is band `t` of `G` of the arrays as the launch finds them. -/
theorem flushed_eq (c : Dev nD) (t : Fin cfg1.N) :
    (dat1 V c).flushed 5 t = ((cfg1.win 5).blk t).view.read (Elt Ideal)
      (G (V c main_v28_0) (V c main_v30) (V c main_v34) (V c main_v35) (V c main_v36)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_apply _ _ _ _ _ p q).trans ?_
  exact G_congr (V c main_v28_0) (V c main_v30) (V c main_v34) (V c main_v35) (V c main_v36)
    (((cfg1.win 0).blk t).view.emb (ix2 p q)) (((cfg1.win 5).blk t).view.emb (ix2 p q))
    (((cfg1.win 1).blk t).view.emb (ix2 ⟨0, Nat.one_pos⟩ q)) (((cfg1.win 2).blk t).view.emb (ix2 ⟨0, Nat.one_pos⟩ q))
    (((cfg1.win 3).blk t).view.emb (ix2 ⟨0, Nat.one_pos⟩ q)) (((cfg1.win 4).blk t).view.emb (ix2 ⟨0, Nat.one_pos⟩ q))
    (emb0 t p q) (emb1 t p q) (emb2 t p q) (emb3 t p q) (emb4 t p q)

/-- An index of the result is in band `t` iff each coordinate is in the band's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v37).slice (win1_5.rect t)).set ↔ _
  rw [View.set_slice_whole, Rect.mem_set_unit]
  exact Iff.rfl

/-- The ten bands tile the 50000 rows: row r is in band r / 5000, which is written back. -/
theorem cover (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  have ht : (i 0).val / 5000 < cfg1.N := by omega
  obtain ⟨e0, e1, e2, e3, -⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e2]; show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e3]; omega

/-- The result array after the launch: the normalisation formula of the five arrays the launch finds, index by index. -/
theorem final (c : Dev nD) : (dat1 V c).arrAt 5 cfg1.N
    = G (V c main_v28_0) (V c main_v30) (V c main_v34) (V c main_v35) (V c main_v36) :=
  (dat1 V c).arrAt_eq_of_cover 5 _ (fun t _ => flushed_eq V c t) (fun i => cover i)

end Cert.KernelIdeal.Bn1

end
-- ==== Proof.LibRowScatter.lean ====
/-
  Rows of a two-dimensional table read through an integer index column, and updates added into rows.

  A table `x : [R, C]` and an index array `idx : [n, 1]`.
  * GATHER OF ROWS (the gather operation with offset axis 1, collapsed slice axis 0, start index map `[0]`, index vector
    axis 1, slice sizes `[1, C]`): result element `(e, k)` is `x` at row `idx[e, 0]` — read as a signed integer, negative
    values truncated to 0, then clamped to at most `R − 1` — and column `k` (`gather_rows_apply`).
  * SCATTER-ADD INTO ROWS (the scatter operation with an `add` body, update window axis 1, inserted window axis 0,
    scatter-dims-to-operand-dims `[0]`, index vector axis 1): update element `(e, k)` lands at row `idx[e, 0]` read as a
    signed integer and column `k`, when that row is in `[0, R)`, and is dropped otherwise; so result element `(r, o)` is
    `x (r, o)` plus the sum over the `e` whose index is exactly `r` of the update `(e, o)` (`scatterAdd_rows_apply`).
  Both are generic in the sizes `R`, `C`, `n` and in the index width `w`; the dimension-number records take their
  well-formedness condition as a hypothesis, which is decided on literal sizes.
-/
import Idealize.ShloMosaic.PureOps.Ideal
import Idealize.ShloMosaic.Lib.ValueIdx

noncomputable section

open scoped BigOperators

namespace Cert.RowOps

open Idealize.ShloMosaic Idealize.ShloMosaic.ValueIdx

/-! ## Gather of rows -/

/-- The dimension numbers of a gather of whole rows: operand `[R, C]`, start indices `[n, 1]`, result `[n, C]`; the
    result's axis 1 is the offset axis, the operand's axis 0 is collapsed and is the one the start index names, the
    index vector lies along axis 1 of the start indices, and a slice is one row (`[1, C]`). -/
abbrev rowGather (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, k)`: the table at row `idx[e, 0]`, read signed, truncated at 0 and clamped to
    `R − 1`, and column `k`. -/
theorem gather_rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowGather R C n wf) x idx (ix2 e k)
      = x (ix2 ⟨min (idx (ix2 e 0)).toInt.toNat (R - 1), by omega⟩ k) := by
  unfold Host.gather
  congr 1
  funext a
  refine Fin.ext ?_
  match a with
  | ⟨0, _⟩ =>
    -- the row axis: the clamped start index; no batching coordinate, and no offset coordinate on a collapsed axis
    show (rowGather R C n wf).start (ix2 e k) idx 0 + (rowGather R C n wf).batchCoord (ix2 e k) 0
      + (rowGather R C n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C n wf).startIndexMap from List.mem_singleton.mpr rfl)]
    have hsi : (rowGather R C n wf).siIdx (ix2 e k) ⟨List.idxOf (0 : Fin 2) (rowGather R C n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not named by the start index map, so the start is 0 and the coordinate is the offset `k`
    show (rowGather R C n wf).start (ix2 e k) idx 1 + (rowGather R C n wf).batchCoord (ix2 e k) 1
      + (rowGather R C n wf).offCoord (ix2 e k) 1 = k.val
    rw [GatherDims.batchCoord_eq_zero _ _ _ List.not_mem_nil]
    have hst : (rowGather R C n wf).start (ix2 e k) idx 1 = 0 := by
      unfold GatherDims.start
      rw [dif_neg (show (1 : Fin 2) ∉ (rowGather R C n wf).startIndexMap from
        fun h => absurd (List.mem_singleton.mp h) (show (1 : Fin 2) ≠ 0 from by decide))]
    have hk : (1 : Fin 2) ∈ (rowGather R C n wf).sKept :=
      (GatherDims.mem_sKept _ _).mpr
        ⟨fun h => absurd (List.mem_singleton.mp h) (show (1 : Fin 2) ≠ 0 from by decide), List.not_mem_nil⟩
    rw [hst]
    unfold GatherDims.offCoord
    rw [dif_pos hk]
    simp only [Nat.zero_add, Nat.add_zero]
    rfl

/-! ## Scatter-add into rows -/

/-- The dimension numbers of a scatter of whole-row updates: operand `[R, C]`, scatter indices `[n, 1]`, updates
    `[n, C]`; the updates' axis 1 is the window axis, the operand's axis 0 is the inserted window axis and the one the
    scatter index names, and the index vector lies along axis 1 of the scatter indices. -/
abbrev rowScatter (R C n : Nat) (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

section
variable {R C n w : Nat} (wf : ScatterDims.WF ⟨2, ![R, C]⟩ ⟨2, ![n, 1]⟩ ⟨2, ![n, C]⟩ [1] [0] [0] 1)
  (idx : IVec ⟨2, ![n, 1]⟩ w) (e : Fin n) (k : Fin C)

/-- On the row axis the window of update `(e, k)` starts at `idx[e, 0]` read as a signed integer (not clamped). -/
theorem rowScatter_start0 :
    (rowScatter R C n wf).start (ix2 e k) idx 0 = (idx (ix2 e 0)).toInt := by
  unfold ScatterDims.start
  rw [dif_pos (show (0 : Fin 2) ∈ (rowScatter R C n wf).scatterDimsToOperandDims from List.mem_singleton.mpr rfl)]
  have hsi : (rowScatter R C n wf).siIdx (ix2 e k) ⟨List.idxOf (0 : Fin 2) (rowScatter R C n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the scatter index does not name, the window starts at 0. -/
theorem rowScatter_start1 : (rowScatter R C n wf).start (ix2 e k) idx 1 = 0 := by
  unfold ScatterDims.start
  rw [dif_neg (show (1 : Fin 2) ∉ (rowScatter R C n wf).scatterDimsToOperandDims from
    fun h => absurd (List.mem_singleton.mp h) (show (1 : Fin 2) ≠ 0 from by decide))]

/-- The row axis is an inserted window axis: the window coordinate there is 0. -/
theorem rowScatter_window0 : (rowScatter R C n wf).window (ix2 e k) 0 = 0 := by
  unfold ScatterDims.window
  rw [dif_neg]
  intro h
  simp [ScatterDims.sKept, Shape.kept] at h

/-- On the column axis the window coordinate of update `(e, k)` is `k`. -/
theorem rowScatter_window1 : (rowScatter R C n wf).window (ix2 e k) 1 = k.val := by
  have hk : (1 : Fin 2) ∈ (rowScatter R C n wf).sKept := by
    simp [ScatterDims.sKept, Shape.kept]
  unfold ScatterDims.window
  rw [dif_pos hk]
  rfl

/-- WHERE AN UPDATE LANDS: update `(e, k)` lands at `(r, o)` exactly when `idx[e, 0]`, read signed, is the row `r` and
    `k` is the column `o` (an index outside `[0, R)` is no row, so that update lands nowhere). -/
theorem rowScatter_resultIdx?_eq_some (r : Fin R) (o : Fin C) :
    (rowScatter R C n wf).resultIdx? (ix2 e k) idx = some (ix2 r o)
      ↔ (idx (ix2 e 0)).toInt = (r.val : Int) ∧ k = o := by
  have hs0 := rowScatter_start0 wf idx e k
  have hs1 := rowScatter_start1 wf idx e k
  have hw0 := rowScatter_window0 wf e k
  have hw1 := rowScatter_window1 wf e k
  unfold ScatterDims.resultIdx?
  constructor
  · intro h
    split at h
    · rename_i hall
      have h' := Option.some.inj h
      have h0 : ((rowScatter R C n wf).start (ix2 e k) idx 0
          + ((rowScatter R C n wf).window (ix2 e k) 0 : Nat)).toNat = r.val :=
        congrArg (fun f => (f 0).val) h'
      have h1 : ((rowScatter R C n wf).start (ix2 e k) idx 1
          + ((rowScatter R C n wf).window (ix2 e k) 1 : Nat)).toNat = o.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hr : r.val < R := r.isLt
    have hk : k.val < C := k.isLt
    have hall : ∀ a, 0 ≤ (rowScatter R C n wf).start (ix2 e k) idx a + ((rowScatter R C n wf).window (ix2 e k) a : Nat)
        ∧ (rowScatter R C n wf).start (ix2 e k) idx a + ((rowScatter R C n wf).window (ix2 e k) a : Nat)
          < ((⟨2, ![R, C]⟩ : Shape).size a : Nat) := by
      intro a
      match a with
      | ⟨0, _⟩ =>
        show 0 ≤ (rowScatter R C n wf).start (ix2 e k) idx 0 + ((rowScatter R C n wf).window (ix2 e k) 0 : Nat)
          ∧ (rowScatter R C n wf).start (ix2 e k) idx 0 + ((rowScatter R C n wf).window (ix2 e k) 0 : Nat) < (R : Int)
        rw [hs0, hw0, h0]; omega
      | ⟨1, _⟩ =>
        show 0 ≤ (rowScatter R C n wf).start (ix2 e k) idx 1 + ((rowScatter R C n wf).window (ix2 e k) 1 : Nat)
          ∧ (rowScatter R C n wf).start (ix2 e k) idx 1 + ((rowScatter R C n wf).window (ix2 e k) 1 : Nat) < (C : Int)
        rw [hs1, hw1]; omega
    rw [dif_pos hall]
    congr 1
    funext a
    refine Fin.ext ?_
    match a with
    | ⟨0, _⟩ =>
      show ((rowScatter R C n wf).start (ix2 e k) idx 0
        + ((rowScatter R C n wf).window (ix2 e k) 0 : Nat)).toNat = r.val
      rw [hs0, hw0, h0]; omega
    | ⟨1, _⟩ =>
      show ((rowScatter R C n wf).start (ix2 e k) idx 1
        + ((rowScatter R C n wf).window (ix2 e k) 1 : Nat)).toNat = k.val
      rw [hs1, hw1]; omega

end

/-- THE SCATTER-ADD INTO ROWS READ AT `(r, o)`: the operand's element plus the sum, over the updates `e` whose index
    `idx[e, 0]` read signed is exactly `r`, of the update's element in column `o`. -/
theorem scatterAdd_rows_apply {R C n w : Nat} (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (o : Fin C) :
    Ideal.hostScatterAdd (rowScatter R C n wf) x idx upd (ix2 r o)
      = x (ix2 r o) + ∑ e : Fin n, if (idx (ix2 e 0)).toInt = (r.val : Int) then upd (ix2 e o) else 0 := by
  unfold Ideal.hostScatterAdd
  congr 1
  -- the filtered sum as a sum of `if`s, over the two coordinates of the update index
  rw [Finset.sum_filter, sum_idx2]
  refine Finset.sum_congr rfl fun e _ => ?_
  simp only [rowScatter_resultIdx?_eq_some wf idx e _ r o]
  by_cases hA : (idx (ix2 e 0)).toInt = (r.val : Int)
  · -- the index is the row: of the columns only `o` contributes
    simp only [hA, true_and, if_true]
    rw [Finset.sum_ite_eq' Finset.univ o (fun k => upd (ix2 e k))]
    simp
  · simp [hA]

end Cert.RowOps

end
-- ==== Proof.RefLayerLib.lean ====
/-
  Readings shared by the three layers of the reference program: an index function given by its coordinates is the
  index built from those coordinates; a sum over a contraction index whose operands are read at (row, k) and
  (k, column) is an entry of the dense product; a sum down a column is the column sum; and the scatter-add, into a
  table of zeros, of the rows gathered through an index column is the neighbour sum.
-/
import proofs.«104403_j38585986187615_1_alg».proof.Proof.RefReadP
import proofs.«104403_j38585986187615_1_alg».proof.Proof.Spec
import proofs.«104403_j38585986187615_1_alg».proof.Proof.LibRowScatter
import proofs.«104403_j38585986187615_1_alg».proof.Proof.LibDense

noncomputable section

namespace Cert.RefLayers

open Cert.ReferenceIdeal Cert.ReferenceIdeal.Gen Idealize.ShloMosaic Idealize.ShloMosaic.ValueIdx

/-- A rank-2 index with coordinates `a` and `b` is `ix2 a b`. -/
theorem idx2_eq {n0 n1 : Nat} (f : (⟨2, ![n0, n1]⟩ : Shape).Idx) (a : Fin n0) (b : Fin n1) (h0 : f 0 = a) (h1 : f 1 = b) :
    f = ix2 a b := by
  subst h0 h1
  exact eq_ix2 f

/-- A rank-1 index with coordinate `a` is `ix1 a`. -/
theorem idx1_eq {n : Nat} (f : (⟨1, ![n]⟩ : Shape).Idx) (a : Fin n) (h0 : f 0 = a) : f = ix1 a := by
  subst h0
  exact eq_ix1 f

/-- A sum over `k` of a left operand at (row of `i`, `k`) times a right operand at (`k`, column of `i`) is the entry
    `i` of the dense product. -/
theorem dot_sum (a : Cert.Gin.SN.Idx → EReal) (w : Cert.Gin.SW.Idx → EReal) (i : Cert.Gin.SN.Idx)
    (l : Fin 128 → Cert.Gin.SN.Idx) (r : Fin 128 → Cert.Gin.SW.Idx)
    (hl : ∀ k, l k = ix2 (i 0) k) (hr : ∀ k, r k = ix2 k (i 1)) :
    ∑ k : Fin 128, a (l k) * w (r k) = Cert.LibDense.prod (n := 50000) (K := 128) (d := 128) a w i := by
  unfold Cert.LibDense.prod
  exact Finset.sum_congr rfl fun k _ => congrArg₂ (· * ·) (congrArg a (hl k)) (congrArg w (hr k))

/-- A sum over the rows `k` of a table read at (`k`, `j`) is the sum of column `j`. -/
theorem col_sum (z : Cert.Gin.SN.Idx → EReal) (j : Fin 128) (f : Fin 50000 → Cert.Gin.SN.Idx)
    (hf : ∀ k, f k = ix2 k j) : ∑ k : Fin 50000, z (f k) = Cert.Gin.colSum z j := by
  unfold Cert.Gin.colSum
  exact Finset.sum_congr rfl fun k _ => congrArg z (hf k)

/-- The rows of `h` gathered through the source column, added into a table of zeros at the rows the destination
    column names, are the neighbour sum of `h`. -/
theorem scatter_gather (h z : Cert.Gin.SN.Idx → EReal) (hz : ∀ i, z i = 0) (src dst : IVec Cert.Gin.SE 32) :
    Host.scatterAdd (F := Ideal) (φ := .f32) scatter_S50000x128_S800000x1_S800000x128_1_0_0_1 z dst
      (Host.gather gather_S50000x128_S800000x1_S800000x128_1_0_n_n_0_1_1128 h src) = Cert.Gin.agg h src dst := by
  funext i
  obtain ⟨r, o, rfl⟩ : ∃ (r : Fin 50000) (o : Fin 128), i = ix2 r o := ⟨i 0, i 1, eq_ix2 i⟩
  show Ideal.hostScatterAdd (Cert.RowOps.rowScatter 50000 128 800000 _) z dst
      (Host.gather (Cert.RowOps.rowGather 50000 128 800000 _) h src) (ix2 r o) = _
  rw [Cert.RowOps.scatterAdd_rows_apply, hz]
  unfold Cert.Gin.agg
  refine congrArg (fun s => (0 : EReal) + s) (Finset.sum_congr rfl fun e _ => ?_)
  rw [Cert.RowOps.gather_rows_apply (by decide)]

end Cert.RefLayers

end
-- ==== Proof.RefLayer1.lean ====
/-
  Layer 1 of the reference program is one application of the mathematical layer: its stages, read bottom up, are the
  neighbour sum, the two rectified dense layers, the column mean, the two-pass column variance and the normalisation.
-/
import proofs.«104403_j38585986187615_1_alg».proof.Proof.RefLayerLib

noncomputable section

namespace Cert.RefLayers.L1

open Cert.ReferenceIdeal Cert.ReferenceIdeal.Gen Cert.ReferenceIdeal.ReadP Idealize.ShloMosaic Idealize.ShloMosaic.ValueIdx
open Cert.Gin

variable (x0 : (⟨S50000x128, .f32⟩ : BufTy).Contents (Elt Ideal)) (x1 : (⟨S2x800000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 x7 x8 : (⟨S3x128, .f32⟩ : BufTy).Contents (Elt Ideal))

/-- The table the updates are added into is zero everywhere. -/
theorem zero_table (i : S50000x128.Idx) : val_main_v23 (F := Ideal) i = 0 := by
  rw [val_main_v23_apply, val_main_cst_apply, Ideal.ofBits_def, Ideal.ofBits_zero_f32]

/-- The scatter-add of the gathered rows is the neighbour sum. -/
theorem agg_eq : (val_main_v25 (F := Ideal) x0 x1) = agg x0 (val_main_v21 (F := Ideal) x1) (val_main_v24 (F := Ideal) x1) := by
  unfold val_main_v25 val_main_v22
  exact scatter_gather x0 (val_main_v23 (F := Ideal)) zero_table (val_main_v21 (F := Ideal) x1) (val_main_v24 (F := Ideal) x1)

/-- The features plus the neighbour sum. -/
theorem s26 : (val_main_v26 (F := Ideal) x0 x1) = fun i => x0 i + agg x0 (val_main_v21 (F := Ideal) x1) (val_main_v24 (F := Ideal) x1) i := by
  funext i
  rw [val_main_v26_apply, agg_eq]
  rfl

/-- The first rectified dense layer. -/
theorem s31 : (val_main_v31 (F := Ideal) x0 x1 x3 x4) = fun i => max (Cert.LibDense.prod (n := 50000) (K := 128) (d := 128) (val_main_v26 (F := Ideal) x0 x1) (val_main_v5 (F := Ideal) x3) i
    + (val_main_v7 (F := Ideal) x4) (ix1 (i 1))) 0 := by
  funext i
  rw [val_main_v31_apply, val_main_v30_apply, val_main_v27_apply, val_main_v29_apply, val_main_v28_apply,
    val_main_call0_v0_apply, val_main_call0_cst_apply, Ideal.ofBits_def, Ideal.ofBits_zero_f32,
    idx1_eq (idx_main_v28 (idx_main_v29 i)) (i 1) rfl,
    dot_sum (val_main_v26 (F := Ideal) x0 x1) (val_main_v5 (F := Ideal) x3) i (lidx_main_v27 i) (ridx_main_v27 i) (fun k => idx2_eq _ _ _ rfl rfl) (fun k => idx2_eq _ _ _ rfl rfl)]
  rfl

/-- The second rectified dense layer. -/
theorem s36 : (val_main_v36 (F := Ideal) x0 x1 x3 x4 x5 x6) = fun i => max (Cert.LibDense.prod (n := 50000) (K := 128) (d := 128) (val_main_v31 (F := Ideal) x0 x1 x3 x4) (val_main_v9 (F := Ideal) x5) i
    + (val_main_v11 (F := Ideal) x6) (ix1 (i 1))) 0 := by
  funext i
  rw [val_main_v36_apply, val_main_v35_apply, val_main_v32_apply, val_main_v34_apply, val_main_v33_apply,
    val_main_call1_v0_apply, val_main_call1_cst_apply, Ideal.ofBits_def, Ideal.ofBits_zero_f32,
    idx1_eq (idx_main_v33 (idx_main_v34 i)) (i 1) rfl,
    dot_sum (val_main_v31 (F := Ideal) x0 x1 x3 x4) (val_main_v9 (F := Ideal) x5) i (lidx_main_v32 i) (ridx_main_v32 i) (fun k => idx2_eq _ _ _ rfl rfl) (fun k => idx2_eq _ _ _ rfl rfl)]
  rfl

/-- The two dense layers together are the layer's perceptron. -/
theorem mlp_eq : (val_main_v36 (F := Ideal) x0 x1 x3 x4 x5 x6) = mlp x0 (agg x0 (val_main_v21 (F := Ideal) x1) (val_main_v24 (F := Ideal) x1)) (val_main_v5 (F := Ideal) x3) (fun j => (val_main_v7 (F := Ideal) x4) (ix1 j)) (val_main_v9 (F := Ideal) x5) (fun j => (val_main_v11 (F := Ideal) x6) (ix1 j)) := by
  rw [s36, s31, s26]
  rfl

/-- The column mean. -/
theorem s39 (j : Fin 128) : (val_main_v39 (F := Ideal) x0 x1 x3 x4 x5 x6) (ix1 j) = mean (val_main_v36 (F := Ideal) x0 x1 x3 x4 x5 x6) j := by
  rw [val_main_v39_apply, val_main_v37_apply, val_main_cst_1_apply, Ideal.ofBits_def, Ideal.ofBits_zero_f32, zero_add,
    col_sum (val_main_v36 (F := Ideal) x0 x1 x3 x4 x5 x6) j (idx_main_v37 (ix1 j)) (fun k => idx2_eq _ _ _ rfl rfl), val_main_v38_apply, val_main_cst_2_apply]
  rfl

/-- The deviation from the column mean. -/
theorem s42 : (val_main_v42 (F := Ideal) x0 x1 x3 x4 x5 x6) = fun i => (val_main_v36 (F := Ideal) x0 x1 x3 x4 x5 x6) i - mean (val_main_v36 (F := Ideal) x0 x1 x3 x4 x5 x6) (i 1) := by
  funext i
  obtain ⟨r, j, rfl⟩ : ∃ (r : Fin 50000) (j : Fin 128), i = ix2 r j := ⟨i 0, i 1, eq_ix2 i⟩
  rw [val_main_v42_apply, val_main_v41_apply, val_main_v40_apply, idx1_eq (idx_main_v40 (idx_main_v41 (ix2 r j))) j rfl, s39]
  rfl

/-- The squared deviation. -/
theorem s43 : (val_main_v43 (F := Ideal) x0 x1 x3 x4 x5 x6) = fun i => ((val_main_v36 (F := Ideal) x0 x1 x3 x4 x5 x6) i - mean (val_main_v36 (F := Ideal) x0 x1 x3 x4 x5 x6) (i 1)) * ((val_main_v36 (F := Ideal) x0 x1 x3 x4 x5 x6) i - mean (val_main_v36 (F := Ideal) x0 x1 x3 x4 x5 x6) (i 1)) := by
  funext i
  rw [val_main_v43_apply, s42]
  rfl

/-- The two-pass column variance. -/
theorem s46 (j : Fin 128) : (val_main_v46 (F := Ideal) x0 x1 x3 x4 x5 x6) (ix1 j) = varTwoPass (val_main_v36 (F := Ideal) x0 x1 x3 x4 x5 x6) j := by
  rw [val_main_v46_apply, val_main_v44_apply, val_main_cst_3_apply, Ideal.ofBits_def, Ideal.ofBits_zero_f32, zero_add,
    col_sum (val_main_v43 (F := Ideal) x0 x1 x3 x4 x5 x6) j (idx_main_v44 (ix1 j)) (fun k => idx2_eq _ _ _ rfl rfl), val_main_v45_apply, val_main_cst_4_apply, s43]
  rfl

/-- The reciprocal square root of the offset variance. -/
theorem s55 (j : Fin 128) : (val_main_v55 (F := Ideal) x0 x1 x3 x4 x5 x6) (ix1 j) = Ideal.rsqrt (varTwoPass (val_main_v36 (F := Ideal) x0 x1 x3 x4 x5 x6) j + epsW) := by
  rw [val_main_v55_apply, val_main_v54_apply, s46, val_main_v53_apply, val_main_cst_5_apply]
  rfl

/-- The normalisation. -/
theorem s61 : (val_main_v61 (F := Ideal) x0 x1 x3 x4 x5 x6 x7 x8) = bn (val_main_v36 (F := Ideal) x0 x1 x3 x4 x5 x6) (mean (val_main_v36 (F := Ideal) x0 x1 x3 x4 x5 x6)) (varTwoPass (val_main_v36 (F := Ideal) x0 x1 x3 x4 x5 x6)) (fun j => (val_main_v13 (F := Ideal) x7) (ix1 j)) (fun j => (val_main_v15 (F := Ideal) x8) (ix1 j)) := by
  funext i
  obtain ⟨r, j, rfl⟩ : ∃ (r : Fin 50000) (j : Fin 128), i = ix2 r j := ⟨i 0, i 1, eq_ix2 i⟩
  rw [val_main_v61_apply, val_main_v58_apply, val_main_v52_apply, val_main_v51_apply, val_main_v50_apply,
    idx1_eq (idx_main_v50 (idx_main_v51 (ix2 r j))) j rfl,
    val_main_v49_apply, val_main_v48_apply, val_main_v47_apply, idx1_eq (idx_main_v47 (idx_main_v48 (ix2 r j))) j rfl, s39,
    val_main_v57_apply, val_main_v56_apply, idx1_eq (idx_main_v56 (idx_main_v57 (ix2 r j))) j rfl, s55,
    val_main_v60_apply, val_main_v59_apply, idx1_eq (idx_main_v59 (idx_main_v60 (ix2 r j))) j rfl]
  rfl

end Cert.RefLayers.L1

namespace Cert.RefLayers

open Cert.ReferenceIdeal Cert.ReferenceIdeal.Gen Cert.ReferenceIdeal.ReadP Idealize.ShloMosaic Idealize.ShloMosaic.ValueIdx

/-- Layer 1 of the reference program is the mathematical layer with the two-pass variance, applied to the layer's
    input features, the neighbour sum of those features, and the layer's slices of the weights. -/
theorem layer1 (x0 : (⟨S50000x128, .f32⟩ : BufTy).Contents (Elt Ideal)) (x1 : (⟨S2x800000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 x7 x8 : (⟨S3x128, .f32⟩ : BufTy).Contents (Elt Ideal)) :
    (val_main_v61 (F := Ideal) x0 x1 x3 x4 x5 x6 x7 x8) = Cert.Gin.layerTwoPass x0 (Cert.Gin.agg x0 (val_main_v21 (F := Ideal) x1) (val_main_v24 (F := Ideal) x1)) (val_main_v5 (F := Ideal) x3) (fun j => (val_main_v7 (F := Ideal) x4) (ix1 j)) (val_main_v9 (F := Ideal) x5) (fun j => (val_main_v11 (F := Ideal) x6) (ix1 j))
      (fun j => (val_main_v13 (F := Ideal) x7) (ix1 j)) (fun j => (val_main_v15 (F := Ideal) x8) (ix1 j)) := by
  rw [L1.s61, L1.mlp_eq]
  rfl

end Cert.RefLayers

end
-- ==== Proof.RefLayer2.lean ====
/-
  Layer 2 of the reference program is one application of the mathematical layer: its stages, read bottom up, are the
  neighbour sum, the two rectified dense layers, the column mean, the two-pass column variance and the normalisation.
-/
import proofs.«104403_j38585986187615_1_alg».proof.Proof.RefLayerLib

noncomputable section

namespace Cert.RefLayers.L2

open Cert.ReferenceIdeal Cert.ReferenceIdeal.Gen Cert.ReferenceIdeal.ReadP Idealize.ShloMosaic Idealize.ShloMosaic.ValueIdx
open Cert.Gin

variable (x0 : (⟨S50000x128, .f32⟩ : BufTy).Contents (Elt Ideal)) (x1 : (⟨S2x800000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 x7 x8 : (⟨S3x128, .f32⟩ : BufTy).Contents (Elt Ideal))

/-- The table the updates are added into is zero everywhere. -/
theorem zero_table (i : S50000x128.Idx) : val_main_v81 (F := Ideal) i = 0 := by
  rw [val_main_v81_apply, val_main_cst_8_apply, Ideal.ofBits_def, Ideal.ofBits_zero_f32]

/-- The scatter-add of the gathered rows is the neighbour sum. -/
theorem agg_eq : (val_main_v83 (F := Ideal) x0 x1 x3 x4 x5 x6 x7 x8) = agg (val_main_v61 (F := Ideal) x0 x1 x3 x4 x5 x6 x7 x8) (val_main_v79 (F := Ideal) x1) (val_main_v82 (F := Ideal) x1) := by
  unfold val_main_v83 val_main_v80
  exact scatter_gather (val_main_v61 (F := Ideal) x0 x1 x3 x4 x5 x6 x7 x8) (val_main_v81 (F := Ideal)) zero_table (val_main_v79 (F := Ideal) x1) (val_main_v82 (F := Ideal) x1)

/-- The features plus the neighbour sum. -/
theorem s26 : (val_main_v84 (F := Ideal) x0 x1 x3 x4 x5 x6 x7 x8) = fun i => (val_main_v61 (F := Ideal) x0 x1 x3 x4 x5 x6 x7 x8) i + agg (val_main_v61 (F := Ideal) x0 x1 x3 x4 x5 x6 x7 x8) (val_main_v79 (F := Ideal) x1) (val_main_v82 (F := Ideal) x1) i := by
  funext i
  rw [val_main_v84_apply, agg_eq]
  rfl

/-- The first rectified dense layer. -/
theorem s31 : (val_main_v89 (F := Ideal) x0 x1 x3 x4 x5 x6 x7 x8) = fun i => max (Cert.LibDense.prod (n := 50000) (K := 128) (d := 128) (val_main_v84 (F := Ideal) x0 x1 x3 x4 x5 x6 x7 x8) (val_main_v63 (F := Ideal) x3) i
    + (val_main_v65 (F := Ideal) x4) (ix1 (i 1))) 0 := by
  funext i
  rw [val_main_v89_apply, val_main_v88_apply, val_main_v85_apply, val_main_v87_apply, val_main_v86_apply,
    val_main_call2_v0_apply, val_main_call2_cst_apply, Ideal.ofBits_def, Ideal.ofBits_zero_f32,
    idx1_eq (idx_main_v86 (idx_main_v87 i)) (i 1) rfl,
    dot_sum (val_main_v84 (F := Ideal) x0 x1 x3 x4 x5 x6 x7 x8) (val_main_v63 (F := Ideal) x3) i (lidx_main_v85 i) (ridx_main_v85 i) (fun k => idx2_eq _ _ _ rfl rfl) (fun k => idx2_eq _ _ _ rfl rfl)]
  rfl

/-- The second rectified dense layer. -/
theorem s36 : (val_main_v94 (F := Ideal) x0 x1 x3 x4 x5 x6 x7 x8) = fun i => max (Cert.LibDense.prod (n := 50000) (K := 128) (d := 128) (val_main_v89 (F := Ideal) x0 x1 x3 x4 x5 x6 x7 x8) (val_main_v67 (F := Ideal) x5) i
    + (val_main_v69 (F := Ideal) x6) (ix1 (i 1))) 0 := by
  funext i
  rw [val_main_v94_apply, val_main_v93_apply, val_main_v90_apply, val_main_v92_apply, val_main_v91_apply,
    val_main_call3_v0_apply, val_main_call3_cst_apply, Ideal.ofBits_def, Ideal.ofBits_zero_f32,
    idx1_eq (idx_main_v91 (idx_main_v92 i)) (i 1) rfl,
    dot_sum (val_main_v89 (F := Ideal) x0 x1 x3 x4 x5 x6 x7 x8) (val_main_v67 (F := Ideal) x5) i (lidx_main_v90 i) (ridx_main_v90 i) (fun k => idx2_eq _ _ _ rfl rfl) (fun k => idx2_eq _ _ _ rfl rfl)]
  rfl

/-- The two dense layers together are the layer's perceptron. -/
theorem mlp_eq : (val_main_v94 (F := Ideal) x0 x1 x3 x4 x5 x6 x7 x8) = mlp (val_main_v61 (F := Ideal) x0 x1 x3 x4 x5 x6 x7 x8) (agg (val_main_v61 (F := Ideal) x0 x1 x3 x4 x5 x6 x7 x8) (val_main_v79 (F := Ideal) x1) (val_main_v82 (F := Ideal) x1)) (val_main_v63 (F := Ideal) x3) (fun j => (val_main_v65 (F := Ideal) x4) (ix1 j)) (val_main_v67 (F := Ideal) x5) (fun j => (val_main_v69 (F := Ideal) x6) (ix1 j)) := by
  rw [s36, s31, s26]
  rfl

/-- The column mean. -/
theorem s39 (j : Fin 128) : (val_main_v97 (F := Ideal) x0 x1 x3 x4 x5 x6 x7 x8) (ix1 j) = mean (val_main_v94 (F := Ideal) x0 x1 x3 x4 x5 x6 x7 x8) j := by
  rw [val_main_v97_apply, val_main_v95_apply, val_main_cst_9_apply, Ideal.ofBits_def, Ideal.ofBits_zero_f32, zero_add,
    col_sum (val_main_v94 (F := Ideal) x0 x1 x3 x4 x5 x6 x7 x8) j (idx_main_v95 (ix1 j)) (fun k => idx2_eq _ _ _ rfl rfl), val_main_v96_apply, val_main_cst_10_apply]
  rfl

/-- The deviation from the column mean. -/
theorem s42 : (val_main_v100 (F := Ideal) x0 x1 x3 x4 x5 x6 x7 x8) = fun i => (val_main_v94 (F := Ideal) x0 x1 x3 x4 x5 x6 x7 x8) i - mean (val_main_v94 (F := Ideal) x0 x1 x3 x4 x5 x6 x7 x8) (i 1) := by
  funext i
  obtain ⟨r, j, rfl⟩ : ∃ (r : Fin 50000) (j : Fin 128), i = ix2 r j := ⟨i 0, i 1, eq_ix2 i⟩
  rw [val_main_v100_apply, val_main_v99_apply, val_main_v98_apply, idx1_eq (idx_main_v98 (idx_main_v99 (ix2 r j))) j rfl, s39]
  rfl

/-- The squared deviation. -/
theorem s43 : (val_main_v101 (F := Ideal) x0 x1 x3 x4 x5 x6 x7 x8) = fun i => ((val_main_v94 (F := Ideal) x0 x1 x3 x4 x5 x6 x7 x8) i - mean (val_main_v94 (F := Ideal) x0 x1 x3 x4 x5 x6 x7 x8) (i 1)) * ((val_main_v94 (F := Ideal) x0 x1 x3 x4 x5 x6 x7 x8) i - mean (val_main_v94 (F := Ideal) x0 x1 x3 x4 x5 x6 x7 x8) (i 1)) := by
  funext i
  rw [val_main_v101_apply, s42]
  rfl

/-- The two-pass column variance. -/
theorem s46 (j : Fin 128) : (val_main_v104 (F := Ideal) x0 x1 x3 x4 x5 x6 x7 x8) (ix1 j) = varTwoPass (val_main_v94 (F := Ideal) x0 x1 x3 x4 x5 x6 x7 x8) j := by
  rw [val_main_v104_apply, val_main_v102_apply, val_main_cst_11_apply, Ideal.ofBits_def, Ideal.ofBits_zero_f32, zero_add,
    col_sum (val_main_v101 (F := Ideal) x0 x1 x3 x4 x5 x6 x7 x8) j (idx_main_v102 (ix1 j)) (fun k => idx2_eq _ _ _ rfl rfl), val_main_v103_apply, val_main_cst_12_apply, s43]
  rfl

/-- The reciprocal square root of the offset variance. -/
theorem s55 (j : Fin 128) : (val_main_v113 (F := Ideal) x0 x1 x3 x4 x5 x6 x7 x8) (ix1 j) = Ideal.rsqrt (varTwoPass (val_main_v94 (F := Ideal) x0 x1 x3 x4 x5 x6 x7 x8) j + epsW) := by
  rw [val_main_v113_apply, val_main_v112_apply, s46, val_main_v111_apply, val_main_cst_13_apply]
  rfl

/-- The normalisation. -/
theorem s61 : (val_main_v119 (F := Ideal) x0 x1 x3 x4 x5 x6 x7 x8) = bn (val_main_v94 (F := Ideal) x0 x1 x3 x4 x5 x6 x7 x8) (mean (val_main_v94 (F := Ideal) x0 x1 x3 x4 x5 x6 x7 x8)) (varTwoPass (val_main_v94 (F := Ideal) x0 x1 x3 x4 x5 x6 x7 x8)) (fun j => (val_main_v71 (F := Ideal) x7) (ix1 j)) (fun j => (val_main_v73 (F := Ideal) x8) (ix1 j)) := by
  funext i
  obtain ⟨r, j, rfl⟩ : ∃ (r : Fin 50000) (j : Fin 128), i = ix2 r j := ⟨i 0, i 1, eq_ix2 i⟩
  rw [val_main_v119_apply, val_main_v116_apply, val_main_v110_apply, val_main_v109_apply, val_main_v108_apply,
    idx1_eq (idx_main_v108 (idx_main_v109 (ix2 r j))) j rfl,
    val_main_v107_apply, val_main_v106_apply, val_main_v105_apply, idx1_eq (idx_main_v105 (idx_main_v106 (ix2 r j))) j rfl, s39,
    val_main_v115_apply, val_main_v114_apply, idx1_eq (idx_main_v114 (idx_main_v115 (ix2 r j))) j rfl, s55,
    val_main_v118_apply, val_main_v117_apply, idx1_eq (idx_main_v117 (idx_main_v118 (ix2 r j))) j rfl]
  rfl

end Cert.RefLayers.L2

namespace Cert.RefLayers

open Cert.ReferenceIdeal Cert.ReferenceIdeal.Gen Cert.ReferenceIdeal.ReadP Idealize.ShloMosaic Idealize.ShloMosaic.ValueIdx

/-- Layer 2 of the reference program is the mathematical layer with the two-pass variance, applied to the layer's
    input features, the neighbour sum of those features, and the layer's slices of the weights. -/
theorem layer2 (x0 : (⟨S50000x128, .f32⟩ : BufTy).Contents (Elt Ideal)) (x1 : (⟨S2x800000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 x7 x8 : (⟨S3x128, .f32⟩ : BufTy).Contents (Elt Ideal)) :
    (val_main_v119 (F := Ideal) x0 x1 x3 x4 x5 x6 x7 x8) = Cert.Gin.layerTwoPass (val_main_v61 (F := Ideal) x0 x1 x3 x4 x5 x6 x7 x8) (Cert.Gin.agg (val_main_v61 (F := Ideal) x0 x1 x3 x4 x5 x6 x7 x8) (val_main_v79 (F := Ideal) x1) (val_main_v82 (F := Ideal) x1)) (val_main_v63 (F := Ideal) x3) (fun j => (val_main_v65 (F := Ideal) x4) (ix1 j)) (val_main_v67 (F := Ideal) x5) (fun j => (val_main_v69 (F := Ideal) x6) (ix1 j))
      (fun j => (val_main_v71 (F := Ideal) x7) (ix1 j)) (fun j => (val_main_v73 (F := Ideal) x8) (ix1 j)) := by
  rw [L2.s61, L2.mlp_eq]
  rfl

end Cert.RefLayers

end
-- ==== Proof.RefLayer3.lean ====
/-
  Layer 3 of the reference program is one application of the mathematical layer: its stages, read bottom up, are the
  neighbour sum, the two rectified dense layers, the column mean, the two-pass column variance and the normalisation.
-/
import proofs.«104403_j38585986187615_1_alg».proof.Proof.RefLayerLib

noncomputable section

namespace Cert.RefLayers.L3

open Cert.ReferenceIdeal Cert.ReferenceIdeal.Gen Cert.ReferenceIdeal.ReadP Idealize.ShloMosaic Idealize.ShloMosaic.ValueIdx
open Cert.Gin

variable (x0 : (⟨S50000x128, .f32⟩ : BufTy).Contents (Elt Ideal)) (x1 : (⟨S2x800000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 x7 x8 : (⟨S3x128, .f32⟩ : BufTy).Contents (Elt Ideal))

/-- The table the updates are added into is zero everywhere. -/
theorem zero_table (i : S50000x128.Idx) : val_main_v139 (F := Ideal) i = 0 := by
  rw [val_main_v139_apply, val_main_cst_16_apply, Ideal.ofBits_def, Ideal.ofBits_zero_f32]

/-- The scatter-add of the gathered rows is the neighbour sum. -/
theorem agg_eq : (val_main_v141 (F := Ideal) x0 x1 x3 x4 x5 x6 x7 x8) = agg (val_main_v119 (F := Ideal) x0 x1 x3 x4 x5 x6 x7 x8) (val_main_v137 (F := Ideal) x1) (val_main_v140 (F := Ideal) x1) := by
  unfold val_main_v141 val_main_v138
  exact scatter_gather (val_main_v119 (F := Ideal) x0 x1 x3 x4 x5 x6 x7 x8) (val_main_v139 (F := Ideal)) zero_table (val_main_v137 (F := Ideal) x1) (val_main_v140 (F := Ideal) x1)

/-- The features plus the neighbour sum. -/
theorem s26 : (val_main_v142 (F := Ideal) x0 x1 x3 x4 x5 x6 x7 x8) = fun i => (val_main_v119 (F := Ideal) x0 x1 x3 x4 x5 x6 x7 x8) i + agg (val_main_v119 (F := Ideal) x0 x1 x3 x4 x5 x6 x7 x8) (val_main_v137 (F := Ideal) x1) (val_main_v140 (F := Ideal) x1) i := by
  funext i
  rw [val_main_v142_apply, agg_eq]
  rfl

/-- The first rectified dense layer. -/
theorem s31 : (val_main_v147 (F := Ideal) x0 x1 x3 x4 x5 x6 x7 x8) = fun i => max (Cert.LibDense.prod (n := 50000) (K := 128) (d := 128) (val_main_v142 (F := Ideal) x0 x1 x3 x4 x5 x6 x7 x8) (val_main_v121 (F := Ideal) x3) i
    + (val_main_v123 (F := Ideal) x4) (ix1 (i 1))) 0 := by
  funext i
  rw [val_main_v147_apply, val_main_v146_apply, val_main_v143_apply, val_main_v145_apply, val_main_v144_apply,
    val_main_call4_v0_apply, val_main_call4_cst_apply, Ideal.ofBits_def, Ideal.ofBits_zero_f32,
    idx1_eq (idx_main_v144 (idx_main_v145 i)) (i 1) rfl,
    dot_sum (val_main_v142 (F := Ideal) x0 x1 x3 x4 x5 x6 x7 x8) (val_main_v121 (F := Ideal) x3) i (lidx_main_v143 i) (ridx_main_v143 i) (fun k => idx2_eq _ _ _ rfl rfl) (fun k => idx2_eq _ _ _ rfl rfl)]
  rfl

/-- The second rectified dense layer. -/
theorem s36 : (val_main_v152 (F := Ideal) x0 x1 x3 x4 x5 x6 x7 x8) = fun i => max (Cert.LibDense.prod (n := 50000) (K := 128) (d := 128) (val_main_v147 (F := Ideal) x0 x1 x3 x4 x5 x6 x7 x8) (val_main_v125 (F := Ideal) x5) i
    + (val_main_v127 (F := Ideal) x6) (ix1 (i 1))) 0 := by
  funext i
  rw [val_main_v152_apply, val_main_v151_apply, val_main_v148_apply, val_main_v150_apply, val_main_v149_apply,
    val_main_call5_v0_apply, val_main_call5_cst_apply, Ideal.ofBits_def, Ideal.ofBits_zero_f32,
    idx1_eq (idx_main_v149 (idx_main_v150 i)) (i 1) rfl,
    dot_sum (val_main_v147 (F := Ideal) x0 x1 x3 x4 x5 x6 x7 x8) (val_main_v125 (F := Ideal) x5) i (lidx_main_v148 i) (ridx_main_v148 i) (fun k => idx2_eq _ _ _ rfl rfl) (fun k => idx2_eq _ _ _ rfl rfl)]
  rfl

/-- The two dense layers together are the layer's perceptron. -/
theorem mlp_eq : (val_main_v152 (F := Ideal) x0 x1 x3 x4 x5 x6 x7 x8) = mlp (val_main_v119 (F := Ideal) x0 x1 x3 x4 x5 x6 x7 x8) (agg (val_main_v119 (F := Ideal) x0 x1 x3 x4 x5 x6 x7 x8) (val_main_v137 (F := Ideal) x1) (val_main_v140 (F := Ideal) x1)) (val_main_v121 (F := Ideal) x3) (fun j => (val_main_v123 (F := Ideal) x4) (ix1 j)) (val_main_v125 (F := Ideal) x5) (fun j => (val_main_v127 (F := Ideal) x6) (ix1 j)) := by
  rw [s36, s31, s26]
  rfl

/-- The column mean. -/
theorem s39 (j : Fin 128) : (val_main_v155 (F := Ideal) x0 x1 x3 x4 x5 x6 x7 x8) (ix1 j) = mean (val_main_v152 (F := Ideal) x0 x1 x3 x4 x5 x6 x7 x8) j := by
  rw [val_main_v155_apply, val_main_v153_apply, val_main_cst_17_apply, Ideal.ofBits_def, Ideal.ofBits_zero_f32, zero_add,
    col_sum (val_main_v152 (F := Ideal) x0 x1 x3 x4 x5 x6 x7 x8) j (idx_main_v153 (ix1 j)) (fun k => idx2_eq _ _ _ rfl rfl), val_main_v154_apply, val_main_cst_18_apply]
  rfl

/-- The deviation from the column mean. -/
theorem s42 : (val_main_v158 (F := Ideal) x0 x1 x3 x4 x5 x6 x7 x8) = fun i => (val_main_v152 (F := Ideal) x0 x1 x3 x4 x5 x6 x7 x8) i - mean (val_main_v152 (F := Ideal) x0 x1 x3 x4 x5 x6 x7 x8) (i 1) := by
  funext i
  obtain ⟨r, j, rfl⟩ : ∃ (r : Fin 50000) (j : Fin 128), i = ix2 r j := ⟨i 0, i 1, eq_ix2 i⟩
  rw [val_main_v158_apply, val_main_v157_apply, val_main_v156_apply, idx1_eq (idx_main_v156 (idx_main_v157 (ix2 r j))) j rfl, s39]
  rfl

/-- The squared deviation. -/
theorem s43 : (val_main_v159 (F := Ideal) x0 x1 x3 x4 x5 x6 x7 x8) = fun i => ((val_main_v152 (F := Ideal) x0 x1 x3 x4 x5 x6 x7 x8) i - mean (val_main_v152 (F := Ideal) x0 x1 x3 x4 x5 x6 x7 x8) (i 1)) * ((val_main_v152 (F := Ideal) x0 x1 x3 x4 x5 x6 x7 x8) i - mean (val_main_v152 (F := Ideal) x0 x1 x3 x4 x5 x6 x7 x8) (i 1)) := by
  funext i
  rw [val_main_v159_apply, s42]
  rfl

/-- The two-pass column variance. -/
theorem s46 (j : Fin 128) : (val_main_v162 (F := Ideal) x0 x1 x3 x4 x5 x6 x7 x8) (ix1 j) = varTwoPass (val_main_v152 (F := Ideal) x0 x1 x3 x4 x5 x6 x7 x8) j := by
  rw [val_main_v162_apply, val_main_v160_apply, val_main_cst_19_apply, Ideal.ofBits_def, Ideal.ofBits_zero_f32, zero_add,
    col_sum (val_main_v159 (F := Ideal) x0 x1 x3 x4 x5 x6 x7 x8) j (idx_main_v160 (ix1 j)) (fun k => idx2_eq _ _ _ rfl rfl), val_main_v161_apply, val_main_cst_20_apply, s43]
  rfl

/-- The reciprocal square root of the offset variance. -/
theorem s55 (j : Fin 128) : (val_main_v171 (F := Ideal) x0 x1 x3 x4 x5 x6 x7 x8) (ix1 j) = Ideal.rsqrt (varTwoPass (val_main_v152 (F := Ideal) x0 x1 x3 x4 x5 x6 x7 x8) j + epsW) := by
  rw [val_main_v171_apply, val_main_v170_apply, s46, val_main_v169_apply, val_main_cst_21_apply]
  rfl

/-- The normalisation. -/
theorem s61 : (val_main_v177 (F := Ideal) x0 x1 x3 x4 x5 x6 x7 x8) = bn (val_main_v152 (F := Ideal) x0 x1 x3 x4 x5 x6 x7 x8) (mean (val_main_v152 (F := Ideal) x0 x1 x3 x4 x5 x6 x7 x8)) (varTwoPass (val_main_v152 (F := Ideal) x0 x1 x3 x4 x5 x6 x7 x8)) (fun j => (val_main_v129 (F := Ideal) x7) (ix1 j)) (fun j => (val_main_v131 (F := Ideal) x8) (ix1 j)) := by
  funext i
  obtain ⟨r, j, rfl⟩ : ∃ (r : Fin 50000) (j : Fin 128), i = ix2 r j := ⟨i 0, i 1, eq_ix2 i⟩
  rw [val_main_v177_apply, val_main_v174_apply, val_main_v168_apply, val_main_v167_apply, val_main_v166_apply,
    idx1_eq (idx_main_v166 (idx_main_v167 (ix2 r j))) j rfl,
    val_main_v165_apply, val_main_v164_apply, val_main_v163_apply, idx1_eq (idx_main_v163 (idx_main_v164 (ix2 r j))) j rfl, s39,
    val_main_v173_apply, val_main_v172_apply, idx1_eq (idx_main_v172 (idx_main_v173 (ix2 r j))) j rfl, s55,
    val_main_v176_apply, val_main_v175_apply, idx1_eq (idx_main_v175 (idx_main_v176 (ix2 r j))) j rfl]
  rfl

end Cert.RefLayers.L3

namespace Cert.RefLayers

open Cert.ReferenceIdeal Cert.ReferenceIdeal.Gen Cert.ReferenceIdeal.ReadP Idealize.ShloMosaic Idealize.ShloMosaic.ValueIdx

/-- Layer 3 of the reference program is the mathematical layer with the two-pass variance, applied to the layer's
    input features, the neighbour sum of those features, and the layer's slices of the weights. -/
theorem layer3 (x0 : (⟨S50000x128, .f32⟩ : BufTy).Contents (Elt Ideal)) (x1 : (⟨S2x800000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 x7 x8 : (⟨S3x128, .f32⟩ : BufTy).Contents (Elt Ideal)) :
    (val_main_v177 (F := Ideal) x0 x1 x3 x4 x5 x6 x7 x8) = Cert.Gin.layerTwoPass (val_main_v119 (F := Ideal) x0 x1 x3 x4 x5 x6 x7 x8) (Cert.Gin.agg (val_main_v119 (F := Ideal) x0 x1 x3 x4 x5 x6 x7 x8) (val_main_v137 (F := Ideal) x1) (val_main_v140 (F := Ideal) x1)) (val_main_v121 (F := Ideal) x3) (fun j => (val_main_v123 (F := Ideal) x4) (ix1 j)) (val_main_v125 (F := Ideal) x5) (fun j => (val_main_v127 (F := Ideal) x6) (ix1 j))
      (fun j => (val_main_v129 (F := Ideal) x7) (ix1 j)) (fun j => (val_main_v131 (F := Ideal) x8) (ix1 j)) := by
  rw [L3.s61, L3.mlp_eq]
  rfl

end Cert.RefLayers

end
-- ==== Proof.RefAgg.lean ====
/-
  The neighbour sum as the reference program computes it: in each layer the rows of the layer's input gathered through
  the source column and added, into a table of zeros, at the rows the destination column names are the neighbour sum
  of that input.  The first layer's input is the program's argument; for the second and third layers the statement is
  over an arbitrary input table.
-/
import proofs.«104403_j38585986187615_1_alg».proof.Proof.RefLayer1
import proofs.«104403_j38585986187615_1_alg».proof.Proof.RefLayer2
import proofs.«104403_j38585986187615_1_alg».proof.Proof.RefLayer3

noncomputable section

namespace Cert.RefLayers

open Cert.ReferenceIdeal Cert.ReferenceIdeal.Gen Cert.ReferenceIdeal.ReadP Idealize.ShloMosaic Idealize.ShloMosaic.ValueIdx

/-- Layer 1: the scatter-add stage is the neighbour sum of the argument. -/
theorem agg1 (x0 : (⟨S50000x128, .f32⟩ : BufTy).Contents (Elt Ideal)) (x1 : (⟨S2x800000, .i32⟩ : BufTy).Contents (Elt Ideal)) :
    val_main_v25 (F := Ideal) x0 x1 = Cert.Gin.agg x0 (val_main_v21 (F := Ideal) x1) (val_main_v24 (F := Ideal) x1) :=
  L1.agg_eq x0 x1

/-- Layer 2: the scatter-add of the gathered rows of any input `h` is the neighbour sum of `h`. -/
theorem agg2 (h : Cert.Gin.SN.Idx → EReal) (x1 : (⟨S2x800000, .i32⟩ : BufTy).Contents (Elt Ideal)) :
    Host.scatterAdd (F := Ideal) (φ := .f32) scatter_S50000x128_S800000x1_S800000x128_1_0_0_1 (val_main_v81 (F := Ideal))
      (val_main_v82 (F := Ideal) x1)
      (Host.gather gather_S50000x128_S800000x1_S800000x128_1_0_n_n_0_1_1128 h (val_main_v79 (F := Ideal) x1))
      = Cert.Gin.agg h (val_main_v79 (F := Ideal) x1) (val_main_v82 (F := Ideal) x1) :=
  scatter_gather h (val_main_v81 (F := Ideal)) L2.zero_table (val_main_v79 (F := Ideal) x1) (val_main_v82 (F := Ideal) x1)

/-- Layer 3: the same with the third layer's index columns. -/
theorem agg3 (h : Cert.Gin.SN.Idx → EReal) (x1 : (⟨S2x800000, .i32⟩ : BufTy).Contents (Elt Ideal)) :
    Host.scatterAdd (F := Ideal) (φ := .f32) scatter_S50000x128_S800000x1_S800000x128_1_0_0_1 (val_main_v139 (F := Ideal))
      (val_main_v140 (F := Ideal) x1)
      (Host.gather gather_S50000x128_S800000x1_S800000x128_1_0_n_n_0_1_1128 h (val_main_v137 (F := Ideal) x1))
      = Cert.Gin.agg h (val_main_v137 (F := Ideal) x1) (val_main_v140 (F := Ideal) x1) :=
  scatter_gather h (val_main_v139 (F := Ideal)) L3.zero_table (val_main_v137 (F := Ideal) x1) (val_main_v140 (F := Ideal) x1)

end Cert.RefLayers

end
-- ==== Proof.KLayer1.lean ====
/-
  Layer 1 of the kernel's program, end to end: the band launches' arrays and the host lines between them.

  The first launch leaves z (two rectified dense layers of h + agg, band by band) and the column sums of z and of z².
  The host divides both by the node count, subtracts the squared mean (the one-pass variance) and lays the scale and
  shift vectors out as rows; the second launch normalises z with them.  So the layer's output array is
  `layerOnePass` of the layer's input and weights.
-/
import proofs.«104403_j38585986187615_1_alg».proof.Proof.KHost1
import proofs.«104403_j38585986187615_1_alg».proof.Proof.KMlp0
import proofs.«104403_j38585986187615_1_alg».proof.Proof.KBn1
import proofs.«104403_j38585986187615_1_alg».proof.Proof.Spec
import proofs.«104403_j38585986187615_1_alg».proof.Proof.RefAgg
import proofs.«104403_j38585986187615_1_alg».proof.Proof.LibBiasRows
import Idealize.ShloMosaic.Lib.StableHlo.Run
import Idealize.ShloMosaic.Lib.Pipeline.Value

set_option maxRecDepth 16384

noncomputable section

namespace Cert.KernelIdeal.Layer1

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- Row 0 of a one-row array, as a function of the column. -/
abbrev row (x : S1x128.Idx → EReal) : Fin 128 → EReal := fun j => x (ix2 ⟨0, Nat.one_pos⟩ j)

/-- A [128] vector laid out as a [1,128] row reads, at column j of row 0, the vector's entry j. -/
theorem row_shapeCast (b : S128.Idx → EReal) : row (shapeCast S1x128 b shapeCasts_S128_S1x128) = fun j => b (ix1 j) :=
  funext fun j => Cert.LibBiasRows.row_of_vector b shapeCasts_S128_S1x128 j

/-- A scalar word broadcast to a row reads that word's value everywhere. -/
theorem row_const (w : BitVec 32) : row (broadcastInDim S1x128 ![] bcast_S_S1x128 (constant (F := Ideal) S_ .f32 w)) = fun _ => Ideal.ofBits .f32 w :=
  funext fun j => broadcastInDim_apply _ bcast_S_S1x128 (constant (F := Ideal) S_ .f32 w) _ (fun a => a.elim0) (fun a => a.elim0)

/-- The first launch's result z, over the buffer contents at its entry. -/
abbrev Z (c : Dev nD) : S50000x128.Idx → EReal := Cert.KernelIdeal.Mlp0.Z (V1 m ρ) c

theorem exit_z (c : Dev nD) : W2 m ρ c (Proc.devRef .tc main_v28_0) = Z m ρ c :=
  (W2_arr m ρ c 6).trans (Cert.KernelIdeal.Mlp0.final6 (V1 m ρ) c)
theorem exit_s (c : Dev nD) : W2 m ρ c (Proc.devRef .tc main_v28_1) = fun i => Cert.Gin.colSum (Z m ρ c) (i 1) :=
  (W2_arr m ρ c 7).trans (Cert.KernelIdeal.Mlp0.final7 (V1 m ρ) c)
theorem exit_ss (c : Dev nD) : W2 m ρ c (Proc.devRef .tc main_v28_2) = fun i => Cert.Gin.colSum (fun i' => Z m ρ c i' * Z m ρ c i') (i 1) :=
  (W2_arr m ρ c 8).trans (Cert.KernelIdeal.Mlp0.final8 (V1 m ρ) c)

/-! The host lines between the two launches. -/

theorem mid_z (c : Dev nD) : W3 m ρ c (Proc.devRef .tc main_v28_0) = Z m ρ c := by
  show StableHlo.after hostOps1 (W2 m ρ c) (Proc.devRef .tc main_v28_0) = _
  after_results
  exact exit_z m ρ c

theorem mid_mu (c : Dev nD) : row (W3 m ρ c (Proc.devRef .tc main_v30)) = Cert.Gin.mean (Z m ρ c) := by
  have e : W3 m ρ c (Proc.devRef .tc main_v30) = Host.divf (F := Ideal) (W2 m ρ c (Proc.devRef .tc main_v28_1)) (broadcastInDim S1x128 ![] bcast_S_S1x128 (constant (F := Ideal) S_ .f32 0x47435000#32)) := by
    show StableHlo.after hostOps1 (W2 m ρ c) (Proc.devRef .tc main_v30) = _
    after_results <;> rfl
  rw [e, exit_s]
  funext j
  show Ideal.div _ (row (broadcastInDim S1x128 ![] bcast_S_S1x128 (constant (F := Ideal) S_ .f32 0x47435000#32)) j) = _
  rw [row_const]
  rfl

theorem mid_var (c : Dev nD) : row (W3 m ρ c (Proc.devRef .tc main_v34)) = Cert.Gin.varOnePass (Z m ρ c) := by
  have e : W3 m ρ c (Proc.devRef .tc main_v34) = subf (F := Ideal) (Host.divf (F := Ideal) (W2 m ρ c (Proc.devRef .tc main_v28_2)) (broadcastInDim S1x128 ![] bcast_S_S1x128 (constant (F := Ideal) S_ .f32 0x47435000#32)))
      (mulf (Host.divf (F := Ideal) (W2 m ρ c (Proc.devRef .tc main_v28_1)) (broadcastInDim S1x128 ![] bcast_S_S1x128 (constant (F := Ideal) S_ .f32 0x47435000#32)))
        (Host.divf (F := Ideal) (W2 m ρ c (Proc.devRef .tc main_v28_1)) (broadcastInDim S1x128 ![] bcast_S_S1x128 (constant (F := Ideal) S_ .f32 0x47435000#32)))) := by
    show StableHlo.after hostOps1 (W2 m ρ c) (Proc.devRef .tc main_v34) = _
    after_results <;> rfl
  rw [e, exit_s, exit_ss]
  funext j
  show Ideal.div _ (row (broadcastInDim S1x128 ![] bcast_S_S1x128 (constant (F := Ideal) S_ .f32 0x47435000#32)) j)
    - Ideal.div _ (row (broadcastInDim S1x128 ![] bcast_S_S1x128 (constant (F := Ideal) S_ .f32 0x47435000#32)) j)
      * Ideal.div _ (row (broadcastInDim S1x128 ![] bcast_S_S1x128 (constant (F := Ideal) S_ .f32 0x47435000#32)) j) = _
  rw [row_const]
  rfl

theorem mid_g (c : Dev nD) : row (W3 m ρ c (Proc.devRef .tc main_v35)) = fun j => Cert.ReferenceIdeal.ReadP.val_main_v13 (F := Ideal) (m ((c : Thread nD τ).loc main_arg7)) (ix1 j) := by
  have e : W3 m ρ c (Proc.devRef .tc main_v35) = shapeCast S1x128 (W2 m ρ c (Proc.devRef .tc main_v13)) shapeCasts_S128_S1x128 := by
    show StableHlo.after hostOps1 (W2 m ρ c) (Proc.devRef .tc main_v35) = _
    after_results <;> rfl
  rw [e, W2_of_ne m ρ c main_v13 (by decide), Cert.KernelIdeal.Host1.s0_v13 m ρ c, row_shapeCast]

theorem mid_be (c : Dev nD) : row (W3 m ρ c (Proc.devRef .tc main_v36)) = fun j => Cert.ReferenceIdeal.ReadP.val_main_v15 (F := Ideal) (m ((c : Thread nD τ).loc main_arg8)) (ix1 j) := by
  have e : W3 m ρ c (Proc.devRef .tc main_v36) = shapeCast S1x128 (W2 m ρ c (Proc.devRef .tc main_v15)) shapeCasts_S128_S1x128 := by
    show StableHlo.after hostOps1 (W2 m ρ c) (Proc.devRef .tc main_v36) = _
    after_results <;> rfl
  rw [e, W2_of_ne m ρ c main_v15 (by decide), Cert.KernelIdeal.Host1.s0_v15 m ρ c, row_shapeCast]

/-- The layer's input: what the buffer of the node features holds when the layer begins. -/
abbrev hin (c : Dev nD) : S50000x128.Idx → EReal := m ((c : Thread nD τ).loc main_arg0)

/-- The first launch's z in the reference's stage functions of the arguments. -/
theorem Z_eq (c : Dev nD) : Z m ρ c = Cert.Gin.mlp (hin m c)
      (Cert.Gin.agg (hin m c) (Cert.ReferenceIdeal.ReadP.val_main_v21 (F := Ideal) (m ((c : Thread nD τ).loc main_arg1))) (Cert.ReferenceIdeal.ReadP.val_main_v24 (F := Ideal) (m ((c : Thread nD τ).loc main_arg1))))
      (Cert.ReferenceIdeal.ReadP.val_main_v5 (F := Ideal) (m ((c : Thread nD τ).loc main_arg3))) (fun j => Cert.ReferenceIdeal.ReadP.val_main_v7 (F := Ideal) (m ((c : Thread nD τ).loc main_arg4)) (ix1 j))
      (Cert.ReferenceIdeal.ReadP.val_main_v9 (F := Ideal) (m ((c : Thread nD τ).loc main_arg5))) (fun j => Cert.ReferenceIdeal.ReadP.val_main_v11 (F := Ideal) (m ((c : Thread nD τ).loc main_arg6)) (ix1 j)) := by
  show Cert.Gin.mlp (W1 m ρ c (Proc.devRef .tc main_arg0)) (W1 m ρ c (Proc.devRef .tc main_v25))
    (W1 m ρ c (Proc.devRef .tc main_v5)) (row (W1 m ρ c (Proc.devRef .tc main_v26)))
    (W1 m ρ c (Proc.devRef .tc main_v9)) (row (W1 m ρ c (Proc.devRef .tc main_v27))) = _
  rw [Cert.KernelIdeal.Host1.s0_arg0 m ρ c, Cert.KernelIdeal.Host1.s0_v25 m ρ c, Cert.KernelIdeal.Host1.s0_v5 m ρ c, Cert.KernelIdeal.Host1.s0_v26 m ρ c, Cert.KernelIdeal.Host1.s0_v9 m ρ c, Cert.KernelIdeal.Host1.s0_v27 m ρ c,
    row_shapeCast, row_shapeCast, Cert.RefLayers.agg1]

/-- The layer's output array: the one-pass layer of its input and this layer's weights. -/
theorem out_eq (c : Dev nD) : W4 m ρ c (Proc.devRef .tc main_v37) = Cert.Gin.layerOnePass (hin m c)
      (Cert.Gin.agg (hin m c) (Cert.ReferenceIdeal.ReadP.val_main_v21 (F := Ideal) (m ((c : Thread nD τ).loc main_arg1))) (Cert.ReferenceIdeal.ReadP.val_main_v24 (F := Ideal) (m ((c : Thread nD τ).loc main_arg1))))
      (Cert.ReferenceIdeal.ReadP.val_main_v5 (F := Ideal) (m ((c : Thread nD τ).loc main_arg3))) (fun j => Cert.ReferenceIdeal.ReadP.val_main_v7 (F := Ideal) (m ((c : Thread nD τ).loc main_arg4)) (ix1 j))
      (Cert.ReferenceIdeal.ReadP.val_main_v9 (F := Ideal) (m ((c : Thread nD τ).loc main_arg5))) (fun j => Cert.ReferenceIdeal.ReadP.val_main_v11 (F := Ideal) (m ((c : Thread nD τ).loc main_arg6)) (ix1 j))
      (fun j => Cert.ReferenceIdeal.ReadP.val_main_v13 (F := Ideal) (m ((c : Thread nD τ).loc main_arg7)) (ix1 j)) (fun j => Cert.ReferenceIdeal.ReadP.val_main_v15 (F := Ideal) (m ((c : Thread nD τ).loc main_arg8)) (ix1 j)) := by
  refine ((W4_arr m ρ c 5).trans (Cert.KernelIdeal.Bn1.final (V3 m ρ) c)).trans ?_
  show Cert.Gin.bn (W3 m ρ c (Proc.devRef .tc main_v28_0)) (row (W3 m ρ c (Proc.devRef .tc main_v30)))
    (row (W3 m ρ c (Proc.devRef .tc main_v34))) (row (W3 m ρ c (Proc.devRef .tc main_v35)))
    (row (W3 m ρ c (Proc.devRef .tc main_v36))) = _
  rw [mid_z, mid_mu, mid_var, mid_g, mid_be, Z_eq]
  rfl

end Cert.KernelIdeal.Layer1

end
-- ==== Proof.KKeep.lean ====
/-
  Buffers no segment writes keep their contents across segment boundaries.

  The argument arrays other than the node features, and the two rows of the edge list split off by the first host
  lines, are written by no later host line and are no launch's array; so at every later boundary they hold what they
  held first.
-/
import proofs.«104403_j38585986187615_1_alg».proof.Proof.Gen.KernelIdeal.Frame
import proofs.«104403_j38585986187615_1_alg».proof.Proof.RefReadP
import proofs.«104403_j38585986187615_1_alg».proof.Proof.KHost1
import Idealize.ShloMosaic.Lib.StableHlo.Run
import Idealize.ShloMosaic.Lib.Pipeline.Value

set_option maxRecDepth 16384

noncomputable section

namespace Cert.KernelIdeal.Keep

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

theorem w4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (by show StableHlo.after hostOps1 (W2 m ρ c) (Proc.devRef .tc main_arg1) = _; after_results_simp)
    _ = W1 m ρ c (Proc.devRef .tc main_arg1) := W2_of_ne m ρ c main_arg1 (by decide)
    _ = W0 m ρ c (Proc.devRef .tc main_arg1) := (by show StableHlo.after hostOps0 (W0 m ρ c) (Proc.devRef .tc main_arg1) = _; after_results_simp)
    _ = m ((c : Thread nD τ).loc main_arg1) := rfl

theorem w8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := (by show StableHlo.after hostOps3 (W6 m ρ c) (Proc.devRef .tc main_arg1) = _; after_results_simp)
    _ = W5 m ρ c (Proc.devRef .tc main_arg1) := W6_of_ne m ρ c main_arg1 (by decide)
    _ = W4 m ρ c (Proc.devRef .tc main_arg1) := (by show StableHlo.after hostOps2 (W4 m ρ c) (Proc.devRef .tc main_arg1) = _; after_results_simp)
    _ = m ((c : Thread nD τ).loc main_arg1) := w4_arg1 m ρ c

theorem w4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (by show StableHlo.after hostOps1 (W2 m ρ c) (Proc.devRef .tc main_arg3) = _; after_results_simp)
    _ = W1 m ρ c (Proc.devRef .tc main_arg3) := W2_of_ne m ρ c main_arg3 (by decide)
    _ = W0 m ρ c (Proc.devRef .tc main_arg3) := (by show StableHlo.after hostOps0 (W0 m ρ c) (Proc.devRef .tc main_arg3) = _; after_results_simp)
    _ = m ((c : Thread nD τ).loc main_arg3) := rfl

theorem w8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := (by show StableHlo.after hostOps3 (W6 m ρ c) (Proc.devRef .tc main_arg3) = _; after_results_simp)
    _ = W5 m ρ c (Proc.devRef .tc main_arg3) := W6_of_ne m ρ c main_arg3 (by decide)
    _ = W4 m ρ c (Proc.devRef .tc main_arg3) := (by show StableHlo.after hostOps2 (W4 m ρ c) (Proc.devRef .tc main_arg3) = _; after_results_simp)
    _ = m ((c : Thread nD τ).loc main_arg3) := w4_arg3 m ρ c

theorem w4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := (by show StableHlo.after hostOps1 (W2 m ρ c) (Proc.devRef .tc main_arg4) = _; after_results_simp)
    _ = W1 m ρ c (Proc.devRef .tc main_arg4) := W2_of_ne m ρ c main_arg4 (by decide)
    _ = W0 m ρ c (Proc.devRef .tc main_arg4) := (by show StableHlo.after hostOps0 (W0 m ρ c) (Proc.devRef .tc main_arg4) = _; after_results_simp)
    _ = m ((c : Thread nD τ).loc main_arg4) := rfl

theorem w8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := (by show StableHlo.after hostOps3 (W6 m ρ c) (Proc.devRef .tc main_arg4) = _; after_results_simp)
    _ = W5 m ρ c (Proc.devRef .tc main_arg4) := W6_of_ne m ρ c main_arg4 (by decide)
    _ = W4 m ρ c (Proc.devRef .tc main_arg4) := (by show StableHlo.after hostOps2 (W4 m ρ c) (Proc.devRef .tc main_arg4) = _; after_results_simp)
    _ = m ((c : Thread nD τ).loc main_arg4) := w4_arg4 m ρ c

theorem w4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := (by show StableHlo.after hostOps1 (W2 m ρ c) (Proc.devRef .tc main_arg5) = _; after_results_simp)
    _ = W1 m ρ c (Proc.devRef .tc main_arg5) := W2_of_ne m ρ c main_arg5 (by decide)
    _ = W0 m ρ c (Proc.devRef .tc main_arg5) := (by show StableHlo.after hostOps0 (W0 m ρ c) (Proc.devRef .tc main_arg5) = _; after_results_simp)
    _ = m ((c : Thread nD τ).loc main_arg5) := rfl

theorem w8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := (by show StableHlo.after hostOps3 (W6 m ρ c) (Proc.devRef .tc main_arg5) = _; after_results_simp)
    _ = W5 m ρ c (Proc.devRef .tc main_arg5) := W6_of_ne m ρ c main_arg5 (by decide)
    _ = W4 m ρ c (Proc.devRef .tc main_arg5) := (by show StableHlo.after hostOps2 (W4 m ρ c) (Proc.devRef .tc main_arg5) = _; after_results_simp)
    _ = m ((c : Thread nD τ).loc main_arg5) := w4_arg5 m ρ c

theorem w4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := (by show StableHlo.after hostOps1 (W2 m ρ c) (Proc.devRef .tc main_arg6) = _; after_results_simp)
    _ = W1 m ρ c (Proc.devRef .tc main_arg6) := W2_of_ne m ρ c main_arg6 (by decide)
    _ = W0 m ρ c (Proc.devRef .tc main_arg6) := (by show StableHlo.after hostOps0 (W0 m ρ c) (Proc.devRef .tc main_arg6) = _; after_results_simp)
    _ = m ((c : Thread nD τ).loc main_arg6) := rfl

theorem w8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := (by show StableHlo.after hostOps3 (W6 m ρ c) (Proc.devRef .tc main_arg6) = _; after_results_simp)
    _ = W5 m ρ c (Proc.devRef .tc main_arg6) := W6_of_ne m ρ c main_arg6 (by decide)
    _ = W4 m ρ c (Proc.devRef .tc main_arg6) := (by show StableHlo.after hostOps2 (W4 m ρ c) (Proc.devRef .tc main_arg6) = _; after_results_simp)
    _ = m ((c : Thread nD τ).loc main_arg6) := w4_arg6 m ρ c

theorem w4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := (by show StableHlo.after hostOps1 (W2 m ρ c) (Proc.devRef .tc main_arg7) = _; after_results_simp)
    _ = W1 m ρ c (Proc.devRef .tc main_arg7) := W2_of_ne m ρ c main_arg7 (by decide)
    _ = W0 m ρ c (Proc.devRef .tc main_arg7) := (by show StableHlo.after hostOps0 (W0 m ρ c) (Proc.devRef .tc main_arg7) = _; after_results_simp)
    _ = m ((c : Thread nD τ).loc main_arg7) := rfl

theorem w8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := (by show StableHlo.after hostOps3 (W6 m ρ c) (Proc.devRef .tc main_arg7) = _; after_results_simp)
    _ = W5 m ρ c (Proc.devRef .tc main_arg7) := W6_of_ne m ρ c main_arg7 (by decide)
    _ = W4 m ρ c (Proc.devRef .tc main_arg7) := (by show StableHlo.after hostOps2 (W4 m ρ c) (Proc.devRef .tc main_arg7) = _; after_results_simp)
    _ = m ((c : Thread nD τ).loc main_arg7) := w4_arg7 m ρ c

theorem w4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := (by show StableHlo.after hostOps1 (W2 m ρ c) (Proc.devRef .tc main_arg8) = _; after_results_simp)
    _ = W1 m ρ c (Proc.devRef .tc main_arg8) := W2_of_ne m ρ c main_arg8 (by decide)
    _ = W0 m ρ c (Proc.devRef .tc main_arg8) := (by show StableHlo.after hostOps0 (W0 m ρ c) (Proc.devRef .tc main_arg8) = _; after_results_simp)
    _ = m ((c : Thread nD τ).loc main_arg8) := rfl

theorem w8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := (by show StableHlo.after hostOps3 (W6 m ρ c) (Proc.devRef .tc main_arg8) = _; after_results_simp)
    _ = W5 m ρ c (Proc.devRef .tc main_arg8) := W6_of_ne m ρ c main_arg8 (by decide)
    _ = W4 m ρ c (Proc.devRef .tc main_arg8) := (by show StableHlo.after hostOps2 (W4 m ρ c) (Proc.devRef .tc main_arg8) = _; after_results_simp)
    _ = m ((c : Thread nD τ).loc main_arg8) := w4_arg8 m ρ c

theorem w4_v1 (c : Dev nD) : W4 m ρ c (Proc.devRef .tc main_v1) = Cert.ReferenceIdeal.ReadP.val_main_v1 (F := Ideal) (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := (by show StableHlo.after hostOps1 (W2 m ρ c) (Proc.devRef .tc main_v1) = _; after_results_simp)
    _ = W1 m ρ c (Proc.devRef .tc main_v1) := W2_of_ne m ρ c main_v1 (by decide)
    _ = _ := Cert.KernelIdeal.Host1.s0_v1 m ρ c

theorem w8_v1 (c : Dev nD) : W8 m ρ c (Proc.devRef .tc main_v1) = Cert.ReferenceIdeal.ReadP.val_main_v1 (F := Ideal) (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := (by show StableHlo.after hostOps3 (W6 m ρ c) (Proc.devRef .tc main_v1) = _; after_results_simp)
    _ = W5 m ρ c (Proc.devRef .tc main_v1) := W6_of_ne m ρ c main_v1 (by decide)
    _ = W4 m ρ c (Proc.devRef .tc main_v1) := (by show StableHlo.after hostOps2 (W4 m ρ c) (Proc.devRef .tc main_v1) = _; after_results_simp)
    _ = _ := w4_v1 m ρ c

theorem w4_v3 (c : Dev nD) : W4 m ρ c (Proc.devRef .tc main_v3) = Cert.ReferenceIdeal.ReadP.val_main_v3 (F := Ideal) (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := (by show StableHlo.after hostOps1 (W2 m ρ c) (Proc.devRef .tc main_v3) = _; after_results_simp)
    _ = W1 m ρ c (Proc.devRef .tc main_v3) := W2_of_ne m ρ c main_v3 (by decide)
    _ = _ := Cert.KernelIdeal.Host1.s0_v3 m ρ c

theorem w8_v3 (c : Dev nD) : W8 m ρ c (Proc.devRef .tc main_v3) = Cert.ReferenceIdeal.ReadP.val_main_v3 (F := Ideal) (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := (by show StableHlo.after hostOps3 (W6 m ρ c) (Proc.devRef .tc main_v3) = _; after_results_simp)
    _ = W5 m ρ c (Proc.devRef .tc main_v3) := W6_of_ne m ρ c main_v3 (by decide)
    _ = W4 m ρ c (Proc.devRef .tc main_v3) := (by show StableHlo.after hostOps2 (W4 m ρ c) (Proc.devRef .tc main_v3) = _; after_results_simp)
    _ = _ := w4_v3 m ρ c

end Cert.KernelIdeal.Keep

end
-- ==== Proof.KHost2.lean ====
/-
  The host operations before layer 2's launches, read as the reference's own stage functions.

  As before the first layer: the slices of the weight arrays for this layer, the wrap of negative source indices, the
  gather of source rows of the previous layer's output and the scatter-add into destination rows are the same host
  lines in both programs, applied here to whatever the previous layer left.
-/
import proofs.«104403_j38585986187615_1_alg».proof.Proof.Gen.KernelIdeal.Frame
import proofs.«104403_j38585986187615_1_alg».proof.Proof.RefReadP
import proofs.«104403_j38585986187615_1_alg».proof.Proof.KKeep
import Idealize.ShloMosaic.Lib.StableHlo.Run
import Idealize.ShloMosaic.Lib.Pipeline.Value

set_option maxRecDepth 16384

noncomputable section

namespace Cert.KernelIdeal.Host2

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

theorem s_h (c : Dev nD) : W5 m ρ c (Proc.devRef .tc main_v37) = W4 m ρ c (Proc.devRef .tc main_v37) := by
  show StableHlo.after hostOps2 (W4 m ρ c) (Proc.devRef .tc main_v37) = _
  after_results_simp

theorem s_agg (c : Dev nD) : W5 m ρ c (Proc.devRef .tc main_v59) =
    Host.scatterAdd (F := Ideal) (φ := .f32) Cert.ReferenceIdeal.scatter_S50000x128_S800000x1_S800000x128_1_0_0_1
      (Cert.ReferenceIdeal.ReadP.val_main_v81 (F := Ideal)) (Cert.ReferenceIdeal.ReadP.val_main_v82 (F := Ideal) (m ((c : Thread nD τ).loc main_arg1)))
      (Host.gather Cert.ReferenceIdeal.gather_S50000x128_S800000x1_S800000x128_1_0_n_n_0_1_1128
        (W4 m ρ c (Proc.devRef .tc main_v37)) (Cert.ReferenceIdeal.ReadP.val_main_v79 (F := Ideal) (m ((c : Thread nD τ).loc main_arg1)))) := by
  show StableHlo.after hostOps2 (W4 m ρ c) (Proc.devRef .tc main_v59) = _
  after_results_simp
  rw [Cert.KernelIdeal.Keep.w4_v1 m ρ c, Cert.KernelIdeal.Keep.w4_v3 m ρ c]
  rfl

theorem s_W1 (c : Dev nD) : W5 m ρ c (Proc.devRef .tc main_v39) = Cert.ReferenceIdeal.ReadP.val_main_v63 (F := Ideal) (m ((c : Thread nD τ).loc main_arg3)) := by
  show StableHlo.after hostOps2 (W4 m ρ c) (Proc.devRef .tc main_v39) = _
  after_results_simp
  rw [Cert.KernelIdeal.Keep.w4_arg3 m ρ c]
  rfl

theorem s_W2 (c : Dev nD) : W5 m ρ c (Proc.devRef .tc main_v43) = Cert.ReferenceIdeal.ReadP.val_main_v67 (F := Ideal) (m ((c : Thread nD τ).loc main_arg5)) := by
  show StableHlo.after hostOps2 (W4 m ρ c) (Proc.devRef .tc main_v43) = _
  after_results_simp
  rw [Cert.KernelIdeal.Keep.w4_arg5 m ρ c]
  rfl

theorem s_b1 (c : Dev nD) : W5 m ρ c (Proc.devRef .tc main_v60) = shapeCast S1x128 (Cert.ReferenceIdeal.ReadP.val_main_v65 (F := Ideal) (m ((c : Thread nD τ).loc main_arg4))) shapeCasts_S128_S1x128 := by
  show StableHlo.after hostOps2 (W4 m ρ c) (Proc.devRef .tc main_v60) = _
  after_results_simp
  rw [Cert.KernelIdeal.Keep.w4_arg4 m ρ c]
  rfl

theorem s_b2 (c : Dev nD) : W5 m ρ c (Proc.devRef .tc main_v61) = shapeCast S1x128 (Cert.ReferenceIdeal.ReadP.val_main_v69 (F := Ideal) (m ((c : Thread nD τ).loc main_arg6))) shapeCasts_S128_S1x128 := by
  show StableHlo.after hostOps2 (W4 m ρ c) (Proc.devRef .tc main_v61) = _
  after_results_simp
  rw [Cert.KernelIdeal.Keep.w4_arg6 m ρ c]
  rfl

theorem s_g (c : Dev nD) : W5 m ρ c (Proc.devRef .tc main_v47) = Cert.ReferenceIdeal.ReadP.val_main_v71 (F := Ideal) (m ((c : Thread nD τ).loc main_arg7)) := by
  show StableHlo.after hostOps2 (W4 m ρ c) (Proc.devRef .tc main_v47) = _
  after_results_simp
  rw [Cert.KernelIdeal.Keep.w4_arg7 m ρ c]
  rfl

theorem s_be (c : Dev nD) : W5 m ρ c (Proc.devRef .tc main_v49) = Cert.ReferenceIdeal.ReadP.val_main_v73 (F := Ideal) (m ((c : Thread nD τ).loc main_arg8)) := by
  show StableHlo.after hostOps2 (W4 m ρ c) (Proc.devRef .tc main_v49) = _
  after_results_simp
  rw [Cert.KernelIdeal.Keep.w4_arg8 m ρ c]
  rfl

end Cert.KernelIdeal.Host2

end
-- ==== Proof.KMlp2a.lean ====
/-
  The dense part of one layer's first kernel on a band of rows, index by index on the extended reals.

  A band holds `n` rows of the node features `h` and of the neighbour sums `a`.  The body forms `h + a`, multiplies by
  `W₁`, adds the bias row `b₁`, rectifies, multiplies by `W₂`, adds `b₂` and rectifies again; the conversions to the
  narrower float format before each product are the identity on the extended reals and the zero word reads 0.  Entry
  (p, q) of the result depends on row p of the band only, so the band of the result is the same formula of the whole
  arrays read at the band's rows.  The body also forms the column sums of the result and of its squares over the band.
-/
import proofs.«104403_j38585986187615_1_alg».proof.Proof.Gen.KernelIdeal.Skeleton
import proofs.«104403_j38585986187615_1_alg».proof.Proof.Spec
import proofs.«104403_j38585986187615_1_alg».proof.Proof.LibDense
import proofs.«104403_j38585986187615_1_alg».proof.Proof.LibBiasRows
import proofs.«104403_j38585986187615_1_alg».proof.Proof.LibAxisSum
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Mlp2

open Cert.KernelIdeal Cert.KernelIdeal.Gen

/-- Row 0 of a one-row array, as a function of the column. -/
abbrev row (x : S1x128.Idx → EReal) : Fin 128 → EReal := fun j => x (ix2 ⟨0, Nat.one_pos⟩ j)

/-- Two rectified dense layers applied to `h + a` on `n` rows. -/
def dense {n : ℕ} (h a : (⟨2, ![n, 128]⟩ : Shape).Idx → EReal) (W1 : S128x128.Idx → EReal) (b1 : Fin 128 → EReal)
    (W2 : S128x128.Idx → EReal) (b2 : Fin 128 → EReal) : (⟨2, ![n, 128]⟩ : Shape).Idx → EReal :=
  fun i => max (Cert.LibDense.prod (n := n) (K := 128) (d := 128)
      (fun i' => max (Cert.LibDense.prod (n := n) (K := 128) (d := 128) (fun i'' => h i'' + a i'') W1 i' + b1 (i' 1)) 0)
      W2 i + b2 (i 1)) 0

/-- On the 50000 rows it is the layer's dense part. -/
theorem dense_eq_mlp (h a : S50000x128.Idx → EReal) (W1 : S128x128.Idx → EReal) (b1 : Fin 128 → EReal)
    (W2 : S128x128.Idx → EReal) (b2 : Fin 128 → EReal) :
    dense (n := 50000) h a W1 b1 W2 b2 = Cert.Gin.mlp h a W1 b1 W2 b2 := rfl

/-- An entry reads one row of each row operand: two sets of row operands that agree on that row give the same entry. -/
theorem dense_congr {n n' : ℕ} (h a : (⟨2, ![n, 128]⟩ : Shape).Idx → EReal) (h' a' : (⟨2, ![n', 128]⟩ : Shape).Idx → EReal)
    (W1 : S128x128.Idx → EReal) (b1 : Fin 128 → EReal) (W2 : S128x128.Idx → EReal) (b2 : Fin 128 → EReal)
    (p : Fin n) (p' : Fin n') (q : Fin 128)
    (hh : ∀ k : Fin 128, h (ix2 p k) = h' (ix2 p' k)) (ha : ∀ k : Fin 128, a (ix2 p k) = a' (ix2 p' k)) :
    dense h a W1 b1 W2 b2 (ix2 p q) = dense h' a' W1 b1 W2 b2 (ix2 p' q) := by
  unfold dense Cert.LibDense.prod
  refine congrArg (fun x => max (x + b2 q) 0) ?_
  refine Finset.sum_congr rfl fun k _ => congrArg (fun x => max (x + b1 k) 0 * W2 (ix2 k q)) ?_
  refine Finset.sum_congr rfl fun k' _ => ?_
  show (h (ix2 p k') + a (ix2 p k')) * _ = (h' (ix2 p' k') + a' (ix2 p' k')) * _
  rw [hh k', ha k']
  rfl

/-- The body's rectified output at an entry of the band. -/
theorem pay5_apply (v3 v4 : Vec Ideal S5000x128 .f32) (v8 : Vec Ideal S128x128 .f32) (v12 : Vec Ideal S1x128 .f32)
    (v19 : Vec Ideal S128x128 .f32) (v23 : Vec Ideal S1x128 .f32) (i : S5000x128.Idx) :
    k2_pay5 (F := Ideal) v3 v4 v8 v12 v19 v23 i = dense (n := 5000) v3 v4 v8 (row v12) v19 (row v23) i := by
  unfold k2_pay5
  simp only [shapeCast_self]
  show max (FloatOps.matmul (DotDims.plain 5000 128 128) none _ _ (constant (F := Ideal) ⟨2, ![5000, 128]⟩ .f32 0x00000000#32) i
      + broadcastTo S5000x128 v23 broadcasts_S1x128_S5000x128 i) (Ideal.ofBits .f32 0x00000000#32) = _
  rw [Cert.LibDense.matmul_plain, Cert.LibBiasRows.row_broadcast, Ideal.ofBits_zero_f32]
  unfold dense
  refine congrArg (fun x => max (x + v23 (ix2 ⟨0, Nat.one_pos⟩ (i 1))) 0) ?_
  unfold Cert.LibDense.prod
  refine Finset.sum_congr rfl fun k _ => congrArg (· * v19 (ix2 k (i 1))) ?_
  show max (FloatOps.matmul (DotDims.plain 5000 128 128) none _ _ (constant (F := Ideal) ⟨2, ![5000, 128]⟩ .f32 0x00000000#32) (ix2 (i 0) k)
      + broadcastTo S5000x128 v12 broadcasts_S1x128_S5000x128 (ix2 (i 0) k)) (Ideal.ofBits .f32 0x00000000#32) = _
  rw [Cert.LibDense.matmul_plain, Cert.LibBiasRows.row_broadcast, Ideal.ofBits_zero_f32]
  rfl

/-- The body's column sums of its output over the band, at a column. -/
theorem pay7_apply (v3 v4 : Vec Ideal S5000x128 .f32) (v8 : Vec Ideal S128x128 .f32) (v12 : Vec Ideal S1x128 .f32)
    (v19 : Vec Ideal S128x128 .f32) (v23 : Vec Ideal S1x128 .f32) (q : Fin 128) :
    k2_pay7 (F := Ideal) v3 v4 v8 v12 v19 v23 (ix1 q)
      = ∑ p : Fin 5000, k2_pay5 (F := Ideal) v3 v4 v8 v12 v19 v23 (ix2 p q) := by
  unfold k2_pay7
  exact Cert.LibAxisSum.sum_first (n := 5000) (d := 128) (φ := .f32) (k2_pay5 (F := Ideal) v3 v4 v8 v12 v19 v23)
    0x00000000#32 reduces_S5000x128_S128 (.inl rfl) rfl q

/-- The first accumulator's new contents: the old contents plus the band's column sums. -/
theorem pay1_apply (acc : Vec Ideal S1x128 .f32) (s : FVec Ideal S128 .f32) (q : Fin 128) :
    k2_pay1 (F := Ideal) acc s (ix2 ⟨0, Nat.one_pos⟩ q) = acc (ix2 ⟨0, Nat.one_pos⟩ q) + s (ix1 q) := by
  unfold k2_pay1
  show acc _ + shapeCast S1x128 s shapeCasts_S128_S1x128 (ix2 ⟨0, Nat.one_pos⟩ q) = _
  rw [Cert.LibBiasRows.row_of_vector]

/-- The old contents pass through a cast to their own shape. -/
theorem pay6_eq (acc : Vec Ideal S1x128 .f32) : k2_pay6 (F := Ideal) acc = acc := by
  unfold k2_pay6
  exact shapeCast_self _ _

/-- The second accumulator's new contents: the old contents plus the band's column sums of squares. -/
theorem pay2_apply (z : Vec Ideal S5000x128 .f32) (acc : Vec Ideal S1x128 .f32) (q : Fin 128) :
    k2_pay2 (F := Ideal) z acc (ix2 ⟨0, Nat.one_pos⟩ q)
      = acc (ix2 ⟨0, Nat.one_pos⟩ q) + ∑ p : Fin 5000, z (ix2 p q) * z (ix2 p q) := by
  unfold k2_pay2
  simp only [shapeCast_self]
  show acc _ + shapeCast S1x128 _ shapeCasts_S128_S1x128 (ix2 ⟨0, Nat.one_pos⟩ q) = _
  rw [Cert.LibBiasRows.row_of_vector]
  exact congrArg (acc (ix2 ⟨0, Nat.one_pos⟩ q) + ·) (Cert.LibAxisSum.sum_first (n := 5000) (d := 128) (φ := .f32)
    (mulf z z) 0x00000000#32 reduces_S5000x128_S128 (.inl rfl) rfl q)

/-- The zero row the first band stores. -/
theorem pay3_apply (j : S1x128.Idx) : k2_pay3 (F := Ideal) j = 0 := Ideal.ofBits_zero_f32
theorem pay4_apply (j : S1x128.Idx) : k2_pay4 (F := Ideal) j = 0 := Ideal.ofBits_zero_f32

end Cert.KernelIdeal.Mlp2

end
-- ==== Proof.KMlp2b.lean ====
/-
  The first kernel of one layer, point by point: what its three staging buffers hold after each of the ten bands.

  At every band the body stores the band's rectified output `z`.  At band 0 it first stores zero rows in the two
  accumulators and reads them back, so it leaves `0 + s₀` and `0 + s₀'` there (`sₜ` the column sums of band `t`'s
  `z`, `sₜ'` those of its squares); at a later band it leaves what the band before left plus `sₜ`, `sₜ'`.  By
  induction on the band the accumulators hold, after band `n`, the sums of `s₀ … sₙ` and of `s₀' … sₙ'`.  A band's
  `z` is the layer's dense part of the whole arrays read at the band's rows.
-/
import proofs.«104403_j38585986187615_1_alg».proof.Proof.Gen.KernelIdeal.Frame
import proofs.«104403_j38585986187615_1_alg».proof.Proof.KMlp2a
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Mlp2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## What one run of the body leaves, in each of its two cases -/

/-- A later band: the output buffer holds the band's rectified output. -/
theorem out_B_6 (c : Dev nD) (i : grid2.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond2_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out2_B_6 (F := Ideal) c i a1 h1 a2 h2 a3 h3 a4 h4 a5 h5 a6 h6 a7 h7 a8 h8 a9 h9 hc x0 x1 x2 x3 x4 x5 xo7 xo8 = k2_pay5 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- A later band: the first accumulator holds its old contents plus the band's column sums. -/
theorem out_B_7 (c : Dev nD) (i : grid2.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond2_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out2_B_7 (F := Ideal) c i a1 h1 a2 h2 a3 h3 a4 h4 a5 h5 a6 h6 a7 h7 a8 h8 a9 h9 hc x0 x1 x2 x3 x4 x5 xo7 xo8 = k2_pay1 (k2_pay6 xo7) (k2_pay7 x0 x1 x2 x3 x4 x5) := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- A later band: the second accumulator holds its old contents plus the band's column sums of squares. -/
theorem out_B_8 (c : Dev nD) (i : grid2.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond2_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out2_B_8 (F := Ideal) c i a1 h1 a2 h2 a3 h3 a4 h4 a5 h5 a6 h6 a7 h7 a8 h8 a9 h9 hc x0 x1 x2 x3 x4 x5 xo7 xo8 = k2_pay2 (k2_pay5 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the output buffer holds the band's rectified output. -/
theorem out_A_6 (c : Dev nD) (i : grid2.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond2_0 i)
    (x0 x1 : Vec Ideal S5000x128 .f32) (x2 : Vec Ideal S128x128 .f32) (x3 : Vec Ideal S1x128 .f32)
    (x4 : Vec Ideal S128x128 .f32) (x5 : Vec Ideal S1x128 .f32) :
    out2_A_6 (F := Ideal) c i a1 h1 a2 h2 a3 h3 a4 h4 a5 h5 a6 h6 a7 h7 a8 h8 a9 h9 hc x0 x1 x2 x3 x4 x5 = k2_pay5 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the first accumulator holds the stored zero row, read back, plus the band's column sums. -/
theorem out_A_7 (c : Dev nD) (i : grid2.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond2_0 i)
    (x0 x1 : Vec Ideal S5000x128 .f32) (x2 : Vec Ideal S128x128 .f32) (x3 : Vec Ideal S1x128 .f32)
    (x4 : Vec Ideal S128x128 .f32) (x5 : Vec Ideal S1x128 .f32) :
    out2_A_7 (F := Ideal) c i a1 h1 a2 h2 a3 h3 a4 h4 a5 h5 a6 h6 a7 h7 a8 h8 a9 h9 hc x0 x1 x2 x3 x4 x5
      = k2_pay1 (k2_pay6 (k2_pay3 (F := Ideal))) (k2_pay7 x0 x1 x2 x3 x4 x5) := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the second accumulator holds the stored zero row, read back, plus the band's column sums of squares. -/
theorem out_A_8 (c : Dev nD) (i : grid2.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond2_0 i)
    (x0 x1 : Vec Ideal S5000x128 .f32) (x2 : Vec Ideal S128x128 .f32) (x3 : Vec Ideal S1x128 .f32)
    (x4 : Vec Ideal S128x128 .f32) (x5 : Vec Ideal S1x128 .f32) :
    out2_A_8 (F := Ideal) c i a1 h1 a2 h2 a3 h3 a4 h4 a5 h5 a6 h6 a7 h7 a8 h8 a9 h9 hc x0 x1 x2 x3 x4 x5
      = k2_pay2 (k2_pay5 x0 x1 x2 x3 x4 x5) (k2_pay4 (F := Ideal)) := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-! ## The blocks the body reads at a band -/

/-- The six input blocks at band `t`, at their literal vector types. -/
def B0 (c : Dev nD) (t : Fin cfg2.N) : Vec Ideal S5000x128 .f32 := iblk2 V c 0 t
def B1 (c : Dev nD) (t : Fin cfg2.N) : Vec Ideal S5000x128 .f32 := iblk2 V c 1 t
def B2 (c : Dev nD) (t : Fin cfg2.N) : Vec Ideal S128x128 .f32 := iblk2 V c 2 t
def B3 (c : Dev nD) (t : Fin cfg2.N) : Vec Ideal S1x128 .f32 := iblk2 V c 3 t
def B4 (c : Dev nD) (t : Fin cfg2.N) : Vec Ideal S128x128 .f32 := iblk2 V c 4 t
def B5 (c : Dev nD) (t : Fin cfg2.N) : Vec Ideal S1x128 .f32 := iblk2 V c 5 t

/-- The band's rectified output. -/
def zb (c : Dev nD) (t : Fin cfg2.N) : Vec Ideal S5000x128 .f32 :=
  k2_pay5 (B0 V c t) (B1 V c t) (B2 V c t) (B3 V c t) (B4 V c t) (B5 V c t)

/-! ## The three buffers after each band -/

/-- After band 0: the band's output; the zero rows, read back, plus the band's column sums. -/
theorem outs_A (c : Dev nD) (t : Fin cfg2.N) (h0 : t.val % 10 = 0) :
    outsAt2 V c t.val t.isLt = (zb V c t,
      k2_pay1 (F := Ideal) (k2_pay6 (F := Ideal) (k2_pay3 (F := Ideal)))
        (k2_pay7 (F := Ideal) (B0 V c t) (B1 V c t) (B2 V c t) (B3 V c t) (B4 V c t) (B5 V c t)),
      k2_pay2 (F := Ideal) (zb V c t) (k2_pay4 (F := Ideal))) :=
  (outsAt2_A V c t h0).trans (congrArg₂ Prod.mk
    (out_A_6 c (grid2.coords t) (ms2_0 t) (hs2_0 t) (ms2_1 t) (hs2_1 t) (ms2_2 t) (hs2_2 t) (ms2_3 t) (hs2_3 t)
      (ms2_4 t) (hs2_4 t) (ms2_5 t) (hs2_5 t) (ms2_6 t) (hs2_6 t) (ms2_7 t) (hs2_7 t) (ms2_8 t) (hs2_8 t) ((hcond2_0 t).mpr h0)
      (iblk2 V c 0 t) (iblk2 V c 1 t) (iblk2 V c 2 t) (iblk2 V c 3 t) (iblk2 V c 4 t) (iblk2 V c 5 t))
    (congrArg₂ Prod.mk
      (out_A_7 c (grid2.coords t) (ms2_0 t) (hs2_0 t) (ms2_1 t) (hs2_1 t) (ms2_2 t) (hs2_2 t) (ms2_3 t) (hs2_3 t)
      (ms2_4 t) (hs2_4 t) (ms2_5 t) (hs2_5 t) (ms2_6 t) (hs2_6 t) (ms2_7 t) (hs2_7 t) (ms2_8 t) (hs2_8 t) ((hcond2_0 t).mpr h0)
      (iblk2 V c 0 t) (iblk2 V c 1 t) (iblk2 V c 2 t) (iblk2 V c 3 t) (iblk2 V c 4 t) (iblk2 V c 5 t))
      (out_A_8 c (grid2.coords t) (ms2_0 t) (hs2_0 t) (ms2_1 t) (hs2_1 t) (ms2_2 t) (hs2_2 t) (ms2_3 t) (hs2_3 t)
      (ms2_4 t) (hs2_4 t) (ms2_5 t) (hs2_5 t) (ms2_6 t) (hs2_6 t) (ms2_7 t) (hs2_7 t) (ms2_8 t) (hs2_8 t) ((hcond2_0 t).mpr h0)
      (iblk2 V c 0 t) (iblk2 V c 1 t) (iblk2 V c 2 t) (iblk2 V c 3 t) (iblk2 V c 4 t) (iblk2 V c 5 t))))

/-- After a later band: the band's output; what the band before left in the accumulators plus the band's column sums. -/
theorem outs_B (c : Dev nD) (t : Fin cfg2.N) (h0 : ¬t.val % 10 = 0) :
    outsAt2 V c t.val t.isLt = (zb V c t,
      k2_pay1 (F := Ideal) (k2_pay6 (F := Ideal) (outsAt2 V c (t.val - 1) (Nat.lt_of_le_of_lt (Nat.sub_le _ _) t.isLt)).2.1)
        (k2_pay7 (F := Ideal) (B0 V c t) (B1 V c t) (B2 V c t) (B3 V c t) (B4 V c t) (B5 V c t)),
      k2_pay2 (F := Ideal) (zb V c t) (outsAt2 V c (t.val - 1) (Nat.lt_of_le_of_lt (Nat.sub_le _ _) t.isLt)).2.2) :=
  (outsAt2_B V c t h0).trans (congrArg₂ Prod.mk
    (out_B_6 c (grid2.coords t) (ms2_0 t) (hs2_0 t) (ms2_1 t) (hs2_1 t) (ms2_2 t) (hs2_2 t) (ms2_3 t) (hs2_3 t)
      (ms2_4 t) (hs2_4 t) (ms2_5 t) (hs2_5 t) (ms2_6 t) (hs2_6 t) (ms2_7 t) (hs2_7 t) (ms2_8 t) (hs2_8 t) (fun hq => h0 ((hcond2_0 t).mp hq))
      (iblk2 V c 0 t) (iblk2 V c 1 t) (iblk2 V c 2 t) (iblk2 V c 3 t) (iblk2 V c 4 t) (iblk2 V c 5 t)
      (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (out_B_7 c (grid2.coords t) (ms2_0 t) (hs2_0 t) (ms2_1 t) (hs2_1 t) (ms2_2 t) (hs2_2 t) (ms2_3 t) (hs2_3 t)
      (ms2_4 t) (hs2_4 t) (ms2_5 t) (hs2_5 t) (ms2_6 t) (hs2_6 t) (ms2_7 t) (hs2_7 t) (ms2_8 t) (hs2_8 t) (fun hq => h0 ((hcond2_0 t).mp hq))
      (iblk2 V c 0 t) (iblk2 V c 1 t) (iblk2 V c 2 t) (iblk2 V c 3 t) (iblk2 V c 4 t) (iblk2 V c 5 t)
        (outsAt2 V c (t.val - 1) (Nat.lt_of_le_of_lt (Nat.sub_le _ _) t.isLt)).2.1 (outsAt2 V c (t.val - 1) (Nat.lt_of_le_of_lt (Nat.sub_le _ _) t.isLt)).2.2)
      (out_B_8 c (grid2.coords t) (ms2_0 t) (hs2_0 t) (ms2_1 t) (hs2_1 t) (ms2_2 t) (hs2_2 t) (ms2_3 t) (hs2_3 t)
      (ms2_4 t) (hs2_4 t) (ms2_5 t) (hs2_5 t) (ms2_6 t) (hs2_6 t) (ms2_7 t) (hs2_7 t) (ms2_8 t) (hs2_8 t) (fun hq => h0 ((hcond2_0 t).mp hq))
      (iblk2 V c 0 t) (iblk2 V c 1 t) (iblk2 V c 2 t) (iblk2 V c 3 t) (iblk2 V c 4 t) (iblk2 V c 5 t)
        (outsAt2 V c (t.val - 1) (Nat.lt_of_le_of_lt (Nat.sub_le _ _) t.isLt)).2.1 (outsAt2 V c (t.val - 1) (Nat.lt_of_le_of_lt (Nat.sub_le _ _) t.isLt)).2.2)))

/-- The output buffer after band `t` holds the band's rectified output. -/
theorem outs6 (c : Dev nD) (t : Fin cfg2.N) : (outsAt2 V c t.val t.isLt).1 = zb V c t := by
  by_cases h0 : t.val % 10 = 0
  · rw [outs_A V c t h0]
  · rw [outs_B V c t h0]

/-- The first accumulator after band `n` holds the sum over the bands `0 … n` of their column sums. -/
theorem acc7 (c : Dev nD) : ∀ (n : ℕ) (h : n < cfg2.N) (q : Fin 128),
    (outsAt2 V c n h).2.1 (ix2 ⟨0, Nat.one_pos⟩ q)
      = ∑ x : Fin (n + 1), ∑ p : Fin 5000, zb V c ⟨x.val, Nat.lt_of_lt_of_le x.isLt h⟩ (ix2 p q)
  | 0, h, q => by
    have e := outs_A V c ⟨0, h⟩ rfl
    dsimp only at e
    rw [e, Fin.sum_univ_one]
    show k2_pay1 (F := Ideal) (k2_pay6 (F := Ideal) (k2_pay3 (F := Ideal))) _ (ix2 ⟨0, Nat.one_pos⟩ q) = _
    rw [pay1_apply, pay6_eq, pay3_apply, zero_add, pay7_apply]
    rfl
  | n + 1, h, q => by
    have hN : cfg2.N = 10 := N_2
    have h0 : ¬(⟨n + 1, h⟩ : Fin cfg2.N).val % 10 = 0 := by dsimp only; omega
    have e := outs_B V c ⟨n + 1, h⟩ h0
    dsimp only at e
    rw [e, Fin.sum_univ_castSucc]
    show k2_pay1 (F := Ideal) (k2_pay6 (F := Ideal) (outsAt2 V c n _).2.1) _ (ix2 ⟨0, Nat.one_pos⟩ q) = _
    rw [pay1_apply, pay6_eq, pay7_apply, acc7 c n (Nat.lt_of_succ_lt h) q]
    rfl

/-- The second accumulator after band `n` holds the sum over the bands `0 … n` of their column sums of squares. -/
theorem acc8 (c : Dev nD) : ∀ (n : ℕ) (h : n < cfg2.N) (q : Fin 128),
    (outsAt2 V c n h).2.2 (ix2 ⟨0, Nat.one_pos⟩ q)
      = ∑ x : Fin (n + 1), ∑ p : Fin 5000, zb V c ⟨x.val, Nat.lt_of_lt_of_le x.isLt h⟩ (ix2 p q)
          * zb V c ⟨x.val, Nat.lt_of_lt_of_le x.isLt h⟩ (ix2 p q)
  | 0, h, q => by
    have e := outs_A V c ⟨0, h⟩ rfl
    dsimp only at e
    rw [e, Fin.sum_univ_one]
    show k2_pay2 (F := Ideal) _ (k2_pay4 (F := Ideal)) _ = _
    rw [pay2_apply, pay4_apply, zero_add]
    rfl
  | n + 1, h, q => by
    have hN : cfg2.N = 10 := N_2
    have h0 : ¬(⟨n + 1, h⟩ : Fin cfg2.N).val % 10 = 0 := by dsimp only; omega
    have e := outs_B V c ⟨n + 1, h⟩ h0
    dsimp only at e
    rw [e, Fin.sum_univ_castSucc]
    show k2_pay2 (F := Ideal) _ (outsAt2 V c n _).2.2 _ = _
    rw [pay2_apply, acc8 c n (Nat.lt_of_succ_lt h) q]
    rfl

end Cert.KernelIdeal.Mlp2

end
-- ==== Proof.KMlp2.lean ====
/-
  The first kernel of one layer: what its three result arrays hold after the launch.

  Band `t` of the ten bands reads rows `5000 t … 5000 t + 4999` of the node features and of the neighbour sums and the
  whole weight and bias arrays, and writes rows `5000 t …` of the first result; the bands tile the 50000 rows, so the
  first result is the layer's dense part `z` of the whole arrays.  The two one-row results are written once, after the
  last band, with what the accumulators hold then: the sum over the ten bands of the bands' column sums of `z` and of
  `z²`, which is the column sum over all 50000 rows — a finite sum on the extended reals regroups freely.
-/
import proofs.«104403_j38585986187615_1_alg».proof.Proof.Gen.KernelIdeal.Frame
import proofs.«104403_j38585986187615_1_alg».proof.Proof.Spec
import proofs.«104403_j38585986187615_1_alg».proof.Proof.LibSumBlocks
import proofs.«104403_j38585986187615_1_alg».proof.Proof.KMlp2a
import proofs.«104403_j38585986187615_1_alg».proof.Proof.KMlp2b
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Mlp2

open Cert.KernelIdeal Cert.KernelIdeal.Gen

variable (V : (c : Dev nD) → (b : Ref sig .tc) → Buf (Elt Ideal) ((c : Thread nD τ).loc b))

/-- The layer's dense part of the six arrays the kernel reads, as the launch finds them. -/
abbrev Z (c : Dev nD) : S50000x128.Idx → EReal :=
  Cert.Gin.mlp (V c main_v37) (V c main_v59) (V c main_v39) (row (V c main_v60)) (V c main_v43) (row (V c main_v61))

/-- The printed index maps over the ten bands: the row operands and the first result move with the band, the weight,
    bias and accumulator blocks stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row `p` of band `t` is row `5000 t + p` of the array. -/
theorem row_lt (t : Fin cfg2.N) (p : Fin 5000) : t.val * 5000 + p.val < 50000 := by
  have hN : cfg2.N = 10 := N_2
  have h1 := t.isLt
  have h2 := p.isLt
  omega

/-! ## The input blocks, read off the arrays -/

theorem B0_apply (c : Dev nD) (t : Fin cfg2.N) (p : Fin 5000) (k : Fin 128) :
    B0 V c t (ix2 p k) = V c main_v37 (ix2 ⟨t.val * 5000 + p.val, row_lt t p⟩ k) := by
  obtain ⟨e0, e1, -⟩ := idx_facts t
  unfold B0 iblk2
  rw [View.read_apply]
  show V c main_v37 _ = V c main_v37 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

theorem B1_apply (c : Dev nD) (t : Fin cfg2.N) (p : Fin 5000) (k : Fin 128) :
    B1 V c t (ix2 p k) = V c main_v59 (ix2 ⟨t.val * 5000 + p.val, row_lt t p⟩ k) := by
  obtain ⟨-, -, e0, e1, -⟩ := idx_facts t
  unfold B1 iblk2
  rw [View.read_apply]
  show V c main_v59 _ = V c main_v59 _
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

theorem B2_eq (c : Dev nD) (t : Fin cfg2.N) : B2 V c t = V c main_v39 := by
  obtain ⟨-, -, -, -, e0, e1, -⟩ := idx_facts t
  funext j
  unfold B2 iblk2
  rw [View.read_apply]
  show V c main_v39 _ = V c main_v39 j
  congr 1
  funext a
  apply Fin.ext
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

theorem B3_eq (c : Dev nD) (t : Fin cfg2.N) : B3 V c t = V c main_v60 := by
  obtain ⟨-, -, -, -, -, -, e0, e1, -⟩ := idx_facts t
  funext j
  unfold B3 iblk2
  rw [View.read_apply]
  show V c main_v60 _ = V c main_v60 j
  congr 1
  funext a
  apply Fin.ext
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

theorem B4_eq (c : Dev nD) (t : Fin cfg2.N) : B4 V c t = V c main_v43 := by
  obtain ⟨-, -, -, -, -, -, -, -, e0, e1, -⟩ := idx_facts t
  funext j
  unfold B4 iblk2
  rw [View.read_apply]
  show V c main_v43 _ = V c main_v43 j
  congr 1
  funext a
  apply Fin.ext
  match a with
  | ⟨0, _⟩ => show win2_4.index t (0 : Fin 2) * 128 + 1 * (j 0).val = (j 0).val; rw [e0]; omega
  | ⟨1, _⟩ => show win2_4.index t (1 : Fin 2) * 128 + 1 * (j 1).val = (j 1).val; rw [e1]; omega

theorem B5_eq (c : Dev nD) (t : Fin cfg2.N) : B5 V c t = V c main_v61 := by
  obtain ⟨-, -, -, -, -, -, -, -, -, -, e0, e1, -⟩ := idx_facts t
  funext j
  unfold B5 iblk2
  rw [View.read_apply]
  show V c main_v61 _ = V c main_v61 j
  congr 1
  funext a
  apply Fin.ext
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega

/-- Entry (p, q) of band `t`'s output is entry (5000 t + p, q) of the dense part of the whole arrays. -/
theorem zb_apply (c : Dev nD) (t : Fin cfg2.N) (p : Fin 5000) (q : Fin 128) :
    zb V c t (ix2 p q) = Z V c (ix2 ⟨t.val * 5000 + p.val, row_lt t p⟩ q) := by
  unfold zb
  refine (pay5_apply (B0 V c t) (B1 V c t) (B2 V c t) (B3 V c t) (B4 V c t) (B5 V c t) (ix2 p q)).trans ?_
  rw [B2_eq, B3_eq, B4_eq, B5_eq]
  exact dense_congr (n := 5000) (n' := 50000) (B0 V c t) (B1 V c t) (V c main_v37) (V c main_v59) (V c main_v39)
    (row (V c main_v60)) (V c main_v43) (row (V c main_v61)) p ⟨t.val * 5000 + p.val, row_lt t p⟩ q
    (B0_apply V c t p) (B1_apply V c t p)

/-! ## The first result: the bands tile it -/

/-- What band `t` writes back is band `t` of `Z`. -/
theorem flushed6_eq (c : Dev nD) (t : Fin cfg2.N) :
    (dat2 V c).flushed 6 t = ((cfg2.win 6).blk t).view.read (Elt Ideal) (Z V c) := by
  show (cfg2.win 6).cut (grid2.coords t) ((dat2 V c).after 6 t) = _
  rw [after2_6, outs6]
  obtain ⟨-, -, -, -, -, -, -, -, -, -, -, -, e0, e1, -⟩ := idx_facts t
  funext j
  obtain ⟨p, q, rfl⟩ : ∃ (p : Fin 5000) (q : Fin 128), j = ix2 p q := ⟨j 0, j 1, eq_ix2 j⟩
  refine (zb_apply V c t p q).trans ?_
  rw [View.read_apply]
  show Z V c _ = Z V c _
  congr 1
  funext a
  apply Fin.ext
  match a with
  | ⟨0, _⟩ => show t.val * 5000 + p.val = win2_6.index t (0 : Fin 2) * 5000 + 1 * p.val; rw [e0]; omega
  | ⟨1, _⟩ => show q.val = win2_6.index t (1 : Fin 2) * 128 + 1 * q.val; rw [e1]; omega

/-- An index of the first result is in band `t`'s block iff each coordinate is in the block's range on its axis. -/
theorem mem_blk6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v62_0).slice (win2_6.rect t)).set ↔ _
  rw [View.set_slice_whole, Rect.mem_set_unit]
  exact Iff.rfl

/-- The first result array ends holding `Z`. -/
theorem final6 (c : Dev nD) : (dat2 V c).arrAt 6 cfg2.N = Z V c :=
  (dat2 V c).arrAt_eq_of_cover 6 (Z V c) (fun t _ => flushed6_eq V c t) fun i => by
    have hN : cfg2.N = 10 := N_2
    have hi0 : (i 0).val < 50000 := (i 0).isLt
    have hi1 : (i 1).val < 128 := (i 1).isLt
    obtain ⟨-, -, -, -, -, -, -, -, -, -, -, -, e0, e1, -⟩ := idx_facts ⟨(i 0).val / 5000, by omega⟩
    refine ⟨⟨(i 0).val / 5000, by omega⟩, flush2_6 _, ?_⟩
    rw [mem_blk6]
    intro a
    match a with
    | ⟨0, _⟩ =>
      show win2_6.index _ (0 : Fin 2) * 5000 ≤ (i 0).val ∧ (i 0).val < win2_6.index _ (0 : Fin 2) * 5000 + 5000
      rw [e0]; dsimp only; omega
    | ⟨1, _⟩ =>
      show win2_6.index _ (1 : Fin 2) * 128 ≤ (i 1).val ∧ (i 1).val < win2_6.index _ (1 : Fin 2) * 128 + 128
      rw [e1]; omega

/-! ## The two accumulators: written back once, after the last band -/

/-- The ten bands' column sums add up to the column sum over all rows. -/
theorem bands_sum (c : Dev nD) (q : Fin 128) (h : 9 < cfg2.N) :
    ∑ x : Fin (9 + 1), ∑ p : Fin 5000, zb V c ⟨x.val, Nat.lt_of_lt_of_le x.isLt h⟩ (ix2 p q)
      = Cert.Gin.colSum (Z V c) q :=
  (Finset.sum_congr rfl fun x _ => Finset.sum_congr rfl fun p _ =>
      zb_apply V c ⟨x.val, Nat.lt_of_lt_of_le x.isLt h⟩ p q).trans
    (Cert.SumBlocks.sum_fin_blocks 10 5000 rfl (fun r : Fin 50000 => Z V c (ix2 r q))).symm

/-- The same for the squares. -/
theorem bands_sum_sq (c : Dev nD) (q : Fin 128) (h : 9 < cfg2.N) :
    ∑ x : Fin (9 + 1), ∑ p : Fin 5000, zb V c ⟨x.val, Nat.lt_of_lt_of_le x.isLt h⟩ (ix2 p q)
        * zb V c ⟨x.val, Nat.lt_of_lt_of_le x.isLt h⟩ (ix2 p q)
      = Cert.Gin.colSum (fun i' => Z V c i' * Z V c i') q :=
  (Finset.sum_congr rfl fun x _ => Finset.sum_congr rfl fun p _ =>
      congrArg (fun y => y * y) (zb_apply V c ⟨x.val, Nat.lt_of_lt_of_le x.isLt h⟩ p q)).trans
    (Cert.SumBlocks.sum_fin_blocks 10 5000 rfl (fun r : Fin 50000 => Z V c (ix2 r q) * Z V c (ix2 r q))).symm

/-- The block of a one-row array read through window 7 is the array. -/
theorem read_blk7 (G : S1x128.Idx → EReal) (t : Fin cfg2.N) (q : Fin 128) :
    ((cfg2.win 7).blk t).view.read (Elt Ideal) G (ix2 ⟨0, Nat.one_pos⟩ q) = G (ix2 ⟨0, Nat.one_pos⟩ q) := by
  have e0 : win2_7.index t (0 : Fin 2) = 0 := (idx_facts t).2.2.2.2.2.2.2.2.2.2.2.2.2.2.1
  have e1 : win2_7.index t (1 : Fin 2) = 0 := (idx_facts t).2.2.2.2.2.2.2.2.2.2.2.2.2.2.2.1
  rw [View.read_apply]
  show G _ = G _
  congr 1
  funext a
  apply Fin.ext
  match a with
  | ⟨0, _⟩ => show win2_7.index t (0 : Fin 2) * 1 + 1 * 0 = 0; rw [e0]
  | ⟨1, _⟩ => show win2_7.index t (1 : Fin 2) * 128 + 1 * q.val = q.val; rw [e1]; omega

/-- The one write-back of the second result, after band 9, writes the column sums of `Z`. -/
theorem flushed7_eq (c : Dev nD) (t : Fin cfg2.N) (hf : (cfg2.win 7).flush t = true) :
    (dat2 V c).flushed 7 t = ((cfg2.win 7).blk t).view.read (Elt Ideal)
      (fun i : S1x128.Idx => Cert.Gin.colSum (Z V c) (i 1)) := by
  have hN : cfg2.N = 10 := N_2
  have h9 : t.val = 9 := by have := (flush2_7 t).mp hf; have := t.isLt; omega
  obtain ⟨n, hn⟩ := t
  dsimp only at h9
  show (cfg2.win 7).cut (grid2.coords ⟨n, hn⟩) ((dat2 V c).after 7 ⟨n, hn⟩) = _
  rw [after2_7]
  funext j
  obtain ⟨r, q, rfl⟩ : ∃ (r : Fin 1) (q : Fin 128), j = ix2 r q := ⟨j 0, j 1, eq_ix2 j⟩
  obtain rfl : r = ⟨0, Nat.one_pos⟩ := Subsingleton.elim _ _
  refine (acc7 V c n hn q).trans ?_
  refine Eq.trans ?_ (read_blk7 (fun i : S1x128.Idx => Cert.Gin.colSum (Z V c) (i 1)) ⟨n, hn⟩ q).symm
  subst h9
  exact bands_sum V c q hn

/-- An index of a one-row result is in its one block. -/
theorem mem_blk7 (t : Fin cfg2.N) (i : S1x128.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v62_1).slice (win2_7.rect t)).set ↔ _
  rw [View.set_slice_whole, Rect.mem_set_unit]
  exact Iff.rfl

/-- The second result array ends holding the column sums of `Z`. -/
theorem final7 (c : Dev nD) : (dat2 V c).arrAt 7 cfg2.N = fun i => Cert.Gin.colSum (Z V c) (i 1) :=
  (dat2 V c).arrAt_eq_of_cover 7 (fun i : S1x128.Idx => Cert.Gin.colSum (Z V c) (i 1)) (flushed7_eq V c) fun i => by
    have hN : cfg2.N = 10 := N_2
    have hi0 : (i 0).val < 1 := (i 0).isLt
    have hi1 : (i 1).val < 128 := (i 1).isLt
    obtain ⟨-, -, -, -, -, -, -, -, -, -, -, -, -, -, e0, e1, -⟩ := idx_facts ⟨9, by omega⟩
    refine ⟨⟨9, by omega⟩, (flush2_7 _).mpr rfl, ?_⟩
    rw [mem_blk7]
    intro a
    match a with
    | ⟨0, _⟩ =>
      show win2_7.index _ (0 : Fin 2) * 1 ≤ (i 0).val ∧ (i 0).val < win2_7.index _ (0 : Fin 2) * 1 + 1
      rw [e0]; omega
    | ⟨1, _⟩ =>
      show win2_7.index _ (1 : Fin 2) * 128 ≤ (i 1).val ∧ (i 1).val < win2_7.index _ (1 : Fin 2) * 128 + 128
      rw [e1]; omega

/-- The block of a one-row array read through window 8 is the array. -/
theorem read_blk8 (G : S1x128.Idx → EReal) (t : Fin cfg2.N) (q : Fin 128) :
    ((cfg2.win 8).blk t).view.read (Elt Ideal) G (ix2 ⟨0, Nat.one_pos⟩ q) = G (ix2 ⟨0, Nat.one_pos⟩ q) := by
  have e0 : win2_8.index t (0 : Fin 2) = 0 := (idx_facts t).2.2.2.2.2.2.2.2.2.2.2.2.2.2.2.2.1
  have e1 : win2_8.index t (1 : Fin 2) = 0 := (idx_facts t).2.2.2.2.2.2.2.2.2.2.2.2.2.2.2.2.2
  rw [View.read_apply]
  show G _ = G _
  congr 1
  funext a
  apply Fin.ext
  match a with
  | ⟨0, _⟩ => show win2_8.index t (0 : Fin 2) * 1 + 1 * 0 = 0; rw [e0]
  | ⟨1, _⟩ => show win2_8.index t (1 : Fin 2) * 128 + 1 * q.val = q.val; rw [e1]; omega

/-- The one write-back of the third result, after band 9, writes the column sums of the squares of `Z`. -/
theorem flushed8_eq (c : Dev nD) (t : Fin cfg2.N) (hf : (cfg2.win 8).flush t = true) :
    (dat2 V c).flushed 8 t = ((cfg2.win 8).blk t).view.read (Elt Ideal)
      (fun i : S1x128.Idx => Cert.Gin.colSum (fun i' => Z V c i' * Z V c i') (i 1)) := by
  have hN : cfg2.N = 10 := N_2
  have h9 : t.val = 9 := by have := (flush2_8 t).mp hf; have := t.isLt; omega
  obtain ⟨n, hn⟩ := t
  dsimp only at h9
  show (cfg2.win 8).cut (grid2.coords ⟨n, hn⟩) ((dat2 V c).after 8 ⟨n, hn⟩) = _
  rw [after2_8]
  funext j
  obtain ⟨r, q, rfl⟩ : ∃ (r : Fin 1) (q : Fin 128), j = ix2 r q := ⟨j 0, j 1, eq_ix2 j⟩
  obtain rfl : r = ⟨0, Nat.one_pos⟩ := Subsingleton.elim _ _
  refine (acc8 V c n hn q).trans ?_
  refine Eq.trans ?_ (read_blk8 (fun i : S1x128.Idx => Cert.Gin.colSum (fun i' => Z V c i' * Z V c i') (i 1)) ⟨n, hn⟩ q).symm
  subst h9
  exact bands_sum_sq V c q hn

theorem mem_blk8 (t : Fin cfg2.N) (i : S1x128.Idx) :
    i ∈ ((cfg2.win 8).blk t).view.set ↔ ∀ a : Fin 2, win2_8.index t a * S1x128.size a ≤ (i a).val
      ∧ (i a).val < win2_8.index t a * S1x128.size a + S1x128.size a := by
  show i ∈ ((View.whole main_v62_2).slice (win2_8.rect t)).set ↔ _
  rw [View.set_slice_whole, Rect.mem_set_unit]
  exact Iff.rfl

/-- The third result array ends holding the column sums of the squares of `Z`. -/
theorem final8 (c : Dev nD) :
    (dat2 V c).arrAt 8 cfg2.N = fun i => Cert.Gin.colSum (fun i' => Z V c i' * Z V c i') (i 1) :=
  (dat2 V c).arrAt_eq_of_cover 8 (fun i : S1x128.Idx => Cert.Gin.colSum (fun i' => Z V c i' * Z V c i') (i 1))
    (flushed8_eq V c) fun i => by
    have hN : cfg2.N = 10 := N_2
    have hi0 : (i 0).val < 1 := (i 0).isLt
    have hi1 : (i 1).val < 128 := (i 1).isLt
    obtain ⟨-, -, -, -, -, -, -, -, -, -, -, -, -, -, -, -, e0, e1⟩ := idx_facts ⟨9, by omega⟩
    refine ⟨⟨9, by omega⟩, (flush2_8 _).mpr rfl, ?_⟩
    rw [mem_blk8]
    intro a
    match a with
    | ⟨0, _⟩ =>
      show win2_8.index _ (0 : Fin 2) * 1 ≤ (i 0).val ∧ (i 0).val < win2_8.index _ (0 : Fin 2) * 1 + 1
      rw [e0]; omega
    | ⟨1, _⟩ =>
      show win2_8.index _ (1 : Fin 2) * 128 ≤ (i 1).val ∧ (i 1).val < win2_8.index _ (1 : Fin 2) * 128 + 128
      rw [e1]; omega

end Cert.KernelIdeal.Mlp2

end
-- ==== Proof.KBn3.lean ====
/-
  The normalisation kernel of one layer (a launch over ten row bands of 5000 nodes): what its result array holds.

  Band `t` of the result is computed from band `t` of `z` and the four one-row arrays (mean, variance, scale, shift),
  every entry by the same formula  g · (z − μ) · (var + ε)^(-1/2) + β  of its own column's statistics; the ten bands
  tile the 50000 rows, so the array is that formula of the whole arrays, index by index.
-/
import proofs.«104403_j38585986187615_1_alg».proof.Proof.Gen.KernelIdeal.Frame
import proofs.«104403_j38585986187615_1_alg».proof.Proof.Spec
import proofs.«104403_j38585986187615_1_alg».proof.Proof.LibBiasRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Bn3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row 0 of a one-row array, as a function of the column. -/
abbrev row (x : S1x128.Idx → EReal) : Fin 128 → EReal := fun j => x (ix2 ⟨0, Nat.one_pos⟩ j)

/-- The normalised array as a function of the five arrays the kernel reads. -/
abbrev G (z : S50000x128.Idx → EReal) (mu var g be : S1x128.Idx → EReal) : S50000x128.Idx → EReal :=
  Cert.Gin.bn z (row mu) (row var) (row g) (row be)

/-- The body's arithmetic at an entry (p, q) of a band: the band's entry and column q of the four rows. -/
theorem pay_apply (v0 v5 : Vec Ideal S1x128 .f32) (v7 : Vec Ideal S5000x128 .f32) (v9 v17 : Vec Ideal S1x128 .f32)
    (p : Fin 5000) (q : Fin 128) :
    k3_pay1 (F := Ideal) v0 v5 v7 v9 v17 (ix2 p q)
      = row v5 q * (v7 (ix2 p q) - row v9 q) * Ideal.rsqrt (row v0 q + Cert.Gin.epsW) + row v17 q := by
  unfold k3_pay1
  simp only [shapeCast_self]
  show (_ * (_ - _)) * _ + _ = _
  rw [Cert.LibBiasRows.row_broadcast, Cert.LibBiasRows.row_broadcast, Cert.LibBiasRows.row_broadcast,
    Cert.LibBiasRows.row_broadcast]
  rfl

/-- The formula at an entry reads `z` at that entry and the four rows at the entry's column. -/
theorem G_congr (z : S50000x128.Idx → EReal) (mu var g be : S1x128.Idx → EReal) (i0 i5 : S50000x128.Idx)
    (i1 i2 i3 i4 : S1x128.Idx) (h0 : i0 = i5) (h1 : i1 = ix2 ⟨0, Nat.one_pos⟩ (i5 1))
    (h2 : i2 = ix2 ⟨0, Nat.one_pos⟩ (i5 1)) (h3 : i3 = ix2 ⟨0, Nat.one_pos⟩ (i5 1))
    (h4 : i4 = ix2 ⟨0, Nat.one_pos⟩ (i5 1)) :
    g i3 * (z i0 - mu i1) * Ideal.rsqrt (var i2 + Cert.Gin.epsW) + be i4 = G z mu var g be i5 := by
  subst h0 h1 h2 h3 h4; rfl

/-- The index maps over the ten bands: the band of `z` moves with the result's band, the one-row arrays stay. -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Entry (p, q) of band `t` of `z` sits where entry (p, q) of band `t` of the result sits: row t · 5000 + p, column q. -/
theorem emb0 (t : Fin cfg3.N) (p : Fin 5000) (q : Fin 128) :
    ((cfg3.win 0).blk t).view.emb (ix2 p q) = ((cfg3.win 5).blk t).view.emb (ix2 p q) := by
  obtain ⟨e0, e1, e2, e3, e4, e5, e6, e7, e8, e9, e10, e11⟩ := idx_facts t
  funext a; apply Fin.ext
  match a with
  | ⟨0, _⟩ => show win3_0.index t (0 : Fin 2) * 5000 + 1 * p.val = win3_5.index t (0 : Fin 2) * 5000 + 1 * p.val; omega
  | ⟨1, _⟩ => show win3_0.index t (1 : Fin 2) * 128 + 1 * q.val = win3_5.index t (1 : Fin 2) * 128 + 1 * q.val; omega

/-- Column q of the mean's row is the column of the result's entry (p, q) of any band. -/
theorem emb1 (t : Fin cfg3.N) (p : Fin 5000) (q : Fin 128) :
    ((cfg3.win 1).blk t).view.emb (ix2 ⟨0, Nat.one_pos⟩ q)
      = ix2 ⟨0, Nat.one_pos⟩ ((((cfg3.win 5).blk t).view.emb (ix2 p q)) 1) := by
  obtain ⟨e0, e1, e2, e3, e4, e5, e6, e7, e8, e9, e10, e11⟩ := idx_facts t
  funext a; apply Fin.ext
  match a with
  | ⟨0, _⟩ => show win3_1.index t (0 : Fin 2) * 1 + 1 * 0 = 0; omega
  | ⟨1, _⟩ => show win3_1.index t (1 : Fin 2) * 128 + 1 * q.val = win3_5.index t (1 : Fin 2) * 128 + 1 * q.val; omega

/-- The same for the variance's row. -/
theorem emb2 (t : Fin cfg3.N) (p : Fin 5000) (q : Fin 128) :
    ((cfg3.win 2).blk t).view.emb (ix2 ⟨0, Nat.one_pos⟩ q)
      = ix2 ⟨0, Nat.one_pos⟩ ((((cfg3.win 5).blk t).view.emb (ix2 p q)) 1) := by
  obtain ⟨e0, e1, e2, e3, e4, e5, e6, e7, e8, e9, e10, e11⟩ := idx_facts t
  funext a; apply Fin.ext
  match a with
  | ⟨0, _⟩ => show win3_2.index t (0 : Fin 2) * 1 + 1 * 0 = 0; omega
  | ⟨1, _⟩ => show win3_2.index t (1 : Fin 2) * 128 + 1 * q.val = win3_5.index t (1 : Fin 2) * 128 + 1 * q.val; omega

/-- The same for the scale's row. -/
theorem emb3 (t : Fin cfg3.N) (p : Fin 5000) (q : Fin 128) :
    ((cfg3.win 3).blk t).view.emb (ix2 ⟨0, Nat.one_pos⟩ q)
      = ix2 ⟨0, Nat.one_pos⟩ ((((cfg3.win 5).blk t).view.emb (ix2 p q)) 1) := by
  obtain ⟨e0, e1, e2, e3, e4, e5, e6, e7, e8, e9, e10, e11⟩ := idx_facts t
  funext a; apply Fin.ext
  match a with
  | ⟨0, _⟩ => show win3_3.index t (0 : Fin 2) * 1 + 1 * 0 = 0; omega
  | ⟨1, _⟩ => show win3_3.index t (1 : Fin 2) * 128 + 1 * q.val = win3_5.index t (1 : Fin 2) * 128 + 1 * q.val; omega

/-- The same for the shift's row. -/
theorem emb4 (t : Fin cfg3.N) (p : Fin 5000) (q : Fin 128) :
    ((cfg3.win 4).blk t).view.emb (ix2 ⟨0, Nat.one_pos⟩ q)
      = ix2 ⟨0, Nat.one_pos⟩ ((((cfg3.win 5).blk t).view.emb (ix2 p q)) 1) := by
  obtain ⟨e0, e1, e2, e3, e4, e5, e6, e7, e8, e9, e10, e11⟩ := idx_facts t
  funext a; apply Fin.ext
  match a with
  | ⟨0, _⟩ => show win3_4.index t (0 : Fin 2) * 1 + 1 * 0 = 0; omega
  | ⟨1, _⟩ => show win3_4.index t (1 : Fin 2) * 128 + 1 * q.val = win3_5.index t (1 : Fin 2) * 128 + 1 * q.val; omega

/-- What band `t` writes back is band `t` of `G` of the arrays as the launch finds them. -/
theorem flushed_eq (c : Dev nD) (t : Fin cfg3.N) :
    (dat3 V c).flushed 5 t = ((cfg3.win 5).blk t).view.read (Elt Ideal)
      (G (V c main_v62_0) (V c main_v64) (V c main_v68) (V c main_v69) (V c main_v70)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_apply _ _ _ _ _ p q).trans ?_
  exact G_congr (V c main_v62_0) (V c main_v64) (V c main_v68) (V c main_v69) (V c main_v70)
    (((cfg3.win 0).blk t).view.emb (ix2 p q)) (((cfg3.win 5).blk t).view.emb (ix2 p q))
    (((cfg3.win 1).blk t).view.emb (ix2 ⟨0, Nat.one_pos⟩ q)) (((cfg3.win 2).blk t).view.emb (ix2 ⟨0, Nat.one_pos⟩ q))
    (((cfg3.win 3).blk t).view.emb (ix2 ⟨0, Nat.one_pos⟩ q)) (((cfg3.win 4).blk t).view.emb (ix2 ⟨0, Nat.one_pos⟩ q))
    (emb0 t p q) (emb1 t p q) (emb2 t p q) (emb3 t p q) (emb4 t p q)

/-- An index of the result is in band `t` iff each coordinate is in the band's range on its axis. -/
theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v71).slice (win3_5.rect t)).set ↔ _
  rw [View.set_slice_whole, Rect.mem_set_unit]
  exact Iff.rfl

/-- The ten bands tile the 50000 rows: row r is in band r / 5000, which is written back. -/
theorem cover (i : S50000x128.Idx) :
    ∃ t : Fin cfg3.N, (cfg3.win 5).flush t = true ∧ i ∈ ((cfg3.win 5).blk t).view.set := by
  have hN : cfg3.N = 10 := N_3
  have hi0 : (i 0).val < 50000 := (i 0).isLt
  have hi1 : (i 1).val < 128 := (i 1).isLt
  have ht : (i 0).val / 5000 < cfg3.N := by omega
  obtain ⟨e0, e1, e2, e3, -⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e2]; show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e3]; omega

/-- The result array after the launch: the normalisation formula of the five arrays the launch finds, index by index. -/
theorem final (c : Dev nD) : (dat3 V c).arrAt 5 cfg3.N
    = G (V c main_v62_0) (V c main_v64) (V c main_v68) (V c main_v69) (V c main_v70) :=
  (dat3 V c).arrAt_eq_of_cover 5 _ (fun t _ => flushed_eq V c t) (fun i => cover i)

end Cert.KernelIdeal.Bn3

end
-- ==== Proof.KLayer2.lean ====
/-
  Layer 2 of the kernel's program, end to end: the band launches' arrays and the host lines between them.

  The first launch leaves z (two rectified dense layers of h + agg, band by band) and the column sums of z and of z².
  The host divides both by the node count, subtracts the squared mean (the one-pass variance) and lays the scale and
  shift vectors out as rows; the second launch normalises z with them.  So the layer's output array is
  `layerOnePass` of the layer's input and weights.
-/
import proofs.«104403_j38585986187615_1_alg».proof.Proof.KHost2
import proofs.«104403_j38585986187615_1_alg».proof.Proof.KMlp2
import proofs.«104403_j38585986187615_1_alg».proof.Proof.KBn3
import proofs.«104403_j38585986187615_1_alg».proof.Proof.Spec
import proofs.«104403_j38585986187615_1_alg».proof.Proof.RefAgg
import proofs.«104403_j38585986187615_1_alg».proof.Proof.LibBiasRows
import Idealize.ShloMosaic.Lib.StableHlo.Run
import Idealize.ShloMosaic.Lib.Pipeline.Value

set_option maxRecDepth 16384

noncomputable section

namespace Cert.KernelIdeal.Layer2

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- Row 0 of a one-row array, as a function of the column. -/
abbrev row (x : S1x128.Idx → EReal) : Fin 128 → EReal := fun j => x (ix2 ⟨0, Nat.one_pos⟩ j)

/-- A [128] vector laid out as a [1,128] row reads, at column j of row 0, the vector's entry j. -/
theorem row_shapeCast (b : S128.Idx → EReal) : row (shapeCast S1x128 b shapeCasts_S128_S1x128) = fun j => b (ix1 j) :=
  funext fun j => Cert.LibBiasRows.row_of_vector b shapeCasts_S128_S1x128 j

/-- A scalar word broadcast to a row reads that word's value everywhere. -/
theorem row_const (w : BitVec 32) : row (broadcastInDim S1x128 ![] bcast_S_S1x128 (constant (F := Ideal) S_ .f32 w)) = fun _ => Ideal.ofBits .f32 w :=
  funext fun j => broadcastInDim_apply _ bcast_S_S1x128 (constant (F := Ideal) S_ .f32 w) _ (fun a => a.elim0) (fun a => a.elim0)

/-- The first launch's result z, over the buffer contents at its entry. -/
abbrev Z (c : Dev nD) : S50000x128.Idx → EReal := Cert.KernelIdeal.Mlp2.Z (V5 m ρ) c

theorem exit_z (c : Dev nD) : W6 m ρ c (Proc.devRef .tc main_v62_0) = Z m ρ c :=
  (W6_arr m ρ c 6).trans (Cert.KernelIdeal.Mlp2.final6 (V5 m ρ) c)
theorem exit_s (c : Dev nD) : W6 m ρ c (Proc.devRef .tc main_v62_1) = fun i => Cert.Gin.colSum (Z m ρ c) (i 1) :=
  (W6_arr m ρ c 7).trans (Cert.KernelIdeal.Mlp2.final7 (V5 m ρ) c)
theorem exit_ss (c : Dev nD) : W6 m ρ c (Proc.devRef .tc main_v62_2) = fun i => Cert.Gin.colSum (fun i' => Z m ρ c i' * Z m ρ c i') (i 1) :=
  (W6_arr m ρ c 8).trans (Cert.KernelIdeal.Mlp2.final8 (V5 m ρ) c)

/-! The host lines between the two launches. -/

theorem mid_z (c : Dev nD) : W7 m ρ c (Proc.devRef .tc main_v62_0) = Z m ρ c := by
  show StableHlo.after hostOps3 (W6 m ρ c) (Proc.devRef .tc main_v62_0) = _
  after_results
  exact exit_z m ρ c

theorem mid_mu (c : Dev nD) : row (W7 m ρ c (Proc.devRef .tc main_v64)) = Cert.Gin.mean (Z m ρ c) := by
  have e : W7 m ρ c (Proc.devRef .tc main_v64) = Host.divf (F := Ideal) (W6 m ρ c (Proc.devRef .tc main_v62_1)) (broadcastInDim S1x128 ![] bcast_S_S1x128 (constant (F := Ideal) S_ .f32 0x47435000#32)) := by
    show StableHlo.after hostOps3 (W6 m ρ c) (Proc.devRef .tc main_v64) = _
    after_results <;> rfl
  rw [e, exit_s]
  funext j
  show Ideal.div _ (row (broadcastInDim S1x128 ![] bcast_S_S1x128 (constant (F := Ideal) S_ .f32 0x47435000#32)) j) = _
  rw [row_const]
  rfl

theorem mid_var (c : Dev nD) : row (W7 m ρ c (Proc.devRef .tc main_v68)) = Cert.Gin.varOnePass (Z m ρ c) := by
  have e : W7 m ρ c (Proc.devRef .tc main_v68) = subf (F := Ideal) (Host.divf (F := Ideal) (W6 m ρ c (Proc.devRef .tc main_v62_2)) (broadcastInDim S1x128 ![] bcast_S_S1x128 (constant (F := Ideal) S_ .f32 0x47435000#32)))
      (mulf (Host.divf (F := Ideal) (W6 m ρ c (Proc.devRef .tc main_v62_1)) (broadcastInDim S1x128 ![] bcast_S_S1x128 (constant (F := Ideal) S_ .f32 0x47435000#32)))
        (Host.divf (F := Ideal) (W6 m ρ c (Proc.devRef .tc main_v62_1)) (broadcastInDim S1x128 ![] bcast_S_S1x128 (constant (F := Ideal) S_ .f32 0x47435000#32)))) := by
    show StableHlo.after hostOps3 (W6 m ρ c) (Proc.devRef .tc main_v68) = _
    after_results <;> rfl
  rw [e, exit_s, exit_ss]
  funext j
  show Ideal.div _ (row (broadcastInDim S1x128 ![] bcast_S_S1x128 (constant (F := Ideal) S_ .f32 0x47435000#32)) j)
    - Ideal.div _ (row (broadcastInDim S1x128 ![] bcast_S_S1x128 (constant (F := Ideal) S_ .f32 0x47435000#32)) j)
      * Ideal.div _ (row (broadcastInDim S1x128 ![] bcast_S_S1x128 (constant (F := Ideal) S_ .f32 0x47435000#32)) j) = _
  rw [row_const]
  rfl

theorem mid_g (c : Dev nD) : row (W7 m ρ c (Proc.devRef .tc main_v69)) = fun j => Cert.ReferenceIdeal.ReadP.val_main_v71 (F := Ideal) (m ((c : Thread nD τ).loc main_arg7)) (ix1 j) := by
  have e : W7 m ρ c (Proc.devRef .tc main_v69) = shapeCast S1x128 (W6 m ρ c (Proc.devRef .tc main_v47)) shapeCasts_S128_S1x128 := by
    show StableHlo.after hostOps3 (W6 m ρ c) (Proc.devRef .tc main_v69) = _
    after_results <;> rfl
  rw [e, W6_of_ne m ρ c main_v47 (by decide), Cert.KernelIdeal.Host2.s_g m ρ c, row_shapeCast]

theorem mid_be (c : Dev nD) : row (W7 m ρ c (Proc.devRef .tc main_v70)) = fun j => Cert.ReferenceIdeal.ReadP.val_main_v73 (F := Ideal) (m ((c : Thread nD τ).loc main_arg8)) (ix1 j) := by
  have e : W7 m ρ c (Proc.devRef .tc main_v70) = shapeCast S1x128 (W6 m ρ c (Proc.devRef .tc main_v49)) shapeCasts_S128_S1x128 := by
    show StableHlo.after hostOps3 (W6 m ρ c) (Proc.devRef .tc main_v70) = _
    after_results <;> rfl
  rw [e, W6_of_ne m ρ c main_v49 (by decide), Cert.KernelIdeal.Host2.s_be m ρ c, row_shapeCast]

/-- The layer's input: what the buffer of the node features holds when the layer begins. -/
abbrev hin (c : Dev nD) : S50000x128.Idx → EReal := W4 m ρ c (Proc.devRef .tc main_v37)

/-- The first launch's z in the reference's stage functions of the arguments. -/
theorem Z_eq (c : Dev nD) : Z m ρ c = Cert.Gin.mlp (hin m ρ c)
      (Cert.Gin.agg (hin m ρ c) (Cert.ReferenceIdeal.ReadP.val_main_v79 (F := Ideal) (m ((c : Thread nD τ).loc main_arg1))) (Cert.ReferenceIdeal.ReadP.val_main_v82 (F := Ideal) (m ((c : Thread nD τ).loc main_arg1))))
      (Cert.ReferenceIdeal.ReadP.val_main_v63 (F := Ideal) (m ((c : Thread nD τ).loc main_arg3))) (fun j => Cert.ReferenceIdeal.ReadP.val_main_v65 (F := Ideal) (m ((c : Thread nD τ).loc main_arg4)) (ix1 j))
      (Cert.ReferenceIdeal.ReadP.val_main_v67 (F := Ideal) (m ((c : Thread nD τ).loc main_arg5))) (fun j => Cert.ReferenceIdeal.ReadP.val_main_v69 (F := Ideal) (m ((c : Thread nD τ).loc main_arg6)) (ix1 j)) := by
  show Cert.Gin.mlp (W5 m ρ c (Proc.devRef .tc main_v37)) (W5 m ρ c (Proc.devRef .tc main_v59))
    (W5 m ρ c (Proc.devRef .tc main_v39)) (row (W5 m ρ c (Proc.devRef .tc main_v60)))
    (W5 m ρ c (Proc.devRef .tc main_v43)) (row (W5 m ρ c (Proc.devRef .tc main_v61))) = _
  rw [Cert.KernelIdeal.Host2.s_h m ρ c, Cert.KernelIdeal.Host2.s_agg m ρ c, Cert.KernelIdeal.Host2.s_W1 m ρ c, Cert.KernelIdeal.Host2.s_b1 m ρ c, Cert.KernelIdeal.Host2.s_W2 m ρ c, Cert.KernelIdeal.Host2.s_b2 m ρ c,
    row_shapeCast, row_shapeCast, Cert.RefLayers.agg2]

/-- The layer's output array: the one-pass layer of its input and this layer's weights. -/
theorem out_eq (c : Dev nD) : W8 m ρ c (Proc.devRef .tc main_v71) = Cert.Gin.layerOnePass (hin m ρ c)
      (Cert.Gin.agg (hin m ρ c) (Cert.ReferenceIdeal.ReadP.val_main_v79 (F := Ideal) (m ((c : Thread nD τ).loc main_arg1))) (Cert.ReferenceIdeal.ReadP.val_main_v82 (F := Ideal) (m ((c : Thread nD τ).loc main_arg1))))
      (Cert.ReferenceIdeal.ReadP.val_main_v63 (F := Ideal) (m ((c : Thread nD τ).loc main_arg3))) (fun j => Cert.ReferenceIdeal.ReadP.val_main_v65 (F := Ideal) (m ((c : Thread nD τ).loc main_arg4)) (ix1 j))
      (Cert.ReferenceIdeal.ReadP.val_main_v67 (F := Ideal) (m ((c : Thread nD τ).loc main_arg5))) (fun j => Cert.ReferenceIdeal.ReadP.val_main_v69 (F := Ideal) (m ((c : Thread nD τ).loc main_arg6)) (ix1 j))
      (fun j => Cert.ReferenceIdeal.ReadP.val_main_v71 (F := Ideal) (m ((c : Thread nD τ).loc main_arg7)) (ix1 j)) (fun j => Cert.ReferenceIdeal.ReadP.val_main_v73 (F := Ideal) (m ((c : Thread nD τ).loc main_arg8)) (ix1 j)) := by
  refine ((W8_arr m ρ c 5).trans (Cert.KernelIdeal.Bn3.final (V7 m ρ) c)).trans ?_
  show Cert.Gin.bn (W7 m ρ c (Proc.devRef .tc main_v62_0)) (row (W7 m ρ c (Proc.devRef .tc main_v64)))
    (row (W7 m ρ c (Proc.devRef .tc main_v68))) (row (W7 m ρ c (Proc.devRef .tc main_v69)))
    (row (W7 m ρ c (Proc.devRef .tc main_v70))) = _
  rw [mid_z, mid_mu, mid_var, mid_g, mid_be, Z_eq]
  rfl

end Cert.KernelIdeal.Layer2

end
-- ==== Proof.KHost3.lean ====
/-
  The host operations before layer 3's launches, read as the reference's own stage functions.

  As before the first layer: the slices of the weight arrays for this layer, the wrap of negative source indices, the
  gather of source rows of the previous layer's output and the scatter-add into destination rows are the same host
  lines in both programs, applied here to whatever the previous layer left.
-/
import proofs.«104403_j38585986187615_1_alg».proof.Proof.Gen.KernelIdeal.Frame
import proofs.«104403_j38585986187615_1_alg».proof.Proof.RefReadP
import proofs.«104403_j38585986187615_1_alg».proof.Proof.KKeep
import Idealize.ShloMosaic.Lib.StableHlo.Run
import Idealize.ShloMosaic.Lib.Pipeline.Value

set_option maxRecDepth 16384

noncomputable section

namespace Cert.KernelIdeal.Host3

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

theorem s_h (c : Dev nD) : W9 m ρ c (Proc.devRef .tc main_v71) = W8 m ρ c (Proc.devRef .tc main_v71) := by
  show StableHlo.after hostOps4 (W8 m ρ c) (Proc.devRef .tc main_v71) = _
  after_results_simp

theorem s_agg (c : Dev nD) : W9 m ρ c (Proc.devRef .tc main_v93) =
    Host.scatterAdd (F := Ideal) (φ := .f32) Cert.ReferenceIdeal.scatter_S50000x128_S800000x1_S800000x128_1_0_0_1
      (Cert.ReferenceIdeal.ReadP.val_main_v139 (F := Ideal)) (Cert.ReferenceIdeal.ReadP.val_main_v140 (F := Ideal) (m ((c : Thread nD τ).loc main_arg1)))
      (Host.gather Cert.ReferenceIdeal.gather_S50000x128_S800000x1_S800000x128_1_0_n_n_0_1_1128
        (W8 m ρ c (Proc.devRef .tc main_v71)) (Cert.ReferenceIdeal.ReadP.val_main_v137 (F := Ideal) (m ((c : Thread nD τ).loc main_arg1)))) := by
  show StableHlo.after hostOps4 (W8 m ρ c) (Proc.devRef .tc main_v93) = _
  after_results_simp
  rw [Cert.KernelIdeal.Keep.w8_v1 m ρ c, Cert.KernelIdeal.Keep.w8_v3 m ρ c]
  rfl

theorem s_W1 (c : Dev nD) : W9 m ρ c (Proc.devRef .tc main_v73) = Cert.ReferenceIdeal.ReadP.val_main_v121 (F := Ideal) (m ((c : Thread nD τ).loc main_arg3)) := by
  show StableHlo.after hostOps4 (W8 m ρ c) (Proc.devRef .tc main_v73) = _
  after_results_simp
  rw [Cert.KernelIdeal.Keep.w8_arg3 m ρ c]
  rfl

theorem s_W2 (c : Dev nD) : W9 m ρ c (Proc.devRef .tc main_v77) = Cert.ReferenceIdeal.ReadP.val_main_v125 (F := Ideal) (m ((c : Thread nD τ).loc main_arg5)) := by
  show StableHlo.after hostOps4 (W8 m ρ c) (Proc.devRef .tc main_v77) = _
  after_results_simp
  rw [Cert.KernelIdeal.Keep.w8_arg5 m ρ c]
  rfl

theorem s_b1 (c : Dev nD) : W9 m ρ c (Proc.devRef .tc main_v94) = shapeCast S1x128 (Cert.ReferenceIdeal.ReadP.val_main_v123 (F := Ideal) (m ((c : Thread nD τ).loc main_arg4))) shapeCasts_S128_S1x128 := by
  show StableHlo.after hostOps4 (W8 m ρ c) (Proc.devRef .tc main_v94) = _
  after_results_simp
  rw [Cert.KernelIdeal.Keep.w8_arg4 m ρ c]
  rfl

theorem s_b2 (c : Dev nD) : W9 m ρ c (Proc.devRef .tc main_v95) = shapeCast S1x128 (Cert.ReferenceIdeal.ReadP.val_main_v127 (F := Ideal) (m ((c : Thread nD τ).loc main_arg6))) shapeCasts_S128_S1x128 := by
  show StableHlo.after hostOps4 (W8 m ρ c) (Proc.devRef .tc main_v95) = _
  after_results_simp
  rw [Cert.KernelIdeal.Keep.w8_arg6 m ρ c]
  rfl

theorem s_g (c : Dev nD) : W9 m ρ c (Proc.devRef .tc main_v81) = Cert.ReferenceIdeal.ReadP.val_main_v129 (F := Ideal) (m ((c : Thread nD τ).loc main_arg7)) := by
  show StableHlo.after hostOps4 (W8 m ρ c) (Proc.devRef .tc main_v81) = _
  after_results_simp
  rw [Cert.KernelIdeal.Keep.w8_arg7 m ρ c]
  rfl

theorem s_be (c : Dev nD) : W9 m ρ c (Proc.devRef .tc main_v83) = Cert.ReferenceIdeal.ReadP.val_main_v131 (F := Ideal) (m ((c : Thread nD τ).loc main_arg8)) := by
  show StableHlo.after hostOps4 (W8 m ρ c) (Proc.devRef .tc main_v83) = _
  after_results_simp
  rw [Cert.KernelIdeal.Keep.w8_arg8 m ρ c]
  rfl

end Cert.KernelIdeal.Host3

end
-- ==== Proof.KMlp4a.lean ====
/-
  The dense part of one layer's first kernel on a band of rows, index by index on the extended reals.

  A band holds `n` rows of the node features `h` and of the neighbour sums `a`.  The body forms `h + a`, multiplies by
  `W₁`, adds the bias row `b₁`, rectifies, multiplies by `W₂`, adds `b₂` and rectifies again; the conversions to the
  narrower float format before each product are the identity on the extended reals and the zero word reads 0.  Entry
  (p, q) of the result depends on row p of the band only, so the band of the result is the same formula of the whole
  arrays read at the band's rows.  The body also forms the column sums of the result and of its squares over the band.
-/
import proofs.«104403_j38585986187615_1_alg».proof.Proof.Gen.KernelIdeal.Skeleton
import proofs.«104403_j38585986187615_1_alg».proof.Proof.Spec
import proofs.«104403_j38585986187615_1_alg».proof.Proof.LibDense
import proofs.«104403_j38585986187615_1_alg».proof.Proof.LibBiasRows
import proofs.«104403_j38585986187615_1_alg».proof.Proof.LibAxisSum
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Mlp4

open Cert.KernelIdeal Cert.KernelIdeal.Gen

/-- Row 0 of a one-row array, as a function of the column. -/
abbrev row (x : S1x128.Idx → EReal) : Fin 128 → EReal := fun j => x (ix2 ⟨0, Nat.one_pos⟩ j)

/-- Two rectified dense layers applied to `h + a` on `n` rows. -/
def dense {n : ℕ} (h a : (⟨2, ![n, 128]⟩ : Shape).Idx → EReal) (W1 : S128x128.Idx → EReal) (b1 : Fin 128 → EReal)
    (W2 : S128x128.Idx → EReal) (b2 : Fin 128 → EReal) : (⟨2, ![n, 128]⟩ : Shape).Idx → EReal :=
  fun i => max (Cert.LibDense.prod (n := n) (K := 128) (d := 128)
      (fun i' => max (Cert.LibDense.prod (n := n) (K := 128) (d := 128) (fun i'' => h i'' + a i'') W1 i' + b1 (i' 1)) 0)
      W2 i + b2 (i 1)) 0

/-- On the 50000 rows it is the layer's dense part. -/
theorem dense_eq_mlp (h a : S50000x128.Idx → EReal) (W1 : S128x128.Idx → EReal) (b1 : Fin 128 → EReal)
    (W2 : S128x128.Idx → EReal) (b2 : Fin 128 → EReal) :
    dense (n := 50000) h a W1 b1 W2 b2 = Cert.Gin.mlp h a W1 b1 W2 b2 := rfl

/-- An entry reads one row of each row operand: two sets of row operands that agree on that row give the same entry. -/
theorem dense_congr {n n' : ℕ} (h a : (⟨2, ![n, 128]⟩ : Shape).Idx → EReal) (h' a' : (⟨2, ![n', 128]⟩ : Shape).Idx → EReal)
    (W1 : S128x128.Idx → EReal) (b1 : Fin 128 → EReal) (W2 : S128x128.Idx → EReal) (b2 : Fin 128 → EReal)
    (p : Fin n) (p' : Fin n') (q : Fin 128)
    (hh : ∀ k : Fin 128, h (ix2 p k) = h' (ix2 p' k)) (ha : ∀ k : Fin 128, a (ix2 p k) = a' (ix2 p' k)) :
    dense h a W1 b1 W2 b2 (ix2 p q) = dense h' a' W1 b1 W2 b2 (ix2 p' q) := by
  unfold dense Cert.LibDense.prod
  refine congrArg (fun x => max (x + b2 q) 0) ?_
  refine Finset.sum_congr rfl fun k _ => congrArg (fun x => max (x + b1 k) 0 * W2 (ix2 k q)) ?_
  refine Finset.sum_congr rfl fun k' _ => ?_
  show (h (ix2 p k') + a (ix2 p k')) * _ = (h' (ix2 p' k') + a' (ix2 p' k')) * _
  rw [hh k', ha k']
  rfl

/-- The body's rectified output at an entry of the band. -/
theorem pay5_apply (v3 v4 : Vec Ideal S5000x128 .f32) (v8 : Vec Ideal S128x128 .f32) (v12 : Vec Ideal S1x128 .f32)
    (v19 : Vec Ideal S128x128 .f32) (v23 : Vec Ideal S1x128 .f32) (i : S5000x128.Idx) :
    k4_pay5 (F := Ideal) v3 v4 v8 v12 v19 v23 i = dense (n := 5000) v3 v4 v8 (row v12) v19 (row v23) i := by
  unfold k4_pay5
  simp only [shapeCast_self]
  show max (FloatOps.matmul (DotDims.plain 5000 128 128) none _ _ (constant (F := Ideal) ⟨2, ![5000, 128]⟩ .f32 0x00000000#32) i
      + broadcastTo S5000x128 v23 broadcasts_S1x128_S5000x128 i) (Ideal.ofBits .f32 0x00000000#32) = _
  rw [Cert.LibDense.matmul_plain, Cert.LibBiasRows.row_broadcast, Ideal.ofBits_zero_f32]
  unfold dense
  refine congrArg (fun x => max (x + v23 (ix2 ⟨0, Nat.one_pos⟩ (i 1))) 0) ?_
  unfold Cert.LibDense.prod
  refine Finset.sum_congr rfl fun k _ => congrArg (· * v19 (ix2 k (i 1))) ?_
  show max (FloatOps.matmul (DotDims.plain 5000 128 128) none _ _ (constant (F := Ideal) ⟨2, ![5000, 128]⟩ .f32 0x00000000#32) (ix2 (i 0) k)
      + broadcastTo S5000x128 v12 broadcasts_S1x128_S5000x128 (ix2 (i 0) k)) (Ideal.ofBits .f32 0x00000000#32) = _
  rw [Cert.LibDense.matmul_plain, Cert.LibBiasRows.row_broadcast, Ideal.ofBits_zero_f32]
  rfl

/-- The body's column sums of its output over the band, at a column. -/
theorem pay7_apply (v3 v4 : Vec Ideal S5000x128 .f32) (v8 : Vec Ideal S128x128 .f32) (v12 : Vec Ideal S1x128 .f32)
    (v19 : Vec Ideal S128x128 .f32) (v23 : Vec Ideal S1x128 .f32) (q : Fin 128) :
    k4_pay7 (F := Ideal) v3 v4 v8 v12 v19 v23 (ix1 q)
      = ∑ p : Fin 5000, k4_pay5 (F := Ideal) v3 v4 v8 v12 v19 v23 (ix2 p q) := by
  unfold k4_pay7
  exact Cert.LibAxisSum.sum_first (n := 5000) (d := 128) (φ := .f32) (k4_pay5 (F := Ideal) v3 v4 v8 v12 v19 v23)
    0x00000000#32 reduces_S5000x128_S128 (.inl rfl) rfl q

/-- The first accumulator's new contents: the old contents plus the band's column sums. -/
theorem pay1_apply (acc : Vec Ideal S1x128 .f32) (s : FVec Ideal S128 .f32) (q : Fin 128) :
    k4_pay1 (F := Ideal) acc s (ix2 ⟨0, Nat.one_pos⟩ q) = acc (ix2 ⟨0, Nat.one_pos⟩ q) + s (ix1 q) := by
  unfold k4_pay1
  show acc _ + shapeCast S1x128 s shapeCasts_S128_S1x128 (ix2 ⟨0, Nat.one_pos⟩ q) = _
  rw [Cert.LibBiasRows.row_of_vector]

/-- The old contents pass through a cast to their own shape. -/
theorem pay6_eq (acc : Vec Ideal S1x128 .f32) : k4_pay6 (F := Ideal) acc = acc := by
  unfold k4_pay6
  exact shapeCast_self _ _

/-- The second accumulator's new contents: the old contents plus the band's column sums of squares. -/
theorem pay2_apply (z : Vec Ideal S5000x128 .f32) (acc : Vec Ideal S1x128 .f32) (q : Fin 128) :
    k4_pay2 (F := Ideal) z acc (ix2 ⟨0, Nat.one_pos⟩ q)
      = acc (ix2 ⟨0, Nat.one_pos⟩ q) + ∑ p : Fin 5000, z (ix2 p q) * z (ix2 p q) := by
  unfold k4_pay2
  simp only [shapeCast_self]
  show acc _ + shapeCast S1x128 _ shapeCasts_S128_S1x128 (ix2 ⟨0, Nat.one_pos⟩ q) = _
  rw [Cert.LibBiasRows.row_of_vector]
  exact congrArg (acc (ix2 ⟨0, Nat.one_pos⟩ q) + ·) (Cert.LibAxisSum.sum_first (n := 5000) (d := 128) (φ := .f32)
    (mulf z z) 0x00000000#32 reduces_S5000x128_S128 (.inl rfl) rfl q)

/-- The zero row the first band stores. -/
theorem pay3_apply (j : S1x128.Idx) : k4_pay3 (F := Ideal) j = 0 := Ideal.ofBits_zero_f32
theorem pay4_apply (j : S1x128.Idx) : k4_pay4 (F := Ideal) j = 0 := Ideal.ofBits_zero_f32

end Cert.KernelIdeal.Mlp4

end
-- ==== Proof.KMlp4b.lean ====
/-
  The first kernel of one layer, point by point: what its three staging buffers hold after each of the ten bands.

  At every band the body stores the band's rectified output `z`.  At band 0 it first stores zero rows in the two
  accumulators and reads them back, so it leaves `0 + s₀` and `0 + s₀'` there (`sₜ` the column sums of band `t`'s
  `z`, `sₜ'` those of its squares); at a later band it leaves what the band before left plus `sₜ`, `sₜ'`.  By
  induction on the band the accumulators hold, after band `n`, the sums of `s₀ … sₙ` and of `s₀' … sₙ'`.  A band's
  `z` is the layer's dense part of the whole arrays read at the band's rows.
-/
import proofs.«104403_j38585986187615_1_alg».proof.Proof.Gen.KernelIdeal.Frame
import proofs.«104403_j38585986187615_1_alg».proof.Proof.KMlp4a
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Mlp4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## What one run of the body leaves, in each of its two cases -/

/-- A later band: the output buffer holds the band's rectified output. -/
theorem out_B_6 (c : Dev nD) (i : grid4.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond4_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out4_B_6 (F := Ideal) c i a1 h1 a2 h2 a3 h3 a4 h4 a5 h5 a6 h6 a7 h7 a8 h8 a9 h9 hc x0 x1 x2 x3 x4 x5 xo7 xo8 = k4_pay5 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- A later band: the first accumulator holds its old contents plus the band's column sums. -/
theorem out_B_7 (c : Dev nD) (i : grid4.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond4_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out4_B_7 (F := Ideal) c i a1 h1 a2 h2 a3 h3 a4 h4 a5 h5 a6 h6 a7 h7 a8 h8 a9 h9 hc x0 x1 x2 x3 x4 x5 xo7 xo8 = k4_pay1 (k4_pay6 xo7) (k4_pay7 x0 x1 x2 x3 x4 x5) := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- A later band: the second accumulator holds its old contents plus the band's column sums of squares. -/
theorem out_B_8 (c : Dev nD) (i : grid4.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : ¬cond4_0 i)
    (x0 x1 : Vec Ideal S5000x128 .f32) (x2 : Vec Ideal S128x128 .f32) (x3 : Vec Ideal S1x128 .f32)
    (x4 : Vec Ideal S128x128 .f32) (x5 : Vec Ideal S1x128 .f32) (xo7 xo8 : Vec Ideal S1x128 .f32) :
    out4_B_8 (F := Ideal) c i a1 h1 a2 h2 a3 h3 a4 h4 a5 h5 a6 h6 a7 h7 a8 h8 a9 h9 hc x0 x1 x2 x3 x4 x5 xo7 xo8 = k4_pay2 (k4_pay5 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the output buffer holds the band's rectified output. -/
theorem out_A_6 (c : Dev nD) (i : grid4.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond4_0 i)
    (x0 x1 : Vec Ideal S5000x128 .f32) (x2 : Vec Ideal S128x128 .f32) (x3 : Vec Ideal S1x128 .f32)
    (x4 : Vec Ideal S128x128 .f32) (x5 : Vec Ideal S1x128 .f32) :
    out4_A_6 (F := Ideal) c i a1 h1 a2 h2 a3 h3 a4 h4 a5 h5 a6 h6 a7 h7 a8 h8 a9 h9 hc x0 x1 x2 x3 x4 x5 = k4_pay5 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the first accumulator holds the stored zero row, read back, plus the band's column sums. -/
theorem out_A_7 (c : Dev nD) (i : grid4.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond4_0 i)
    (x0 x1 : Vec Ideal S5000x128 .f32) (x2 : Vec Ideal S128x128 .f32) (x3 : Vec Ideal S1x128 .f32)
    (x4 : Vec Ideal S128x128 .f32) (x5 : Vec Ideal S1x128 .f32) :
    out4_A_7 (F := Ideal) c i a1 h1 a2 h2 a3 h3 a4 h4 a5 h5 a6 h6 a7 h7 a8 h8 a9 h9 hc x0 x1 x2 x3 x4 x5
      = k4_pay1 (k4_pay6 (k4_pay3 (F := Ideal))) (k4_pay7 x0 x1 x2 x3 x4 x5) := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-- Band 0: the second accumulator holds the stored zero row, read back, plus the band's column sums of squares. -/
theorem out_A_8 (c : Dev nD) (i : grid4.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole) (hc : cond4_0 i)
    (x0 x1 : Vec Ideal S5000x128 .f32) (x2 : Vec Ideal S128x128 .f32) (x3 : Vec Ideal S1x128 .f32)
    (x4 : Vec Ideal S128x128 .f32) (x5 : Vec Ideal S1x128 .f32) :
    out4_A_8 (F := Ideal) c i a1 h1 a2 h2 a3 h3 a4 h4 a5 h5 a6 h6 a7 h7 a8 h8 a9 h9 hc x0 x1 x2 x3 x4 x5
      = k4_pay2 (k4_pay5 x0 x1 x2 x3 x4 x5) (k4_pay4 (F := Ideal)) := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h8.read_unread, h9.read_unread, View.ld_unit_zero (S := S5000x128) hz,
    View.ld_unit_zero (S := S128x128) hz, View.ld_unit_zero (S := S1x128) hz]

/-! ## The blocks the body reads at a band -/

/-- The six input blocks at band `t`, at their literal vector types. -/
def B0 (c : Dev nD) (t : Fin cfg4.N) : Vec Ideal S5000x128 .f32 := iblk4 V c 0 t
def B1 (c : Dev nD) (t : Fin cfg4.N) : Vec Ideal S5000x128 .f32 := iblk4 V c 1 t
def B2 (c : Dev nD) (t : Fin cfg4.N) : Vec Ideal S128x128 .f32 := iblk4 V c 2 t
def B3 (c : Dev nD) (t : Fin cfg4.N) : Vec Ideal S1x128 .f32 := iblk4 V c 3 t
def B4 (c : Dev nD) (t : Fin cfg4.N) : Vec Ideal S128x128 .f32 := iblk4 V c 4 t
def B5 (c : Dev nD) (t : Fin cfg4.N) : Vec Ideal S1x128 .f32 := iblk4 V c 5 t

/-- The band's rectified output. -/
def zb (c : Dev nD) (t : Fin cfg4.N) : Vec Ideal S5000x128 .f32 :=
  k4_pay5 (B0 V c t) (B1 V c t) (B2 V c t) (B3 V c t) (B4 V c t) (B5 V c t)

/-! ## The three buffers after each band -/

/-- After band 0: the band's output; the zero rows, read back, plus the band's column sums. -/
theorem outs_A (c : Dev nD) (t : Fin cfg4.N) (h0 : t.val % 10 = 0) :
    outsAt4 V c t.val t.isLt = (zb V c t,
      k4_pay1 (F := Ideal) (k4_pay6 (F := Ideal) (k4_pay3 (F := Ideal)))
        (k4_pay7 (F := Ideal) (B0 V c t) (B1 V c t) (B2 V c t) (B3 V c t) (B4 V c t) (B5 V c t)),
      k4_pay2 (F := Ideal) (zb V c t) (k4_pay4 (F := Ideal))) :=
  (outsAt4_A V c t h0).trans (congrArg₂ Prod.mk
    (out_A_6 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t) (ms4_7 t) (hs4_7 t) (ms4_8 t) (hs4_8 t) ((hcond4_0 t).mpr h0)
      (iblk4 V c 0 t) (iblk4 V c 1 t) (iblk4 V c 2 t) (iblk4 V c 3 t) (iblk4 V c 4 t) (iblk4 V c 5 t))
    (congrArg₂ Prod.mk
      (out_A_7 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t) (ms4_7 t) (hs4_7 t) (ms4_8 t) (hs4_8 t) ((hcond4_0 t).mpr h0)
      (iblk4 V c 0 t) (iblk4 V c 1 t) (iblk4 V c 2 t) (iblk4 V c 3 t) (iblk4 V c 4 t) (iblk4 V c 5 t))
      (out_A_8 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t) (ms4_7 t) (hs4_7 t) (ms4_8 t) (hs4_8 t) ((hcond4_0 t).mpr h0)
      (iblk4 V c 0 t) (iblk4 V c 1 t) (iblk4 V c 2 t) (iblk4 V c 3 t) (iblk4 V c 4 t) (iblk4 V c 5 t))))

/-- After a later band: the band's output; what the band before left in the accumulators plus the band's column sums. -/
theorem outs_B (c : Dev nD) (t : Fin cfg4.N) (h0 : ¬t.val % 10 = 0) :
    outsAt4 V c t.val t.isLt = (zb V c t,
      k4_pay1 (F := Ideal) (k4_pay6 (F := Ideal) (outsAt4 V c (t.val - 1) (Nat.lt_of_le_of_lt (Nat.sub_le _ _) t.isLt)).2.1)
        (k4_pay7 (F := Ideal) (B0 V c t) (B1 V c t) (B2 V c t) (B3 V c t) (B4 V c t) (B5 V c t)),
      k4_pay2 (F := Ideal) (zb V c t) (outsAt4 V c (t.val - 1) (Nat.lt_of_le_of_lt (Nat.sub_le _ _) t.isLt)).2.2) :=
  (outsAt4_B V c t h0).trans (congrArg₂ Prod.mk
    (out_B_6 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t) (ms4_7 t) (hs4_7 t) (ms4_8 t) (hs4_8 t) (fun hq => h0 ((hcond4_0 t).mp hq))
      (iblk4 V c 0 t) (iblk4 V c 1 t) (iblk4 V c 2 t) (iblk4 V c 3 t) (iblk4 V c 4 t) (iblk4 V c 5 t)
      (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk
      (out_B_7 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t) (ms4_7 t) (hs4_7 t) (ms4_8 t) (hs4_8 t) (fun hq => h0 ((hcond4_0 t).mp hq))
      (iblk4 V c 0 t) (iblk4 V c 1 t) (iblk4 V c 2 t) (iblk4 V c 3 t) (iblk4 V c 4 t) (iblk4 V c 5 t)
        (outsAt4 V c (t.val - 1) (Nat.lt_of_le_of_lt (Nat.sub_le _ _) t.isLt)).2.1 (outsAt4 V c (t.val - 1) (Nat.lt_of_le_of_lt (Nat.sub_le _ _) t.isLt)).2.2)
      (out_B_8 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t) (ms4_7 t) (hs4_7 t) (ms4_8 t) (hs4_8 t) (fun hq => h0 ((hcond4_0 t).mp hq))
      (iblk4 V c 0 t) (iblk4 V c 1 t) (iblk4 V c 2 t) (iblk4 V c 3 t) (iblk4 V c 4 t) (iblk4 V c 5 t)
        (outsAt4 V c (t.val - 1) (Nat.lt_of_le_of_lt (Nat.sub_le _ _) t.isLt)).2.1 (outsAt4 V c (t.val - 1) (Nat.lt_of_le_of_lt (Nat.sub_le _ _) t.isLt)).2.2)))

/-- The output buffer after band `t` holds the band's rectified output. -/
theorem outs6 (c : Dev nD) (t : Fin cfg4.N) : (outsAt4 V c t.val t.isLt).1 = zb V c t := by
  by_cases h0 : t.val % 10 = 0
  · rw [outs_A V c t h0]
  · rw [outs_B V c t h0]

/-- The first accumulator after band `n` holds the sum over the bands `0 … n` of their column sums. -/
theorem acc7 (c : Dev nD) : ∀ (n : ℕ) (h : n < cfg4.N) (q : Fin 128),
    (outsAt4 V c n h).2.1 (ix2 ⟨0, Nat.one_pos⟩ q)
      = ∑ x : Fin (n + 1), ∑ p : Fin 5000, zb V c ⟨x.val, Nat.lt_of_lt_of_le x.isLt h⟩ (ix2 p q)
  | 0, h, q => by
    have e := outs_A V c ⟨0, h⟩ rfl
    dsimp only at e
    rw [e, Fin.sum_univ_one]
    show k4_pay1 (F := Ideal) (k4_pay6 (F := Ideal) (k4_pay3 (F := Ideal))) _ (ix2 ⟨0, Nat.one_pos⟩ q) = _
    rw [pay1_apply, pay6_eq, pay3_apply, zero_add, pay7_apply]
    rfl
  | n + 1, h, q => by
    have hN : cfg4.N = 10 := N_4
    have h0 : ¬(⟨n + 1, h⟩ : Fin cfg4.N).val % 10 = 0 := by dsimp only; omega
    have e := outs_B V c ⟨n + 1, h⟩ h0
    dsimp only at e
    rw [e, Fin.sum_univ_castSucc]
    show k4_pay1 (F := Ideal) (k4_pay6 (F := Ideal) (outsAt4 V c n _).2.1) _ (ix2 ⟨0, Nat.one_pos⟩ q) = _
    rw [pay1_apply, pay6_eq, pay7_apply, acc7 c n (Nat.lt_of_succ_lt h) q]
    rfl

/-- The second accumulator after band `n` holds the sum over the bands `0 … n` of their column sums of squares. -/
theorem acc8 (c : Dev nD) : ∀ (n : ℕ) (h : n < cfg4.N) (q : Fin 128),
    (outsAt4 V c n h).2.2 (ix2 ⟨0, Nat.one_pos⟩ q)
      = ∑ x : Fin (n + 1), ∑ p : Fin 5000, zb V c ⟨x.val, Nat.lt_of_lt_of_le x.isLt h⟩ (ix2 p q)
          * zb V c ⟨x.val, Nat.lt_of_lt_of_le x.isLt h⟩ (ix2 p q)
  | 0, h, q => by
    have e := outs_A V c ⟨0, h⟩ rfl
    dsimp only at e
    rw [e, Fin.sum_univ_one]
    show k4_pay2 (F := Ideal) _ (k4_pay4 (F := Ideal)) _ = _
    rw [pay2_apply, pay4_apply, zero_add]
    rfl
  | n + 1, h, q => by
    have hN : cfg4.N = 10 := N_4
    have h0 : ¬(⟨n + 1, h⟩ : Fin cfg4.N).val % 10 = 0 := by dsimp only; omega
    have e := outs_B V c ⟨n + 1, h⟩ h0
    dsimp only at e
    rw [e, Fin.sum_univ_castSucc]
    show k4_pay2 (F := Ideal) _ (outsAt4 V c n _).2.2 _ = _
    rw [pay2_apply, acc8 c n (Nat.lt_of_succ_lt h) q]
    rfl

end Cert.KernelIdeal.Mlp4

end
-- ==== Proof.KMlp4.lean ====
/-
  The first kernel of one layer: what its three result arrays hold after the launch.

  Band `t` of the ten bands reads rows `5000 t … 5000 t + 4999` of the node features and of the neighbour sums and the
  whole weight and bias arrays, and writes rows `5000 t …` of the first result; the bands tile the 50000 rows, so the
  first result is the layer's dense part `z` of the whole arrays.  The two one-row results are written once, after the
  last band, with what the accumulators hold then: the sum over the ten bands of the bands' column sums of `z` and of
  `z²`, which is the column sum over all 50000 rows — a finite sum on the extended reals regroups freely.
-/
import proofs.«104403_j38585986187615_1_alg».proof.Proof.Gen.KernelIdeal.Frame
import proofs.«104403_j38585986187615_1_alg».proof.Proof.Spec
import proofs.«104403_j38585986187615_1_alg».proof.Proof.LibSumBlocks
import proofs.«104403_j38585986187615_1_alg».proof.Proof.KMlp4a
import proofs.«104403_j38585986187615_1_alg».proof.Proof.KMlp4b
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Mlp4

open Cert.KernelIdeal Cert.KernelIdeal.Gen

variable (V : (c : Dev nD) → (b : Ref sig .tc) → Buf (Elt Ideal) ((c : Thread nD τ).loc b))

/-- The layer's dense part of the six arrays the kernel reads, as the launch finds them. -/
abbrev Z (c : Dev nD) : S50000x128.Idx → EReal :=
  Cert.Gin.mlp (V c main_v71) (V c main_v93) (V c main_v73) (row (V c main_v94)) (V c main_v77) (row (V c main_v95))

/-- The printed index maps over the ten bands: the row operands and the first result move with the band, the weight,
    bias and accumulator blocks stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Row `p` of band `t` is row `5000 t + p` of the array. -/
theorem row_lt (t : Fin cfg4.N) (p : Fin 5000) : t.val * 5000 + p.val < 50000 := by
  have hN : cfg4.N = 10 := N_4
  have h1 := t.isLt
  have h2 := p.isLt
  omega

/-! ## The input blocks, read off the arrays -/

theorem B0_apply (c : Dev nD) (t : Fin cfg4.N) (p : Fin 5000) (k : Fin 128) :
    B0 V c t (ix2 p k) = V c main_v71 (ix2 ⟨t.val * 5000 + p.val, row_lt t p⟩ k) := by
  obtain ⟨e0, e1, -⟩ := idx_facts t
  unfold B0 iblk4
  rw [View.read_apply]
  show V c main_v71 _ = V c main_v71 _
  congr 1
  funext a
  apply Fin.ext
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

theorem B1_apply (c : Dev nD) (t : Fin cfg4.N) (p : Fin 5000) (k : Fin 128) :
    B1 V c t (ix2 p k) = V c main_v93 (ix2 ⟨t.val * 5000 + p.val, row_lt t p⟩ k) := by
  obtain ⟨-, -, e0, e1, -⟩ := idx_facts t
  unfold B1 iblk4
  rw [View.read_apply]
  show V c main_v93 _ = V c main_v93 _
  congr 1
  funext a
  apply Fin.ext
  match a with
  | ⟨0, _⟩ => show win4_1.index t (0 : Fin 2) * 5000 + 1 * p.val = t.val * 5000 + p.val; rw [e0]; omega
  | ⟨1, _⟩ => show win4_1.index t (1 : Fin 2) * 128 + 1 * k.val = k.val; rw [e1]; omega

theorem B2_eq (c : Dev nD) (t : Fin cfg4.N) : B2 V c t = V c main_v73 := by
  obtain ⟨-, -, -, -, e0, e1, -⟩ := idx_facts t
  funext j
  unfold B2 iblk4
  rw [View.read_apply]
  show V c main_v73 _ = V c main_v73 j
  congr 1
  funext a
  apply Fin.ext
  match a with
  | ⟨0, _⟩ => show win4_2.index t (0 : Fin 2) * 128 + 1 * (j 0).val = (j 0).val; rw [e0]; omega
  | ⟨1, _⟩ => show win4_2.index t (1 : Fin 2) * 128 + 1 * (j 1).val = (j 1).val; rw [e1]; omega

theorem B3_eq (c : Dev nD) (t : Fin cfg4.N) : B3 V c t = V c main_v94 := by
  obtain ⟨-, -, -, -, -, -, e0, e1, -⟩ := idx_facts t
  funext j
  unfold B3 iblk4
  rw [View.read_apply]
  show V c main_v94 _ = V c main_v94 j
  congr 1
  funext a
  apply Fin.ext
  match a with
  | ⟨0, _⟩ => show win4_3.index t (0 : Fin 2) * 1 + 1 * (j 0).val = (j 0).val; rw [e0]; omega
  | ⟨1, _⟩ => show win4_3.index t (1 : Fin 2) * 128 + 1 * (j 1).val = (j 1).val; rw [e1]; omega

theorem B4_eq (c : Dev nD) (t : Fin cfg4.N) : B4 V c t = V c main_v77 := by
  obtain ⟨-, -, -, -, -, -, -, -, e0, e1, -⟩ := idx_facts t
  funext j
  unfold B4 iblk4
  rw [View.read_apply]
  show V c main_v77 _ = V c main_v77 j
  congr 1
  funext a
  apply Fin.ext
  match a with
  | ⟨0, _⟩ => show win4_4.index t (0 : Fin 2) * 128 + 1 * (j 0).val = (j 0).val; rw [e0]; omega
  | ⟨1, _⟩ => show win4_4.index t (1 : Fin 2) * 128 + 1 * (j 1).val = (j 1).val; rw [e1]; omega

theorem B5_eq (c : Dev nD) (t : Fin cfg4.N) : B5 V c t = V c main_v95 := by
  obtain ⟨-, -, -, -, -, -, -, -, -, -, e0, e1, -⟩ := idx_facts t
  funext j
  unfold B5 iblk4
  rw [View.read_apply]
  show V c main_v95 _ = V c main_v95 j
  congr 1
  funext a
  apply Fin.ext
  match a with
  | ⟨0, _⟩ => show win4_5.index t (0 : Fin 2) * 1 + 1 * (j 0).val = (j 0).val; rw [e0]; omega
  | ⟨1, _⟩ => show win4_5.index t (1 : Fin 2) * 128 + 1 * (j 1).val = (j 1).val; rw [e1]; omega

/-- Entry (p, q) of band `t`'s output is entry (5000 t + p, q) of the dense part of the whole arrays. -/
theorem zb_apply (c : Dev nD) (t : Fin cfg4.N) (p : Fin 5000) (q : Fin 128) :
    zb V c t (ix2 p q) = Z V c (ix2 ⟨t.val * 5000 + p.val, row_lt t p⟩ q) := by
  unfold zb
  refine (pay5_apply (B0 V c t) (B1 V c t) (B2 V c t) (B3 V c t) (B4 V c t) (B5 V c t) (ix2 p q)).trans ?_
  rw [B2_eq, B3_eq, B4_eq, B5_eq]
  exact dense_congr (n := 5000) (n' := 50000) (B0 V c t) (B1 V c t) (V c main_v71) (V c main_v93) (V c main_v73)
    (row (V c main_v94)) (V c main_v77) (row (V c main_v95)) p ⟨t.val * 5000 + p.val, row_lt t p⟩ q
    (B0_apply V c t p) (B1_apply V c t p)

/-! ## The first result: the bands tile it -/

/-- What band `t` writes back is band `t` of `Z`. -/
theorem flushed6_eq (c : Dev nD) (t : Fin cfg4.N) :
    (dat4 V c).flushed 6 t = ((cfg4.win 6).blk t).view.read (Elt Ideal) (Z V c) := by
  show (cfg4.win 6).cut (grid4.coords t) ((dat4 V c).after 6 t) = _
  rw [after4_6, outs6]
  obtain ⟨-, -, -, -, -, -, -, -, -, -, -, -, e0, e1, -⟩ := idx_facts t
  funext j
  obtain ⟨p, q, rfl⟩ : ∃ (p : Fin 5000) (q : Fin 128), j = ix2 p q := ⟨j 0, j 1, eq_ix2 j⟩
  refine (zb_apply V c t p q).trans ?_
  rw [View.read_apply]
  show Z V c _ = Z V c _
  congr 1
  funext a
  apply Fin.ext
  match a with
  | ⟨0, _⟩ => show t.val * 5000 + p.val = win4_6.index t (0 : Fin 2) * 5000 + 1 * p.val; rw [e0]; omega
  | ⟨1, _⟩ => show q.val = win4_6.index t (1 : Fin 2) * 128 + 1 * q.val; rw [e1]; omega

/-- An index of the first result is in band `t`'s block iff each coordinate is in the block's range on its axis. -/
theorem mem_blk6 (t : Fin cfg4.N) (i : S50000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v96_0).slice (win4_6.rect t)).set ↔ _
  rw [View.set_slice_whole, Rect.mem_set_unit]
  exact Iff.rfl

/-- The first result array ends holding `Z`. -/
theorem final6 (c : Dev nD) : (dat4 V c).arrAt 6 cfg4.N = Z V c :=
  (dat4 V c).arrAt_eq_of_cover 6 (Z V c) (fun t _ => flushed6_eq V c t) fun i => by
    have hN : cfg4.N = 10 := N_4
    have hi0 : (i 0).val < 50000 := (i 0).isLt
    have hi1 : (i 1).val < 128 := (i 1).isLt
    obtain ⟨-, -, -, -, -, -, -, -, -, -, -, -, e0, e1, -⟩ := idx_facts ⟨(i 0).val / 5000, by omega⟩
    refine ⟨⟨(i 0).val / 5000, by omega⟩, flush4_6 _, ?_⟩
    rw [mem_blk6]
    intro a
    match a with
    | ⟨0, _⟩ =>
      show win4_6.index _ (0 : Fin 2) * 5000 ≤ (i 0).val ∧ (i 0).val < win4_6.index _ (0 : Fin 2) * 5000 + 5000
      rw [e0]; dsimp only; omega
    | ⟨1, _⟩ =>
      show win4_6.index _ (1 : Fin 2) * 128 ≤ (i 1).val ∧ (i 1).val < win4_6.index _ (1 : Fin 2) * 128 + 128
      rw [e1]; omega

/-! ## The two accumulators: written back once, after the last band -/

/-- The ten bands' column sums add up to the column sum over all rows. -/
theorem bands_sum (c : Dev nD) (q : Fin 128) (h : 9 < cfg4.N) :
    ∑ x : Fin (9 + 1), ∑ p : Fin 5000, zb V c ⟨x.val, Nat.lt_of_lt_of_le x.isLt h⟩ (ix2 p q)
      = Cert.Gin.colSum (Z V c) q :=
  (Finset.sum_congr rfl fun x _ => Finset.sum_congr rfl fun p _ =>
      zb_apply V c ⟨x.val, Nat.lt_of_lt_of_le x.isLt h⟩ p q).trans
    (Cert.SumBlocks.sum_fin_blocks 10 5000 rfl (fun r : Fin 50000 => Z V c (ix2 r q))).symm

/-- The same for the squares. -/
theorem bands_sum_sq (c : Dev nD) (q : Fin 128) (h : 9 < cfg4.N) :
    ∑ x : Fin (9 + 1), ∑ p : Fin 5000, zb V c ⟨x.val, Nat.lt_of_lt_of_le x.isLt h⟩ (ix2 p q)
        * zb V c ⟨x.val, Nat.lt_of_lt_of_le x.isLt h⟩ (ix2 p q)
      = Cert.Gin.colSum (fun i' => Z V c i' * Z V c i') q :=
  (Finset.sum_congr rfl fun x _ => Finset.sum_congr rfl fun p _ =>
      congrArg (fun y => y * y) (zb_apply V c ⟨x.val, Nat.lt_of_lt_of_le x.isLt h⟩ p q)).trans
    (Cert.SumBlocks.sum_fin_blocks 10 5000 rfl (fun r : Fin 50000 => Z V c (ix2 r q) * Z V c (ix2 r q))).symm

/-- The block of a one-row array read through window 7 is the array. -/
theorem read_blk7 (G : S1x128.Idx → EReal) (t : Fin cfg4.N) (q : Fin 128) :
    ((cfg4.win 7).blk t).view.read (Elt Ideal) G (ix2 ⟨0, Nat.one_pos⟩ q) = G (ix2 ⟨0, Nat.one_pos⟩ q) := by
  have e0 : win4_7.index t (0 : Fin 2) = 0 := (idx_facts t).2.2.2.2.2.2.2.2.2.2.2.2.2.2.1
  have e1 : win4_7.index t (1 : Fin 2) = 0 := (idx_facts t).2.2.2.2.2.2.2.2.2.2.2.2.2.2.2.1
  rw [View.read_apply]
  show G _ = G _
  congr 1
  funext a
  apply Fin.ext
  match a with
  | ⟨0, _⟩ => show win4_7.index t (0 : Fin 2) * 1 + 1 * 0 = 0; rw [e0]
  | ⟨1, _⟩ => show win4_7.index t (1 : Fin 2) * 128 + 1 * q.val = q.val; rw [e1]; omega

/-- The one write-back of the second result, after band 9, writes the column sums of `Z`. -/
theorem flushed7_eq (c : Dev nD) (t : Fin cfg4.N) (hf : (cfg4.win 7).flush t = true) :
    (dat4 V c).flushed 7 t = ((cfg4.win 7).blk t).view.read (Elt Ideal)
      (fun i : S1x128.Idx => Cert.Gin.colSum (Z V c) (i 1)) := by
  have hN : cfg4.N = 10 := N_4
  have h9 : t.val = 9 := by have := (flush4_7 t).mp hf; have := t.isLt; omega
  obtain ⟨n, hn⟩ := t
  dsimp only at h9
  show (cfg4.win 7).cut (grid4.coords ⟨n, hn⟩) ((dat4 V c).after 7 ⟨n, hn⟩) = _
  rw [after4_7]
  funext j
  obtain ⟨r, q, rfl⟩ : ∃ (r : Fin 1) (q : Fin 128), j = ix2 r q := ⟨j 0, j 1, eq_ix2 j⟩
  obtain rfl : r = ⟨0, Nat.one_pos⟩ := Subsingleton.elim _ _
  refine (acc7 V c n hn q).trans ?_
  refine Eq.trans ?_ (read_blk7 (fun i : S1x128.Idx => Cert.Gin.colSum (Z V c) (i 1)) ⟨n, hn⟩ q).symm
  subst h9
  exact bands_sum V c q hn

/-- An index of a one-row result is in its one block. -/
theorem mem_blk7 (t : Fin cfg4.N) (i : S1x128.Idx) :
    i ∈ ((cfg4.win 7).blk t).view.set ↔ ∀ a : Fin 2, win4_7.index t a * S1x128.size a ≤ (i a).val
      ∧ (i a).val < win4_7.index t a * S1x128.size a + S1x128.size a := by
  show i ∈ ((View.whole main_v96_1).slice (win4_7.rect t)).set ↔ _
  rw [View.set_slice_whole, Rect.mem_set_unit]
  exact Iff.rfl

/-- The second result array ends holding the column sums of `Z`. -/
theorem final7 (c : Dev nD) : (dat4 V c).arrAt 7 cfg4.N = fun i => Cert.Gin.colSum (Z V c) (i 1) :=
  (dat4 V c).arrAt_eq_of_cover 7 (fun i : S1x128.Idx => Cert.Gin.colSum (Z V c) (i 1)) (flushed7_eq V c) fun i => by
    have hN : cfg4.N = 10 := N_4
    have hi0 : (i 0).val < 1 := (i 0).isLt
    have hi1 : (i 1).val < 128 := (i 1).isLt
    obtain ⟨-, -, -, -, -, -, -, -, -, -, -, -, -, -, e0, e1, -⟩ := idx_facts ⟨9, by omega⟩
    refine ⟨⟨9, by omega⟩, (flush4_7 _).mpr rfl, ?_⟩
    rw [mem_blk7]
    intro a
    match a with
    | ⟨0, _⟩ =>
      show win4_7.index _ (0 : Fin 2) * 1 ≤ (i 0).val ∧ (i 0).val < win4_7.index _ (0 : Fin 2) * 1 + 1
      rw [e0]; omega
    | ⟨1, _⟩ =>
      show win4_7.index _ (1 : Fin 2) * 128 ≤ (i 1).val ∧ (i 1).val < win4_7.index _ (1 : Fin 2) * 128 + 128
      rw [e1]; omega

/-- The block of a one-row array read through window 8 is the array. -/
theorem read_blk8 (G : S1x128.Idx → EReal) (t : Fin cfg4.N) (q : Fin 128) :
    ((cfg4.win 8).blk t).view.read (Elt Ideal) G (ix2 ⟨0, Nat.one_pos⟩ q) = G (ix2 ⟨0, Nat.one_pos⟩ q) := by
  have e0 : win4_8.index t (0 : Fin 2) = 0 := (idx_facts t).2.2.2.2.2.2.2.2.2.2.2.2.2.2.2.2.1
  have e1 : win4_8.index t (1 : Fin 2) = 0 := (idx_facts t).2.2.2.2.2.2.2.2.2.2.2.2.2.2.2.2.2
  rw [View.read_apply]
  show G _ = G _
  congr 1
  funext a
  apply Fin.ext
  match a with
  | ⟨0, _⟩ => show win4_8.index t (0 : Fin 2) * 1 + 1 * 0 = 0; rw [e0]
  | ⟨1, _⟩ => show win4_8.index t (1 : Fin 2) * 128 + 1 * q.val = q.val; rw [e1]; omega

/-- The one write-back of the third result, after band 9, writes the column sums of the squares of `Z`. -/
theorem flushed8_eq (c : Dev nD) (t : Fin cfg4.N) (hf : (cfg4.win 8).flush t = true) :
    (dat4 V c).flushed 8 t = ((cfg4.win 8).blk t).view.read (Elt Ideal)
      (fun i : S1x128.Idx => Cert.Gin.colSum (fun i' => Z V c i' * Z V c i') (i 1)) := by
  have hN : cfg4.N = 10 := N_4
  have h9 : t.val = 9 := by have := (flush4_8 t).mp hf; have := t.isLt; omega
  obtain ⟨n, hn⟩ := t
  dsimp only at h9
  show (cfg4.win 8).cut (grid4.coords ⟨n, hn⟩) ((dat4 V c).after 8 ⟨n, hn⟩) = _
  rw [after4_8]
  funext j
  obtain ⟨r, q, rfl⟩ : ∃ (r : Fin 1) (q : Fin 128), j = ix2 r q := ⟨j 0, j 1, eq_ix2 j⟩
  obtain rfl : r = ⟨0, Nat.one_pos⟩ := Subsingleton.elim _ _
  refine (acc8 V c n hn q).trans ?_
  refine Eq.trans ?_ (read_blk8 (fun i : S1x128.Idx => Cert.Gin.colSum (fun i' => Z V c i' * Z V c i') (i 1)) ⟨n, hn⟩ q).symm
  subst h9
  exact bands_sum_sq V c q hn

theorem mem_blk8 (t : Fin cfg4.N) (i : S1x128.Idx) :
    i ∈ ((cfg4.win 8).blk t).view.set ↔ ∀ a : Fin 2, win4_8.index t a * S1x128.size a ≤ (i a).val
      ∧ (i a).val < win4_8.index t a * S1x128.size a + S1x128.size a := by
  show i ∈ ((View.whole main_v96_2).slice (win4_8.rect t)).set ↔ _
  rw [View.set_slice_whole, Rect.mem_set_unit]
  exact Iff.rfl

/-- The third result array ends holding the column sums of the squares of `Z`. -/
theorem final8 (c : Dev nD) :
    (dat4 V c).arrAt 8 cfg4.N = fun i => Cert.Gin.colSum (fun i' => Z V c i' * Z V c i') (i 1) :=
  (dat4 V c).arrAt_eq_of_cover 8 (fun i : S1x128.Idx => Cert.Gin.colSum (fun i' => Z V c i' * Z V c i') (i 1))
    (flushed8_eq V c) fun i => by
    have hN : cfg4.N = 10 := N_4
    have hi0 : (i 0).val < 1 := (i 0).isLt
    have hi1 : (i 1).val < 128 := (i 1).isLt
    obtain ⟨-, -, -, -, -, -, -, -, -, -, -, -, -, -, -, -, e0, e1⟩ := idx_facts ⟨9, by omega⟩
    refine ⟨⟨9, by omega⟩, (flush4_8 _).mpr rfl, ?_⟩
    rw [mem_blk8]
    intro a
    match a with
    | ⟨0, _⟩ =>
      show win4_8.index _ (0 : Fin 2) * 1 ≤ (i 0).val ∧ (i 0).val < win4_8.index _ (0 : Fin 2) * 1 + 1
      rw [e0]; omega
    | ⟨1, _⟩ =>
      show win4_8.index _ (1 : Fin 2) * 128 ≤ (i 1).val ∧ (i 1).val < win4_8.index _ (1 : Fin 2) * 128 + 128
      rw [e1]; omega

end Cert.KernelIdeal.Mlp4

end
-- ==== Proof.KBn5.lean ====
/-
  The normalisation kernel of one layer (a launch over ten row bands of 5000 nodes): what its result array holds.

  Band `t` of the result is computed from band `t` of `z` and the four one-row arrays (mean, variance, scale, shift),
  every entry by the same formula  g · (z − μ) · (var + ε)^(-1/2) + β  of its own column's statistics; the ten bands
  tile the 50000 rows, so the array is that formula of the whole arrays, index by index.
-/
import proofs.«104403_j38585986187615_1_alg».proof.Proof.Gen.KernelIdeal.Frame
import proofs.«104403_j38585986187615_1_alg».proof.Proof.Spec
import proofs.«104403_j38585986187615_1_alg».proof.Proof.LibBiasRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Bn5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row 0 of a one-row array, as a function of the column. -/
abbrev row (x : S1x128.Idx → EReal) : Fin 128 → EReal := fun j => x (ix2 ⟨0, Nat.one_pos⟩ j)

/-- The normalised array as a function of the five arrays the kernel reads. -/
abbrev G (z : S50000x128.Idx → EReal) (mu var g be : S1x128.Idx → EReal) : S50000x128.Idx → EReal :=
  Cert.Gin.bn z (row mu) (row var) (row g) (row be)

/-- The body's arithmetic at an entry (p, q) of a band: the band's entry and column q of the four rows. -/
theorem pay_apply (v0 v5 : Vec Ideal S1x128 .f32) (v7 : Vec Ideal S5000x128 .f32) (v9 v17 : Vec Ideal S1x128 .f32)
    (p : Fin 5000) (q : Fin 128) :
    k5_pay1 (F := Ideal) v0 v5 v7 v9 v17 (ix2 p q)
      = row v5 q * (v7 (ix2 p q) - row v9 q) * Ideal.rsqrt (row v0 q + Cert.Gin.epsW) + row v17 q := by
  unfold k5_pay1
  simp only [shapeCast_self]
  show (_ * (_ - _)) * _ + _ = _
  rw [Cert.LibBiasRows.row_broadcast, Cert.LibBiasRows.row_broadcast, Cert.LibBiasRows.row_broadcast,
    Cert.LibBiasRows.row_broadcast]
  rfl

/-- The formula at an entry reads `z` at that entry and the four rows at the entry's column. -/
theorem G_congr (z : S50000x128.Idx → EReal) (mu var g be : S1x128.Idx → EReal) (i0 i5 : S50000x128.Idx)
    (i1 i2 i3 i4 : S1x128.Idx) (h0 : i0 = i5) (h1 : i1 = ix2 ⟨0, Nat.one_pos⟩ (i5 1))
    (h2 : i2 = ix2 ⟨0, Nat.one_pos⟩ (i5 1)) (h3 : i3 = ix2 ⟨0, Nat.one_pos⟩ (i5 1))
    (h4 : i4 = ix2 ⟨0, Nat.one_pos⟩ (i5 1)) :
    g i3 * (z i0 - mu i1) * Ideal.rsqrt (var i2 + Cert.Gin.epsW) + be i4 = G z mu var g be i5 := by
  subst h0 h1 h2 h3 h4; rfl

/-- The index maps over the ten bands: the band of `z` moves with the result's band, the one-row arrays stay. -/
theorem idx_facts : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Entry (p, q) of band `t` of `z` sits where entry (p, q) of band `t` of the result sits: row t · 5000 + p, column q. -/
theorem emb0 (t : Fin cfg5.N) (p : Fin 5000) (q : Fin 128) :
    ((cfg5.win 0).blk t).view.emb (ix2 p q) = ((cfg5.win 5).blk t).view.emb (ix2 p q) := by
  obtain ⟨e0, e1, e2, e3, e4, e5, e6, e7, e8, e9, e10, e11⟩ := idx_facts t
  funext a; apply Fin.ext
  match a with
  | ⟨0, _⟩ => show win5_0.index t (0 : Fin 2) * 5000 + 1 * p.val = win5_5.index t (0 : Fin 2) * 5000 + 1 * p.val; omega
  | ⟨1, _⟩ => show win5_0.index t (1 : Fin 2) * 128 + 1 * q.val = win5_5.index t (1 : Fin 2) * 128 + 1 * q.val; omega

/-- Column q of the mean's row is the column of the result's entry (p, q) of any band. -/
theorem emb1 (t : Fin cfg5.N) (p : Fin 5000) (q : Fin 128) :
    ((cfg5.win 1).blk t).view.emb (ix2 ⟨0, Nat.one_pos⟩ q)
      = ix2 ⟨0, Nat.one_pos⟩ ((((cfg5.win 5).blk t).view.emb (ix2 p q)) 1) := by
  obtain ⟨e0, e1, e2, e3, e4, e5, e6, e7, e8, e9, e10, e11⟩ := idx_facts t
  funext a; apply Fin.ext
  match a with
  | ⟨0, _⟩ => show win5_1.index t (0 : Fin 2) * 1 + 1 * 0 = 0; omega
  | ⟨1, _⟩ => show win5_1.index t (1 : Fin 2) * 128 + 1 * q.val = win5_5.index t (1 : Fin 2) * 128 + 1 * q.val; omega

/-- The same for the variance's row. -/
theorem emb2 (t : Fin cfg5.N) (p : Fin 5000) (q : Fin 128) :
    ((cfg5.win 2).blk t).view.emb (ix2 ⟨0, Nat.one_pos⟩ q)
      = ix2 ⟨0, Nat.one_pos⟩ ((((cfg5.win 5).blk t).view.emb (ix2 p q)) 1) := by
  obtain ⟨e0, e1, e2, e3, e4, e5, e6, e7, e8, e9, e10, e11⟩ := idx_facts t
  funext a; apply Fin.ext
  match a with
  | ⟨0, _⟩ => show win5_2.index t (0 : Fin 2) * 1 + 1 * 0 = 0; omega
  | ⟨1, _⟩ => show win5_2.index t (1 : Fin 2) * 128 + 1 * q.val = win5_5.index t (1 : Fin 2) * 128 + 1 * q.val; omega

/-- The same for the scale's row. -/
theorem emb3 (t : Fin cfg5.N) (p : Fin 5000) (q : Fin 128) :
    ((cfg5.win 3).blk t).view.emb (ix2 ⟨0, Nat.one_pos⟩ q)
      = ix2 ⟨0, Nat.one_pos⟩ ((((cfg5.win 5).blk t).view.emb (ix2 p q)) 1) := by
  obtain ⟨e0, e1, e2, e3, e4, e5, e6, e7, e8, e9, e10, e11⟩ := idx_facts t
  funext a; apply Fin.ext
  match a with
  | ⟨0, _⟩ => show win5_3.index t (0 : Fin 2) * 1 + 1 * 0 = 0; omega
  | ⟨1, _⟩ => show win5_3.index t (1 : Fin 2) * 128 + 1 * q.val = win5_5.index t (1 : Fin 2) * 128 + 1 * q.val; omega

/-- The same for the shift's row. -/
theorem emb4 (t : Fin cfg5.N) (p : Fin 5000) (q : Fin 128) :
    ((cfg5.win 4).blk t).view.emb (ix2 ⟨0, Nat.one_pos⟩ q)
      = ix2 ⟨0, Nat.one_pos⟩ ((((cfg5.win 5).blk t).view.emb (ix2 p q)) 1) := by
  obtain ⟨e0, e1, e2, e3, e4, e5, e6, e7, e8, e9, e10, e11⟩ := idx_facts t
  funext a; apply Fin.ext
  match a with
  | ⟨0, _⟩ => show win5_4.index t (0 : Fin 2) * 1 + 1 * 0 = 0; omega
  | ⟨1, _⟩ => show win5_4.index t (1 : Fin 2) * 128 + 1 * q.val = win5_5.index t (1 : Fin 2) * 128 + 1 * q.val; omega

/-- What band `t` writes back is band `t` of `G` of the arrays as the launch finds them. -/
theorem flushed_eq (c : Dev nD) (t : Fin cfg5.N) :
    (dat5 V c).flushed 5 t = ((cfg5.win 5).blk t).view.read (Elt Ideal)
      (G (V c main_v96_0) (V c main_v98) (V c main_v102) (V c main_v103) (V c main_v104)) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_apply _ _ _ _ _ p q).trans ?_
  exact G_congr (V c main_v96_0) (V c main_v98) (V c main_v102) (V c main_v103) (V c main_v104)
    (((cfg5.win 0).blk t).view.emb (ix2 p q)) (((cfg5.win 5).blk t).view.emb (ix2 p q))
    (((cfg5.win 1).blk t).view.emb (ix2 ⟨0, Nat.one_pos⟩ q)) (((cfg5.win 2).blk t).view.emb (ix2 ⟨0, Nat.one_pos⟩ q))
    (((cfg5.win 3).blk t).view.emb (ix2 ⟨0, Nat.one_pos⟩ q)) (((cfg5.win 4).blk t).view.emb (ix2 ⟨0, Nat.one_pos⟩ q))
    (emb0 t p q) (emb1 t p q) (emb2 t p q) (emb3 t p q) (emb4 t p q)

/-- An index of the result is in band `t` iff each coordinate is in the band's range on its axis. -/
theorem mem_blk (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v105).slice (win5_5.rect t)).set ↔ _
  rw [View.set_slice_whole, Rect.mem_set_unit]
  exact Iff.rfl

/-- The ten bands tile the 50000 rows: row r is in band r / 5000, which is written back. -/
theorem cover (i : S50000x128.Idx) :
    ∃ t : Fin cfg5.N, (cfg5.win 5).flush t = true ∧ i ∈ ((cfg5.win 5).blk t).view.set := by
  have hN : cfg5.N = 10 := N_5
  have hi0 : (i 0).val < 50000 := (i 0).isLt
  have hi1 : (i 1).val < 128 := (i 1).isLt
  have ht : (i 0).val / 5000 < cfg5.N := by omega
  obtain ⟨e0, e1, e2, e3, -⟩ := idx_facts ⟨(i 0).val / 5000, ht⟩
  refine ⟨⟨(i 0).val / 5000, ht⟩, flush5_5 _, ?_⟩
  rw [mem_blk]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e2]; show (i 0).val / 5000 * 5000 ≤ (i 0).val ∧ (i 0).val < (i 0).val / 5000 * 5000 + 5000
    omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [e3]; omega

/-- The result array after the launch: the normalisation formula of the five arrays the launch finds, index by index. -/
theorem final (c : Dev nD) : (dat5 V c).arrAt 5 cfg5.N
    = G (V c main_v96_0) (V c main_v98) (V c main_v102) (V c main_v103) (V c main_v104) :=
  (dat5 V c).arrAt_eq_of_cover 5 _ (fun t _ => flushed_eq V c t) (fun i => cover i)

end Cert.KernelIdeal.Bn5

end
-- ==== Proof.KLayer3.lean ====
/-
  Layer 3 of the kernel's program, end to end: the band launches' arrays and the host lines between them.

  The first launch leaves z (two rectified dense layers of h + agg, band by band) and the column sums of z and of z².
  The host divides both by the node count, subtracts the squared mean (the one-pass variance) and lays the scale and
  shift vectors out as rows; the second launch normalises z with them.  So the layer's output array is
  `layerOnePass` of the layer's input and weights.
-/
import proofs.«104403_j38585986187615_1_alg».proof.Proof.KHost3
import proofs.«104403_j38585986187615_1_alg».proof.Proof.KMlp4
import proofs.«104403_j38585986187615_1_alg».proof.Proof.KBn5
import proofs.«104403_j38585986187615_1_alg».proof.Proof.Spec
import proofs.«104403_j38585986187615_1_alg».proof.Proof.RefAgg
import proofs.«104403_j38585986187615_1_alg».proof.Proof.LibBiasRows
import Idealize.ShloMosaic.Lib.StableHlo.Run
import Idealize.ShloMosaic.Lib.Pipeline.Value

set_option maxRecDepth 16384

noncomputable section

namespace Cert.KernelIdeal.Layer3

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- Row 0 of a one-row array, as a function of the column. -/
abbrev row (x : S1x128.Idx → EReal) : Fin 128 → EReal := fun j => x (ix2 ⟨0, Nat.one_pos⟩ j)

/-- A [128] vector laid out as a [1,128] row reads, at column j of row 0, the vector's entry j. -/
theorem row_shapeCast (b : S128.Idx → EReal) : row (shapeCast S1x128 b shapeCasts_S128_S1x128) = fun j => b (ix1 j) :=
  funext fun j => Cert.LibBiasRows.row_of_vector b shapeCasts_S128_S1x128 j

/-- A scalar word broadcast to a row reads that word's value everywhere. -/
theorem row_const (w : BitVec 32) : row (broadcastInDim S1x128 ![] bcast_S_S1x128 (constant (F := Ideal) S_ .f32 w)) = fun _ => Ideal.ofBits .f32 w :=
  funext fun j => broadcastInDim_apply _ bcast_S_S1x128 (constant (F := Ideal) S_ .f32 w) _ (fun a => a.elim0) (fun a => a.elim0)

/-- The first launch's result z, over the buffer contents at its entry. -/
abbrev Z (c : Dev nD) : S50000x128.Idx → EReal := Cert.KernelIdeal.Mlp4.Z (V9 m ρ) c

theorem exit_z (c : Dev nD) : W10 m ρ c (Proc.devRef .tc main_v96_0) = Z m ρ c :=
  (W10_arr m ρ c 6).trans (Cert.KernelIdeal.Mlp4.final6 (V9 m ρ) c)
theorem exit_s (c : Dev nD) : W10 m ρ c (Proc.devRef .tc main_v96_1) = fun i => Cert.Gin.colSum (Z m ρ c) (i 1) :=
  (W10_arr m ρ c 7).trans (Cert.KernelIdeal.Mlp4.final7 (V9 m ρ) c)
theorem exit_ss (c : Dev nD) : W10 m ρ c (Proc.devRef .tc main_v96_2) = fun i => Cert.Gin.colSum (fun i' => Z m ρ c i' * Z m ρ c i') (i 1) :=
  (W10_arr m ρ c 8).trans (Cert.KernelIdeal.Mlp4.final8 (V9 m ρ) c)

/-! The host lines between the two launches. -/

theorem mid_z (c : Dev nD) : W11 m ρ c (Proc.devRef .tc main_v96_0) = Z m ρ c := by
  show StableHlo.after hostOps5 (W10 m ρ c) (Proc.devRef .tc main_v96_0) = _
  after_results
  exact exit_z m ρ c

theorem mid_mu (c : Dev nD) : row (W11 m ρ c (Proc.devRef .tc main_v98)) = Cert.Gin.mean (Z m ρ c) := by
  have e : W11 m ρ c (Proc.devRef .tc main_v98) = Host.divf (F := Ideal) (W10 m ρ c (Proc.devRef .tc main_v96_1)) (broadcastInDim S1x128 ![] bcast_S_S1x128 (constant (F := Ideal) S_ .f32 0x47435000#32)) := by
    show StableHlo.after hostOps5 (W10 m ρ c) (Proc.devRef .tc main_v98) = _
    after_results <;> rfl
  rw [e, exit_s]
  funext j
  show Ideal.div _ (row (broadcastInDim S1x128 ![] bcast_S_S1x128 (constant (F := Ideal) S_ .f32 0x47435000#32)) j) = _
  rw [row_const]
  rfl

theorem mid_var (c : Dev nD) : row (W11 m ρ c (Proc.devRef .tc main_v102)) = Cert.Gin.varOnePass (Z m ρ c) := by
  have e : W11 m ρ c (Proc.devRef .tc main_v102) = subf (F := Ideal) (Host.divf (F := Ideal) (W10 m ρ c (Proc.devRef .tc main_v96_2)) (broadcastInDim S1x128 ![] bcast_S_S1x128 (constant (F := Ideal) S_ .f32 0x47435000#32)))
      (mulf (Host.divf (F := Ideal) (W10 m ρ c (Proc.devRef .tc main_v96_1)) (broadcastInDim S1x128 ![] bcast_S_S1x128 (constant (F := Ideal) S_ .f32 0x47435000#32)))
        (Host.divf (F := Ideal) (W10 m ρ c (Proc.devRef .tc main_v96_1)) (broadcastInDim S1x128 ![] bcast_S_S1x128 (constant (F := Ideal) S_ .f32 0x47435000#32)))) := by
    show StableHlo.after hostOps5 (W10 m ρ c) (Proc.devRef .tc main_v102) = _
    after_results <;> rfl
  rw [e, exit_s, exit_ss]
  funext j
  show Ideal.div _ (row (broadcastInDim S1x128 ![] bcast_S_S1x128 (constant (F := Ideal) S_ .f32 0x47435000#32)) j)
    - Ideal.div _ (row (broadcastInDim S1x128 ![] bcast_S_S1x128 (constant (F := Ideal) S_ .f32 0x47435000#32)) j)
      * Ideal.div _ (row (broadcastInDim S1x128 ![] bcast_S_S1x128 (constant (F := Ideal) S_ .f32 0x47435000#32)) j) = _
  rw [row_const]
  rfl

theorem mid_g (c : Dev nD) : row (W11 m ρ c (Proc.devRef .tc main_v103)) = fun j => Cert.ReferenceIdeal.ReadP.val_main_v129 (F := Ideal) (m ((c : Thread nD τ).loc main_arg7)) (ix1 j) := by
  have e : W11 m ρ c (Proc.devRef .tc main_v103) = shapeCast S1x128 (W10 m ρ c (Proc.devRef .tc main_v81)) shapeCasts_S128_S1x128 := by
    show StableHlo.after hostOps5 (W10 m ρ c) (Proc.devRef .tc main_v103) = _
    after_results <;> rfl
  rw [e, W10_of_ne m ρ c main_v81 (by decide), Cert.KernelIdeal.Host3.s_g m ρ c, row_shapeCast]

theorem mid_be (c : Dev nD) : row (W11 m ρ c (Proc.devRef .tc main_v104)) = fun j => Cert.ReferenceIdeal.ReadP.val_main_v131 (F := Ideal) (m ((c : Thread nD τ).loc main_arg8)) (ix1 j) := by
  have e : W11 m ρ c (Proc.devRef .tc main_v104) = shapeCast S1x128 (W10 m ρ c (Proc.devRef .tc main_v83)) shapeCasts_S128_S1x128 := by
    show StableHlo.after hostOps5 (W10 m ρ c) (Proc.devRef .tc main_v104) = _
    after_results <;> rfl
  rw [e, W10_of_ne m ρ c main_v83 (by decide), Cert.KernelIdeal.Host3.s_be m ρ c, row_shapeCast]

/-- The layer's input: what the buffer of the node features holds when the layer begins. -/
abbrev hin (c : Dev nD) : S50000x128.Idx → EReal := W8 m ρ c (Proc.devRef .tc main_v71)

/-- The first launch's z in the reference's stage functions of the arguments. -/
theorem Z_eq (c : Dev nD) : Z m ρ c = Cert.Gin.mlp (hin m ρ c)
      (Cert.Gin.agg (hin m ρ c) (Cert.ReferenceIdeal.ReadP.val_main_v137 (F := Ideal) (m ((c : Thread nD τ).loc main_arg1))) (Cert.ReferenceIdeal.ReadP.val_main_v140 (F := Ideal) (m ((c : Thread nD τ).loc main_arg1))))
      (Cert.ReferenceIdeal.ReadP.val_main_v121 (F := Ideal) (m ((c : Thread nD τ).loc main_arg3))) (fun j => Cert.ReferenceIdeal.ReadP.val_main_v123 (F := Ideal) (m ((c : Thread nD τ).loc main_arg4)) (ix1 j))
      (Cert.ReferenceIdeal.ReadP.val_main_v125 (F := Ideal) (m ((c : Thread nD τ).loc main_arg5))) (fun j => Cert.ReferenceIdeal.ReadP.val_main_v127 (F := Ideal) (m ((c : Thread nD τ).loc main_arg6)) (ix1 j)) := by
  show Cert.Gin.mlp (W9 m ρ c (Proc.devRef .tc main_v71)) (W9 m ρ c (Proc.devRef .tc main_v93))
    (W9 m ρ c (Proc.devRef .tc main_v73)) (row (W9 m ρ c (Proc.devRef .tc main_v94)))
    (W9 m ρ c (Proc.devRef .tc main_v77)) (row (W9 m ρ c (Proc.devRef .tc main_v95))) = _
  rw [Cert.KernelIdeal.Host3.s_h m ρ c, Cert.KernelIdeal.Host3.s_agg m ρ c, Cert.KernelIdeal.Host3.s_W1 m ρ c, Cert.KernelIdeal.Host3.s_b1 m ρ c, Cert.KernelIdeal.Host3.s_W2 m ρ c, Cert.KernelIdeal.Host3.s_b2 m ρ c,
    row_shapeCast, row_shapeCast, Cert.RefLayers.agg3]

/-- The layer's output array: the one-pass layer of its input and this layer's weights. -/
theorem out_eq (c : Dev nD) : W12 m ρ c (Proc.devRef .tc main_v105) = Cert.Gin.layerOnePass (hin m ρ c)
      (Cert.Gin.agg (hin m ρ c) (Cert.ReferenceIdeal.ReadP.val_main_v137 (F := Ideal) (m ((c : Thread nD τ).loc main_arg1))) (Cert.ReferenceIdeal.ReadP.val_main_v140 (F := Ideal) (m ((c : Thread nD τ).loc main_arg1))))
      (Cert.ReferenceIdeal.ReadP.val_main_v121 (F := Ideal) (m ((c : Thread nD τ).loc main_arg3))) (fun j => Cert.ReferenceIdeal.ReadP.val_main_v123 (F := Ideal) (m ((c : Thread nD τ).loc main_arg4)) (ix1 j))
      (Cert.ReferenceIdeal.ReadP.val_main_v125 (F := Ideal) (m ((c : Thread nD τ).loc main_arg5))) (fun j => Cert.ReferenceIdeal.ReadP.val_main_v127 (F := Ideal) (m ((c : Thread nD τ).loc main_arg6)) (ix1 j))
      (fun j => Cert.ReferenceIdeal.ReadP.val_main_v129 (F := Ideal) (m ((c : Thread nD τ).loc main_arg7)) (ix1 j)) (fun j => Cert.ReferenceIdeal.ReadP.val_main_v131 (F := Ideal) (m ((c : Thread nD τ).loc main_arg8)) (ix1 j)) := by
  refine ((W12_arr m ρ c 5).trans (Cert.KernelIdeal.Bn5.final (V11 m ρ) c)).trans ?_
  show Cert.Gin.bn (W11 m ρ c (Proc.devRef .tc main_v96_0)) (row (W11 m ρ c (Proc.devRef .tc main_v98)))
    (row (W11 m ρ c (Proc.devRef .tc main_v102))) (row (W11 m ρ c (Proc.devRef .tc main_v103)))
    (row (W11 m ρ c (Proc.devRef .tc main_v104))) = _
  rw [mid_z, mid_mu, mid_var, mid_g, mid_be, Z_eq]
  rfl

end Cert.KernelIdeal.Layer3

end
-- ==== Proof.LibVariance.lean ====
/-
  The two-pass and the one-pass sample variance agree on the extended reals.

  For a finite family of REAL numbers r i (read as extended reals), with S = ∑ r i, Q = ∑ r i · r i,
  N the number of terms (N > 1) and mu = S / N, the one-pass form  (Q − N · (mu · mu)) / (N − 1)  and the
  two-pass form  (∑ (r i − mu) · (r i − mu)) / (N − 1)  are the same nonnegative real, so clamping the first
  at zero changes nothing and their square roots agree. All of it is real algebra: every operand is the
  coercion of a real, every divisor is a nonzero real, so each extended-real operation is the coercion
  of the real one, and the identity  ∑ (r i − mu)² = Q − N · mu²  (which holds because S = N · mu) finishes.

  Also here: the coercion of a finite real sum is the sum of the coercions, and the real values of the
  four binary32 words 200000, 199999, 0 and 1.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Lib.Variance

open Idealize.ShloMosaic
open scoped BigOperators

variable {ι : Type*}

/-! ### (a) Coercion commutes with finite sums -/

/-- The coercion of a finite sum of reals is the sum of the coercions (over any finite set). -/
theorem coe_finset_sum (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum [Fintype ι] (r : ι → ℝ) : ((∑ i, r i : ℝ) : EReal) = ∑ i, (r i : EReal) :=
  coe_finset_sum Finset.univ r

/-- The same from a zero start: 0 + ∑ of the coercions is the coercion of the real sum. -/
theorem zero_add_coe_sum [Fintype ι] (r : ι → ℝ) :
    (0 : EReal) + ∑ i, (r i : EReal) = ((∑ i, r i : ℝ) : EReal) := by
  rw [zero_add, coe_sum]

/-- A zero start and a sum of products of coercions. -/
theorem zero_add_coe_sum_mul [Fintype ι] (a b : ι → ℝ) :
    (0 : EReal) + ∑ i, (a i : EReal) * (b i : EReal) = ((∑ i, a i * b i : ℝ) : EReal) := by
  rw [zero_add, coe_sum]; simp only [EReal.coe_mul]

/-! ### The quotient of two reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-! ### (b) The real identity -/

/-- If S = N · m (m the mean), the sum of squared deviations from m is Q − N · m². -/
theorem sum_sq_dev_of_mean [Fintype ι] (r : ι → ℝ) (N m : ℝ) (hN : N = (Fintype.card ι : ℝ))
    (hm : ∑ j, r j = N * m) :
    ∑ i, (r i - m) * (r i - m) = (∑ i, r i * r i) - N * (m * m) := by
  have h1 : ∀ i, (r i - m) * (r i - m) = r i * r i - 2 * m * r i + m * m := fun i => by ring
  rw [Finset.sum_congr rfl (fun i _ => h1 i), Finset.sum_add_distrib, Finset.sum_sub_distrib,
    ← Finset.mul_sum, hm, Finset.sum_const, Finset.card_univ, nsmul_eq_mul, ← hN]
  ring

/-- The sum of squared deviations from the mean S / N is Q − N · (S/N)². -/
theorem sum_sq_dev [Fintype ι] (r : ι → ℝ) (N : ℝ) (hN : N = (Fintype.card ι : ℝ)) (hN0 : N ≠ 0) :
    ∑ i, (r i - (∑ j, r j) / N) * (r i - (∑ j, r j) / N)
      = (∑ i, r i * r i) - N * (((∑ j, r j) / N) * ((∑ j, r j) / N)) :=
  sum_sq_dev_of_mean r N _ hN (by field_simp)

/-- A sum of squares is nonnegative. -/
theorem sum_sq_dev_nonneg [Fintype ι] (r : ι → ℝ) (m : ℝ) : 0 ≤ ∑ i, (r i - m) * (r i - m) :=
  Finset.sum_nonneg fun i _ => mul_self_nonneg _

/-- Hence the one-pass numerator is nonnegative. -/
theorem one_pass_nonneg [Fintype ι] (r : ι → ℝ) (N : ℝ) (hN : N = (Fintype.card ι : ℝ)) (hN0 : N ≠ 0) :
    0 ≤ (∑ i, r i * r i) - N * (((∑ j, r j) / N) * ((∑ j, r j) / N)) := by
  rw [← sum_sq_dev r N hN hN0]; exact sum_sq_dev_nonneg r _

/-! ### (c) The law on the extended reals -/

section Law
variable [Fintype ι] (r : ι → ℝ) (N : ℝ)

/-- The mean, as an extended real, is the coerced real mean. -/
theorem mean_eq (hN0 : N ≠ 0) :
    Ideal.div ((0 : EReal) + ∑ i, (r i : EReal)) ((N : ℝ) : EReal) = (((∑ i, r i) / N : ℝ) : EReal) := by
  rw [zero_add_coe_sum, div_coe_coe _ _ hN0]

/-- The two-pass variance is the coercion of a real: (∑ (r i − m)²) / (N − 1) with m = S / N. -/
theorem two_pass_eq (hN0 : N ≠ 0) (hN1 : N - 1 ≠ 0) :
    Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)
      = (((∑ i, (r i - (∑ j, r j) / N) * (r i - (∑ j, r j) / N)) / (N - 1) : ℝ) : EReal) := by
  rw [mean_eq r N hN0]
  simp only [← EReal.coe_sub]
  rw [zero_add_coe_sum_mul, div_coe_coe _ _ hN1]

/-- The one-pass variance is the coercion of a real: (Q − N · (m · m)) / (N − 1) with m = S / N. -/
theorem one_pass_eq (hN0 : N ≠ 0) (hN1 : N - 1 ≠ 0) :
    Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)
      = ((((∑ i, r i * r i) - N * (((∑ j, r j) / N) * ((∑ j, r j) / N))) / (N - 1) : ℝ) : EReal) := by
  rw [mean_eq r N hN0, zero_add_coe_sum_mul, ← EReal.coe_mul, ← EReal.coe_mul, ← EReal.coe_sub,
    div_coe_coe _ _ hN1]

/-- THE LAW, before the square root: the one-pass variance clamped at zero is the two-pass variance. -/
theorem var_eq (hN : N = (Fintype.card ι : ℝ)) (h1 : 1 < N) :
    max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0
      = Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal) := by
  have hN0 : N ≠ 0 := by linarith
  have hN1 : N - 1 ≠ 0 := by linarith
  have hpos : (0 : ℝ) < N - 1 := by linarith
  rw [one_pass_eq r N hN0 hN1, two_pass_eq r N hN0 hN1, sum_sq_dev r N hN hN0]
  refine max_eq_left ?_
  have : (0 : ℝ) ≤ ((∑ i, r i * r i) - N * (((∑ j, r j) / N) * ((∑ j, r j) / N))) / (N - 1) :=
    div_nonneg (one_pass_nonneg r N hN hN0) hpos.le
  exact_mod_cast this

/-- THE LAW: the square roots of the clamped one-pass variance and of the two-pass variance agree. -/
theorem sqrt_var_eq (hN : N = (Fintype.card ι : ℝ)) (h1 : 1 < N) :
    Ideal.sqrt (max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0)
      = Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)) :=
  congrArg Ideal.sqrt (var_eq r N hN h1)

/-- The common value is a finite nonnegative real: the two-pass standard deviation is the coercion of a real ≥ 0. -/
theorem sqrt_two_pass_eq (h1 : 1 < N) :
    ∃ v : ℝ, 0 ≤ v ∧
      Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal))
        = ((Real.sqrt v : ℝ) : EReal) := by
  have hN0 : N ≠ 0 := by linarith
  have hN1 : N - 1 ≠ 0 := by linarith
  have hpos : (0 : ℝ) < N - 1 := by linarith
  refine ⟨(∑ i, (r i - (∑ j, r j) / N) * (r i - (∑ j, r j) / N)) / (N - 1),
    div_nonneg (sum_sq_dev_nonneg r _) hpos.le, ?_⟩
  rw [two_pass_eq r N hN0 hN1, Ideal.sqrt_coe, if_neg (not_lt.mpr (div_nonneg (sum_sq_dev_nonneg r _) hpos.le))]

end Law

/-! ### (d) Four binary32 words as reals

  0x48435000: exponent field 144, fraction 4411392, so (2^23 + 4411392) · 2^(144 − 127 − 23) = 12800000 / 64 = 200000.
  0x48434FC0: exponent field 144, fraction 4411328, so 12799936 / 64 = 199999. -/

/-- The word 0x48435000 denotes the real 200000. -/
theorem ofBits_200000 : Ideal.ofBits .f32 0x48435000#32 = ((200000 : ℝ) : EReal) := by
  simp [Ideal.ofBits, Ideal.ieee, -EReal.coe_mul]; norm_num

/-- The word 0x48434FC0 denotes the real 199999. -/
theorem ofBits_199999 : Ideal.ofBits .f32 0x48434FC0#32 = ((199999 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := by
  simp [Ideal.ofBits, Ideal.ieee, -EReal.coe_mul]; norm_num

/-- 199999 is 200000 − 1, as coerced reals (the divisor of the variance against the count). -/
theorem coe_199999 : ((199999 : ℝ) : EReal) = ((200000 - 1 : ℝ) : EReal) := by norm_num

end Cert.Lib.Variance

end
-- ==== Proof.LayerLaw.lean ====
/-
  One layer of the network on real operands: every intermediate value is real, the one-pass and the two-pass
  column variance agree, and so do the two layers built from them.

  An extended real is called real here when it is the coercion of a real number.  Sums, differences, products and
  maxima of real values are real, a finite sum of real values is real, and so is the quotient of a real value by a
  nonzero real.  The word 0x47435000 denotes 50000 (1.52587890625 · 2^15) and the word 0x3727C5AC a positive real
  (10995116 · 2^(-40), the float nearest 1e-5).  For a real column z over N = 50000 rows with mean m = (∑ z)/N,
  (∑ z²)/N − m² = (∑ (z − m)²)/N, which is nonnegative; adding the positive offset gives a positive real whose
  reciprocal square root is real, so the normalised output is real.
-/
import proofs.«104403_j38585986187615_1_alg».proof.Proof.Spec
import proofs.«104403_j38585986187615_1_alg».proof.Proof.LibVariance

noncomputable section

namespace Cert.Gin

open Idealize.ShloMosaic Idealize.ShloMosaic.ValueIdx
open Cert.Lib.Variance
open scoped BigOperators

/-! ### Real values -/

/-- An extended real that is the coercion of a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion is monotone, so it commutes with the maximum. -/
theorem coe_max (a b : ℝ) : max (a : EReal) (b : EReal) = ((max a b : ℝ) : EReal) :=
  (EReal.coe_strictMono.monotone.map_max).symm

theorem IsReal.max {x y : EReal} (hx : IsReal x) (hy : IsReal y) : IsReal (max x y) := by
  obtain ⟨a, rfl⟩ := hx; obtain ⟨b, rfl⟩ := hy; exact ⟨_, coe_max a b⟩

theorem IsReal.ite {p : Prop} [Decidable p] {x y : EReal} (hx : IsReal x) (hy : IsReal y) :
    IsReal (if p then x else y) := by
  split
  · exact hx
  · exact hy

/-- A finite sum of real values is real. -/
theorem IsReal.sum {ι : Type*} [Fintype ι] (f : ι → EReal) (hf : ∀ i, IsReal (f i)) : IsReal (∑ i, f i) := by
  choose r hr using hf
  refine ⟨∑ i, r i, ?_⟩
  rw [coe_sum]
  exact Finset.sum_congr rfl fun i _ => hr i

/-- The quotient of a real value by a nonzero real is real. -/
theorem IsReal.div_coe {x : EReal} (hx : IsReal x) {c : ℝ} (hc : c ≠ 0) : IsReal (Ideal.div x (c : EReal)) := by
  obtain ⟨a, rfl⟩ := hx; exact ⟨a / c, div_coe_coe a c hc⟩

/-! ### The two words -/

/-- The word 0x47435000 denotes 50000: exponent field 142, fraction 4411392, (2^23 + 4411392) · 2^(142 − 127 − 23)
    = 12800000 / 256. -/
theorem nW_eq : nW = ((50000 : ℝ) : EReal) := by
  simp [nW, Ideal.ofBits, Ideal.ieee, -EReal.coe_mul]; norm_num

/-- The word 0x3727C5AC denotes a positive real: exponent field 110, fraction 2606508,
    (2^23 + 2606508) · 2^(110 − 127 − 23) = 10995116 · 2^(-40). -/
theorem epsW_pos : ∃ e : ℝ, 0 < e ∧ epsW = (e : EReal) := by
  refine ⟨10995116 * (2 : ℝ) ^ (-40 : ℤ), by positivity, ?_⟩
  simp [epsW, Ideal.ofBits, Ideal.ieee, -EReal.coe_mul]

/-! ### Realness of the layer's parts -/

/-- The second coordinate of the index (r, j) is j. -/
theorem ix2_one {n0 n1 : ℕ} (r : Fin n0) (j : Fin n1) : (ix2 r j : (⟨2, ![n0, n1]⟩ : Shape).Idx) 1 = j := rfl

/-- The neighbour sum of real features is real: every term is a feature or zero. -/
theorem agg_real (h : SN.Idx → EReal) (src dst : IVec SE 32) (hh : AllReal h) : AllReal (agg h src dst) := by
  intro i
  unfold agg
  exact IsReal.add IsReal.zero (IsReal.sum _ fun e => IsReal.ite (hh _) IsReal.zero)

/-- A product of real matrices is real. -/
theorem prod_real {n K d : ℕ} (a : (⟨2, ![n, K]⟩ : Shape).Idx → EReal) (w : (⟨2, ![K, d]⟩ : Shape).Idx → EReal)
    (ha : AllReal a) (hw : AllReal w) : AllReal (Cert.LibDense.prod a w) := by
  intro i
  unfold Cert.LibDense.prod
  exact IsReal.sum _ fun k => IsReal.mul (ha _) (hw _)

/-- Two rectified dense layers of real operands are real. -/
theorem mlp_real (h a : SN.Idx → EReal) (W1 : SW.Idx → EReal) (b1 : Fin 128 → EReal) (W2 : SW.Idx → EReal) (b2 : Fin 128 → EReal)
    (hh : AllReal h) (ha : AllReal a) (hW1 : AllReal W1) (hb1 : AllReal b1) (hW2 : AllReal W2) (hb2 : AllReal b2) :
    AllReal (mlp h a W1 b1 W2 b2) := by
  intro i
  unfold mlp
  refine IsReal.max (IsReal.add (prod_real _ _ (fun i' => ?_) hW2 i) (hb2 _)) IsReal.zero
  exact IsReal.max (IsReal.add (prod_real _ _ (fun i'' => IsReal.add (hh i'') (ha i'')) hW1 i') (hb1 _)) IsReal.zero

/-- 50000 is not zero. -/
theorem fifty_ne : (50000 : ℝ) ≠ 0 := by norm_num

/-- The column mean of a real matrix is real. -/
theorem mean_real (z : SN.Idx → EReal) (hz : AllReal z) : AllReal (mean z) := by
  intro j
  unfold mean colSum
  rw [nW_eq]
  exact IsReal.div_coe (IsReal.sum _ fun r => hz _) fifty_ne

/-- The column sum of the squared deviations, with the column index of the mean read off. -/
theorem colSum_dev (z : SN.Idx → EReal) (j : Fin 128) :
    colSum (fun i => (z i - mean z (i 1)) * (z i - mean z (i 1))) j
      = ∑ r : Fin 50000, (z (ix2 r j) - mean z j) * (z (ix2 r j) - mean z j) := rfl

/-! ### The one-pass variance is the two-pass variance -/

/-- For a finite real family f with N terms: (∑ f²)/N − m² = (∑ (f − m)²)/N with m = (∑ f)/N, on the extended reals. -/
theorem one_eq_two_coe {ι : Type*} [Fintype ι] (f : ι → ℝ) (N : ℝ) (hN : N = (Fintype.card ι : ℝ)) (hN0 : N ≠ 0) :
    Ideal.div (∑ i, (f i : EReal) * (f i : EReal)) (N : EReal)
        - Ideal.div (∑ i, (f i : EReal)) (N : EReal) * Ideal.div (∑ i, (f i : EReal)) (N : EReal)
      = Ideal.div (∑ i, ((f i : EReal) - Ideal.div (∑ i, (f i : EReal)) (N : EReal))
          * ((f i : EReal) - Ideal.div (∑ i, (f i : EReal)) (N : EReal))) (N : EReal) := by
  have hm : Ideal.div (∑ i, (f i : EReal)) (N : EReal) = (((∑ i, f i) / N : ℝ) : EReal) := by
    rw [← coe_sum, div_coe_coe _ _ hN0]
  have key : (∑ i, f i * f i) / N - (∑ i, f i) / N * ((∑ i, f i) / N)
      = (∑ i, (f i - (∑ j, f j) / N) * (f i - (∑ j, f j) / N)) / N := by
    rw [sum_sq_dev f N hN hN0]; field_simp
  rw [hm]
  simp only [← EReal.coe_sub, ← EReal.coe_mul]
  rw [← coe_sum, ← coe_sum, div_coe_coe _ _ hN0, div_coe_coe _ _ hN0, ← EReal.coe_sub, key]

/-- The number of rows, as a real. -/
theorem card_rows : (50000 : ℝ) = (Fintype.card (Fin 50000) : ℝ) := by
  rw [Fintype.card_fin]; norm_num

/-- On a real matrix the two variances agree, column by column. -/
theorem var_one_eq_two (z : SN.Idx → EReal) (hz : AllReal z) : varOnePass z = varTwoPass z := by
  funext j
  choose r hr using hz
  unfold varOnePass varTwoPass
  rw [colSum_dev]
  unfold mean colSum
  rw [nW_eq]
  simp only [hr]
  exact one_eq_two_coe (fun q : Fin 50000 => r (ix2 q j)) 50000 card_rows fifty_ne

/-- The two layers agree on real operands: they differ in the variance only. -/
theorem layer_one_eq_two (h a : SN.Idx → EReal) (W1 : SW.Idx → EReal) (b1 : Fin 128 → EReal) (W2 : SW.Idx → EReal) (b2 g be : Fin 128 → EReal)
    (hh : AllReal h) (ha : AllReal a) (hW1 : AllReal W1) (hb1 : AllReal b1) (hW2 : AllReal W2) (hb2 : AllReal b2) :
    layerOnePass h a W1 b1 W2 b2 g be = layerTwoPass h a W1 b1 W2 b2 g be := by
  unfold layerOnePass layerTwoPass
  rw [var_one_eq_two _ (mlp_real h a W1 b1 W2 b2 hh ha hW1 hb1 hW2 hb2)]

/-! ### The normalised output is real -/

/-- The two-pass variance of a real matrix is a nonnegative real. -/
theorem varTwoPass_nonneg (z : SN.Idx → EReal) (hz : AllReal z) (j : Fin 128) :
    ∃ v : ℝ, 0 ≤ v ∧ varTwoPass z j = (v : EReal) := by
  obtain ⟨m, hm⟩ := mean_real z hz j
  choose r hr using hz
  unfold varTwoPass
  rw [colSum_dev, hm, nW_eq]
  simp only [hr]
  simp only [← EReal.coe_sub, ← EReal.coe_mul]
  rw [← coe_sum, div_coe_coe _ _ fifty_ne]
  exact ⟨_, div_nonneg (sum_sq_dev_nonneg (fun q : Fin 50000 => r (ix2 q j)) m) (by norm_num), rfl⟩

/-- The reciprocal square root of a positive real is real. -/
theorem rsqrt_real (v e : ℝ) (hv : 0 ≤ v) (he : 0 < e) : IsReal (Ideal.rsqrt ((v : EReal) + (e : EReal))) := by
  have hpos : 0 < v + e := by linarith
  rw [← EReal.coe_add, Ideal.rsqrt_coe, if_neg (not_lt.mpr hpos.le), if_neg hpos.ne']
  exact ⟨_, rfl⟩

/-- The layer with the two-pass variance maps real operands to a real matrix. -/
theorem layerTwoPass_real (h a : SN.Idx → EReal) (W1 : SW.Idx → EReal) (b1 : Fin 128 → EReal) (W2 : SW.Idx → EReal) (b2 g be : Fin 128 → EReal)
    (hh : AllReal h) (ha : AllReal a) (hW1 : AllReal W1) (hb1 : AllReal b1) (hW2 : AllReal W2) (hb2 : AllReal b2) (hg : AllReal g) (hbe : AllReal be) :
    AllReal (layerTwoPass h a W1 b1 W2 b2 g be) := by
  have hz := mlp_real h a W1 b1 W2 b2 hh ha hW1 hb1 hW2 hb2
  intro i
  unfold layerTwoPass bn
  obtain ⟨v, hv, hvar⟩ := varTwoPass_nonneg _ hz (i 1)
  obtain ⟨e, he, heps⟩ := epsW_pos
  rw [hvar, heps]
  exact IsReal.add (IsReal.mul (IsReal.mul (hg _) (IsReal.sub (hz i) (mean_real _ hz _))) (rsqrt_real v e hv he)) (hbe _)

end Cert.Gin

end
-- ==== Proof.RefReal.lean ====
/-
  The reference's weight slices of real arrays are real.

  Each layer reads its two weight matrices and four vectors out of the stacked arguments by a slice of one layer
  followed by a reshape.  Either operation reads one entry of its operand at a computed index, so every entry of the
  result is an entry of the argument, and a real argument gives a real result.
-/
import proofs.«104403_j38585986187615_1_alg».proof.Proof.RefReadP
import proofs.«104403_j38585986187615_1_alg».proof.Proof.Spec

noncomputable section

namespace Cert.Gin

open Idealize.ShloMosaic Cert.ReferenceIdeal Cert.ReferenceIdeal.ReadP

/-- The weight matrix read by stage 5 (a one-layer slice of the stacked matrices, reshaped) has real entries. -/
theorem real_v5 (x3 : (⟨S3x128x128, .f32⟩ : BufTy).Contents (Elt Ideal)) (h : AllReal x3) :
    AllReal (val_main_v5 (F := Ideal) x3) := by
  intro i
  rw [val_main_v5_apply, val_main_v4_apply]
  exact h _

/-- The vector read by stage 7 (a one-layer slice of the stacked vectors, reshaped) has real entries. -/
theorem real_v7 (x4 : (⟨S3x128, .f32⟩ : BufTy).Contents (Elt Ideal)) (h : AllReal x4) :
    AllReal (val_main_v7 (F := Ideal) x4) := by
  intro i
  rw [val_main_v7_apply, val_main_v6_apply]
  exact h _

/-- The same vector as a family over its 128 positions. -/
theorem real_row_v7 (x4 : (⟨S3x128, .f32⟩ : BufTy).Contents (Elt Ideal)) (h : AllReal x4) :
    AllReal (fun j : Fin 128 => val_main_v7 (F := Ideal) x4 (ValueIdx.ix1 j)) :=
  fun j => real_v7 x4 h (ValueIdx.ix1 j)

/-- The weight matrix read by stage 9 (a one-layer slice of the stacked matrices, reshaped) has real entries. -/
theorem real_v9 (x5 : (⟨S3x128x128, .f32⟩ : BufTy).Contents (Elt Ideal)) (h : AllReal x5) :
    AllReal (val_main_v9 (F := Ideal) x5) := by
  intro i
  rw [val_main_v9_apply, val_main_v8_apply]
  exact h _

/-- The vector read by stage 11 (a one-layer slice of the stacked vectors, reshaped) has real entries. -/
theorem real_v11 (x6 : (⟨S3x128, .f32⟩ : BufTy).Contents (Elt Ideal)) (h : AllReal x6) :
    AllReal (val_main_v11 (F := Ideal) x6) := by
  intro i
  rw [val_main_v11_apply, val_main_v10_apply]
  exact h _

/-- The same vector as a family over its 128 positions. -/
theorem real_row_v11 (x6 : (⟨S3x128, .f32⟩ : BufTy).Contents (Elt Ideal)) (h : AllReal x6) :
    AllReal (fun j : Fin 128 => val_main_v11 (F := Ideal) x6 (ValueIdx.ix1 j)) :=
  fun j => real_v11 x6 h (ValueIdx.ix1 j)

/-- The vector read by stage 13 (a one-layer slice of the stacked vectors, reshaped) has real entries. -/
theorem real_v13 (x7 : (⟨S3x128, .f32⟩ : BufTy).Contents (Elt Ideal)) (h : AllReal x7) :
    AllReal (val_main_v13 (F := Ideal) x7) := by
  intro i
  rw [val_main_v13_apply, val_main_v12_apply]
  exact h _

/-- The same vector as a family over its 128 positions. -/
theorem real_row_v13 (x7 : (⟨S3x128, .f32⟩ : BufTy).Contents (Elt Ideal)) (h : AllReal x7) :
    AllReal (fun j : Fin 128 => val_main_v13 (F := Ideal) x7 (ValueIdx.ix1 j)) :=
  fun j => real_v13 x7 h (ValueIdx.ix1 j)

/-- The vector read by stage 15 (a one-layer slice of the stacked vectors, reshaped) has real entries. -/
theorem real_v15 (x8 : (⟨S3x128, .f32⟩ : BufTy).Contents (Elt Ideal)) (h : AllReal x8) :
    AllReal (val_main_v15 (F := Ideal) x8) := by
  intro i
  rw [val_main_v15_apply, val_main_v14_apply]
  exact h _

/-- The same vector as a family over its 128 positions. -/
theorem real_row_v15 (x8 : (⟨S3x128, .f32⟩ : BufTy).Contents (Elt Ideal)) (h : AllReal x8) :
    AllReal (fun j : Fin 128 => val_main_v15 (F := Ideal) x8 (ValueIdx.ix1 j)) :=
  fun j => real_v15 x8 h (ValueIdx.ix1 j)

/-- The weight matrix read by stage 63 (a one-layer slice of the stacked matrices, reshaped) has real entries. -/
theorem real_v63 (x3 : (⟨S3x128x128, .f32⟩ : BufTy).Contents (Elt Ideal)) (h : AllReal x3) :
    AllReal (val_main_v63 (F := Ideal) x3) := by
  intro i
  rw [val_main_v63_apply, val_main_v62_apply]
  exact h _

/-- The vector read by stage 65 (a one-layer slice of the stacked vectors, reshaped) has real entries. -/
theorem real_v65 (x4 : (⟨S3x128, .f32⟩ : BufTy).Contents (Elt Ideal)) (h : AllReal x4) :
    AllReal (val_main_v65 (F := Ideal) x4) := by
  intro i
  rw [val_main_v65_apply, val_main_v64_apply]
  exact h _

/-- The same vector as a family over its 128 positions. -/
theorem real_row_v65 (x4 : (⟨S3x128, .f32⟩ : BufTy).Contents (Elt Ideal)) (h : AllReal x4) :
    AllReal (fun j : Fin 128 => val_main_v65 (F := Ideal) x4 (ValueIdx.ix1 j)) :=
  fun j => real_v65 x4 h (ValueIdx.ix1 j)

/-- The weight matrix read by stage 67 (a one-layer slice of the stacked matrices, reshaped) has real entries. -/
theorem real_v67 (x5 : (⟨S3x128x128, .f32⟩ : BufTy).Contents (Elt Ideal)) (h : AllReal x5) :
    AllReal (val_main_v67 (F := Ideal) x5) := by
  intro i
  rw [val_main_v67_apply, val_main_v66_apply]
  exact h _

/-- The vector read by stage 69 (a one-layer slice of the stacked vectors, reshaped) has real entries. -/
theorem real_v69 (x6 : (⟨S3x128, .f32⟩ : BufTy).Contents (Elt Ideal)) (h : AllReal x6) :
    AllReal (val_main_v69 (F := Ideal) x6) := by
  intro i
  rw [val_main_v69_apply, val_main_v68_apply]
  exact h _

/-- The same vector as a family over its 128 positions. -/
theorem real_row_v69 (x6 : (⟨S3x128, .f32⟩ : BufTy).Contents (Elt Ideal)) (h : AllReal x6) :
    AllReal (fun j : Fin 128 => val_main_v69 (F := Ideal) x6 (ValueIdx.ix1 j)) :=
  fun j => real_v69 x6 h (ValueIdx.ix1 j)

/-- The vector read by stage 71 (a one-layer slice of the stacked vectors, reshaped) has real entries. -/
theorem real_v71 (x7 : (⟨S3x128, .f32⟩ : BufTy).Contents (Elt Ideal)) (h : AllReal x7) :
    AllReal (val_main_v71 (F := Ideal) x7) := by
  intro i
  rw [val_main_v71_apply, val_main_v70_apply]
  exact h _

/-- The same vector as a family over its 128 positions. -/
theorem real_row_v71 (x7 : (⟨S3x128, .f32⟩ : BufTy).Contents (Elt Ideal)) (h : AllReal x7) :
    AllReal (fun j : Fin 128 => val_main_v71 (F := Ideal) x7 (ValueIdx.ix1 j)) :=
  fun j => real_v71 x7 h (ValueIdx.ix1 j)

/-- The vector read by stage 73 (a one-layer slice of the stacked vectors, reshaped) has real entries. -/
theorem real_v73 (x8 : (⟨S3x128, .f32⟩ : BufTy).Contents (Elt Ideal)) (h : AllReal x8) :
    AllReal (val_main_v73 (F := Ideal) x8) := by
  intro i
  rw [val_main_v73_apply, val_main_v72_apply]
  exact h _

/-- The same vector as a family over its 128 positions. -/
theorem real_row_v73 (x8 : (⟨S3x128, .f32⟩ : BufTy).Contents (Elt Ideal)) (h : AllReal x8) :
    AllReal (fun j : Fin 128 => val_main_v73 (F := Ideal) x8 (ValueIdx.ix1 j)) :=
  fun j => real_v73 x8 h (ValueIdx.ix1 j)

/-- The weight matrix read by stage 121 (a one-layer slice of the stacked matrices, reshaped) has real entries. -/
theorem real_v121 (x3 : (⟨S3x128x128, .f32⟩ : BufTy).Contents (Elt Ideal)) (h : AllReal x3) :
    AllReal (val_main_v121 (F := Ideal) x3) := by
  intro i
  rw [val_main_v121_apply, val_main_v120_apply]
  exact h _

/-- The vector read by stage 123 (a one-layer slice of the stacked vectors, reshaped) has real entries. -/
theorem real_v123 (x4 : (⟨S3x128, .f32⟩ : BufTy).Contents (Elt Ideal)) (h : AllReal x4) :
    AllReal (val_main_v123 (F := Ideal) x4) := by
  intro i
  rw [val_main_v123_apply, val_main_v122_apply]
  exact h _

/-- The same vector as a family over its 128 positions. -/
theorem real_row_v123 (x4 : (⟨S3x128, .f32⟩ : BufTy).Contents (Elt Ideal)) (h : AllReal x4) :
    AllReal (fun j : Fin 128 => val_main_v123 (F := Ideal) x4 (ValueIdx.ix1 j)) :=
  fun j => real_v123 x4 h (ValueIdx.ix1 j)

/-- The weight matrix read by stage 125 (a one-layer slice of the stacked matrices, reshaped) has real entries. -/
theorem real_v125 (x5 : (⟨S3x128x128, .f32⟩ : BufTy).Contents (Elt Ideal)) (h : AllReal x5) :
    AllReal (val_main_v125 (F := Ideal) x5) := by
  intro i
  rw [val_main_v125_apply, val_main_v124_apply]
  exact h _

/-- The vector read by stage 127 (a one-layer slice of the stacked vectors, reshaped) has real entries. -/
theorem real_v127 (x6 : (⟨S3x128, .f32⟩ : BufTy).Contents (Elt Ideal)) (h : AllReal x6) :
    AllReal (val_main_v127 (F := Ideal) x6) := by
  intro i
  rw [val_main_v127_apply, val_main_v126_apply]
  exact h _

/-- The same vector as a family over its 128 positions. -/
theorem real_row_v127 (x6 : (⟨S3x128, .f32⟩ : BufTy).Contents (Elt Ideal)) (h : AllReal x6) :
    AllReal (fun j : Fin 128 => val_main_v127 (F := Ideal) x6 (ValueIdx.ix1 j)) :=
  fun j => real_v127 x6 h (ValueIdx.ix1 j)

/-- The vector read by stage 129 (a one-layer slice of the stacked vectors, reshaped) has real entries. -/
theorem real_v129 (x7 : (⟨S3x128, .f32⟩ : BufTy).Contents (Elt Ideal)) (h : AllReal x7) :
    AllReal (val_main_v129 (F := Ideal) x7) := by
  intro i
  rw [val_main_v129_apply, val_main_v128_apply]
  exact h _

/-- The same vector as a family over its 128 positions. -/
theorem real_row_v129 (x7 : (⟨S3x128, .f32⟩ : BufTy).Contents (Elt Ideal)) (h : AllReal x7) :
    AllReal (fun j : Fin 128 => val_main_v129 (F := Ideal) x7 (ValueIdx.ix1 j)) :=
  fun j => real_v129 x7 h (ValueIdx.ix1 j)

/-- The vector read by stage 131 (a one-layer slice of the stacked vectors, reshaped) has real entries. -/
theorem real_v131 (x8 : (⟨S3x128, .f32⟩ : BufTy).Contents (Elt Ideal)) (h : AllReal x8) :
    AllReal (val_main_v131 (F := Ideal) x8) := by
  intro i
  rw [val_main_v131_apply, val_main_v130_apply]
  exact h _

/-- The same vector as a family over its 128 positions. -/
theorem real_row_v131 (x8 : (⟨S3x128, .f32⟩ : BufTy).Contents (Elt Ideal)) (h : AllReal x8) :
    AllReal (fun j : Fin 128 => val_main_v131 (F := Ideal) x8 (ValueIdx.ix1 j)) :=
  fun j => real_v131 x8 h (ValueIdx.ix1 j)

end Cert.Gin

end
-- ==== Proof.Bridge.lean ====
/-
  The three layers with the one-pass variance, chained, are the reference program's three layers.

  The reference computes each layer with the two-pass variance.  On real operands the one-pass and the two-pass layer
  agree.  The first layer's input is the real argument, its neighbour sum is real and its weight slices are real, so
  the one-pass layer equals the reference's first layer, whose output is again real; the same argument carries the
  equality through the second and the third layer.
-/
import proofs.«104403_j38585986187615_1_alg».proof.Proof.LayerLaw
import proofs.«104403_j38585986187615_1_alg».proof.Proof.RefReal
import proofs.«104403_j38585986187615_1_alg».proof.Proof.RefLayer1
import proofs.«104403_j38585986187615_1_alg».proof.Proof.RefLayer2
import proofs.«104403_j38585986187615_1_alg».proof.Proof.RefLayer3

noncomputable section

namespace Cert.Bridge

open Cert.ReferenceIdeal Cert.ReferenceIdeal.ReadP Idealize.ShloMosaic Idealize.ShloMosaic.ValueIdx Cert.Gin

/-- The first layer with the one-pass variance, on the arguments. -/
def K1 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal)) : Cert.Gin.SN.Idx → EReal :=
  layerOnePass x0 (agg x0 (val_main_v21 (F := Ideal) x1) (val_main_v24 (F := Ideal) x1))
    (val_main_v5 (F := Ideal) x3) (fun j => val_main_v7 (F := Ideal) x4 (ix1 j))
    (val_main_v9 (F := Ideal) x5) (fun j => val_main_v11 (F := Ideal) x6 (ix1 j))
    (fun j => val_main_v13 (F := Ideal) x7 (ix1 j)) (fun j => val_main_v15 (F := Ideal) x8 (ix1 j))

/-- The second layer with the one-pass variance, on the first one's output. -/
def K2 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal)) : Cert.Gin.SN.Idx → EReal :=
  layerOnePass (K1 x0 x1 x3 x4 x5 x6 x7 x8) (agg (K1 x0 x1 x3 x4 x5 x6 x7 x8) (val_main_v79 (F := Ideal) x1) (val_main_v82 (F := Ideal) x1))
    (val_main_v63 (F := Ideal) x3) (fun j => val_main_v65 (F := Ideal) x4 (ix1 j))
    (val_main_v67 (F := Ideal) x5) (fun j => val_main_v69 (F := Ideal) x6 (ix1 j))
    (fun j => val_main_v71 (F := Ideal) x7 (ix1 j)) (fun j => val_main_v73 (F := Ideal) x8 (ix1 j))

/-- The third layer with the one-pass variance, on the second one's output. -/
def K3 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal)) : Cert.Gin.SN.Idx → EReal :=
  layerOnePass (K2 x0 x1 x3 x4 x5 x6 x7 x8) (agg (K2 x0 x1 x3 x4 x5 x6 x7 x8) (val_main_v137 (F := Ideal) x1) (val_main_v140 (F := Ideal) x1))
    (val_main_v121 (F := Ideal) x3) (fun j => val_main_v123 (F := Ideal) x4 (ix1 j))
    (val_main_v125 (F := Ideal) x5) (fun j => val_main_v127 (F := Ideal) x6 (ix1 j))
    (fun j => val_main_v129 (F := Ideal) x7 (ix1 j)) (fun j => val_main_v131 (F := Ideal) x8 (ix1 j))

/-- The reference's first layer is real on real arguments. -/
theorem v61_real (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal))
    (h0 : AllReal x0) (h3 : AllReal x3) (h4 : AllReal x4) (h5 : AllReal x5) (h6 : AllReal x6) (h7 : AllReal x7)
    (h8 : AllReal x8) :
    AllReal (val_main_v61 (F := Ideal) x0 x1 x3 x4 x5 x6 x7 x8) := by
  rw [Cert.RefLayers.layer1]
  exact layerTwoPass_real _ _ _ _ _ _ _ _ h0 (agg_real _ _ _ h0) (real_v5 x3 h3) (real_row_v7 x4 h4) (real_v9 x5 h5)
    (real_row_v11 x6 h6) (real_row_v13 x7 h7) (real_row_v15 x8 h8)

/-- The first one-pass layer is the reference's first layer. -/
theorem K1_eq (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal))
    (h0 : AllReal x0) (h3 : AllReal x3) (h4 : AllReal x4) (h5 : AllReal x5) (h6 : AllReal x6) (h7 : AllReal x7)
    (h8 : AllReal x8) :
    K1 x0 x1 x3 x4 x5 x6 x7 x8 = val_main_v61 (F := Ideal) x0 x1 x3 x4 x5 x6 x7 x8 := by
  unfold K1
  rw [Cert.RefLayers.layer1]
  exact layer_one_eq_two _ _ _ _ _ _ _ _ h0 (agg_real _ _ _ h0) (real_v5 x3 h3) (real_row_v7 x4 h4) (real_v9 x5 h5)
    (real_row_v11 x6 h6)

/-- The reference's second layer is real on real arguments. -/
theorem v119_real (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal))
    (h0 : AllReal x0) (h3 : AllReal x3) (h4 : AllReal x4) (h5 : AllReal x5) (h6 : AllReal x6) (h7 : AllReal x7)
    (h8 : AllReal x8) :
    AllReal (val_main_v119 (F := Ideal) x0 x1 x3 x4 x5 x6 x7 x8) := by
  have hv := v61_real x0 x1 x3 x4 x5 x6 x7 x8 h0 h3 h4 h5 h6 h7 h8
  rw [Cert.RefLayers.layer2]
  exact layerTwoPass_real _ _ _ _ _ _ _ _ hv (agg_real _ _ _ hv) (real_v63 x3 h3) (real_row_v65 x4 h4) (real_v67 x5 h5)
    (real_row_v69 x6 h6) (real_row_v71 x7 h7) (real_row_v73 x8 h8)

/-- The second one-pass layer, on the first one's output, is the reference's second layer. -/
theorem K2_eq (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal))
    (h0 : AllReal x0) (h3 : AllReal x3) (h4 : AllReal x4) (h5 : AllReal x5) (h6 : AllReal x6) (h7 : AllReal x7)
    (h8 : AllReal x8) :
    K2 x0 x1 x3 x4 x5 x6 x7 x8 = val_main_v119 (F := Ideal) x0 x1 x3 x4 x5 x6 x7 x8 := by
  have hv := v61_real x0 x1 x3 x4 x5 x6 x7 x8 h0 h3 h4 h5 h6 h7 h8
  unfold K2
  rw [K1_eq x0 x1 x3 x4 x5 x6 x7 x8 h0 h3 h4 h5 h6 h7 h8, Cert.RefLayers.layer2]
  exact layer_one_eq_two _ _ _ _ _ _ _ _ hv (agg_real _ _ _ hv) (real_v63 x3 h3) (real_row_v65 x4 h4) (real_v67 x5 h5)
    (real_row_v69 x6 h6)

/-- The reference's third layer is real on real arguments. -/
theorem v177_real (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal))
    (h0 : AllReal x0) (h3 : AllReal x3) (h4 : AllReal x4) (h5 : AllReal x5) (h6 : AllReal x6) (h7 : AllReal x7)
    (h8 : AllReal x8) :
    AllReal (val_main_v177 (F := Ideal) x0 x1 x3 x4 x5 x6 x7 x8) := by
  have hv := v119_real x0 x1 x3 x4 x5 x6 x7 x8 h0 h3 h4 h5 h6 h7 h8
  rw [Cert.RefLayers.layer3]
  exact layerTwoPass_real _ _ _ _ _ _ _ _ hv (agg_real _ _ _ hv) (real_v121 x3 h3) (real_row_v123 x4 h4) (real_v125 x5 h5)
    (real_row_v127 x6 h6) (real_row_v129 x7 h7) (real_row_v131 x8 h8)

/-- The three one-pass layers, chained, are the reference's output. -/
theorem K3_eq (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 x7 x8 : (⟨S3x128, .f32⟩ : BufTy).Contents (Elt Ideal))
    (h0 : AllReal x0) (h3 : AllReal x3) (h4 : AllReal x4) (h5 : AllReal x5) (h6 : AllReal x6) (h7 : AllReal x7)
    (h8 : AllReal x8) :
    K3 x0 x1 x3 x4 x5 x6 x7 x8 = val_main_v177 (F := Ideal) x0 x1 x3 x4 x5 x6 x7 x8 := by
  have hv := v119_real x0 x1 x3 x4 x5 x6 x7 x8 h0 h3 h4 h5 h6 h7 h8
  unfold K3
  rw [K2_eq x0 x1 x3 x4 x5 x6 x7 x8 h0 h3 h4 h5 h6 h7 h8, Cert.RefLayers.layer3]
  exact layer_one_eq_two _ _ _ _ _ _ _ _ hv (agg_real _ _ _ hv) (real_v121 x3 h3) (real_row_v123 x4 h4) (real_v125 x5 h5)
    (real_row_v127 x6 h6)

end Cert.Bridge

end
-- ==== Proof.KValue.lean ====
/-
  The kernel's result array as three one-pass layers of the arguments.

  Each layer's output is the one-pass layer of what the previous layer left and of that layer's slices of the weight
  arrays; chaining the three gives the result buffer's contents as a function of the launch contents of the arguments.
-/
import proofs.«104403_j38585986187615_1_alg».proof.Proof.KLayer1
import proofs.«104403_j38585986187615_1_alg».proof.Proof.KLayer2
import proofs.«104403_j38585986187615_1_alg».proof.Proof.KLayer3
import proofs.«104403_j38585986187615_1_alg».proof.Proof.Bridge

set_option maxRecDepth 16384

noncomputable section

namespace Cert.KernelIdeal.ValueK

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The last boundary's contents at the result buffer: the third one-pass layer over the second over the first. -/
theorem value (c : Dev nD) : W12 m ρ c (Proc.devRef .tc main_v105) = Cert.Bridge.K3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Cert.KernelIdeal.Layer3.out_eq m ρ c).trans ?_
  unfold Cert.Bridge.K3 Cert.KernelIdeal.Layer3.hin
  rw [Cert.KernelIdeal.Layer2.out_eq m ρ c]
  unfold Cert.Bridge.K2 Cert.KernelIdeal.Layer2.hin
  rw [Cert.KernelIdeal.Layer1.out_eq m ρ c]
  rfl

end Cert.KernelIdeal.ValueK

end
-- ==== Proof.PreReal.lean ====
/-
  The precondition makes every float argument real.

  The precondition conjoins, for each float argument x, the test that every entry has |x| < +∞, where |x| is the
  larger of x and −x and +∞ is the word 0x7F800000.  On the extended reals an entry whose absolute value lies strictly
  below ⊤ is neither ⊤ nor ⊥ (the absolute value of ⊥ is ⊤), so it is the coercion of a real number.
-/
import proofs.«104403_j38585986187615_1_alg».proof.Pre_finite_inputs
import proofs.«104403_j38585986187615_1_alg».proof.Proof.Spec
import Idealize.ShloMosaic.Lib.ReduceAll
import Idealize.ShloMosaic.Lib.IdealHost

noncomputable section

namespace Cert.Gin

open Idealize.ShloMosaic Idealize.ShloMosaic.ValueIdx

/-- The word 0x7F800000 (all-ones exponent, zero fraction, sign clear) denotes ⊤. -/
theorem ofBits_inf : Ideal.ofBits .f32 0x7F800000#32 = (⊤ : EReal) := by
  simp [Ideal.ofBits, Ideal.ieee]

/-- An extended real whose absolute value is strictly below the infinity word is real. -/
theorem real_of_abs_lt (x : EReal)
    (h : Ideal.cmp .olt (max x (-x)) (Ideal.ofBits .f32 0x7F800000#32) = 1#1) : ∃ r : ℝ, x = (r : EReal) := by
  rw [ofBits_inf] at h
  have h' : max x (-x) < ⊤ := by
    unfold Ideal.cmp at h
    by_contra hn
    simp [hn] at h
  induction x using EReal.rec with
  | bot => simp at h'
  | coe r => exact ⟨r, rfl⟩
  | top => simp at h'

/-- The rank-0 shape has one index. -/
instance subsingleton_idx0 : Subsingleton (⟨0, ![]⟩ : Shape).Idx := ⟨fun a b => funext fun d => d.elim0⟩

/-- The conjunction of two one-bit arrays at an index. -/
theorem andi_at {s : Shape} {w : ℕ} (x y : IVec s w) (i : s.Idx) : andi x y i = IntOp.andi (x i) (y i) := rfl

/-- One argument's test: if the conjunction over all entries of |x| < +∞ reads 1, every entry of x is real. -/
theorem allReal_of_all {s u : Shape} {axes : List (Fin s.rank)} (x : FVec Ideal s .f32)
    (hb : (⟨0, ![]⟩ : Shape).BroadcastsInDim s ![]) (hr : s.ReducesTo axes ⟨0, ![]⟩) (init : u.Idx → BitVec 1)
    (hu : 0 < u.numel)
    (e : Host.reduce IntOp.andi
      (cmpf .olt (Host.absf x) (broadcastInDim s ![] hb (constant (F := Ideal) ⟨0, ![]⟩ .f32 0x7F800000#32))) init hr hu ix0 = 1#1) :
    AllReal x := by
  intro i
  have hi := Host.reduce_andi_all _ init hr hu ix0 e i
  rw [cmpf_apply, broadcastInDim_scalar_apply, constant_apply] at hi
  exact real_of_abs_lt (x i) hi

/-- The precondition gives the realness of all seven float arguments. -/
theorem pre_real [Cert.Pre_finite_inputs.Facts] (x0 : FVec Ideal Cert.Pre_finite_inputs.S50000x128 .f32)
    (x1 : IVec Cert.Pre_finite_inputs.S2x800000 32) (x2 : IVec Cert.Pre_finite_inputs.S50000 32)
    (x3 : FVec Ideal Cert.Pre_finite_inputs.S3x128x128 .f32) (x4 : FVec Ideal Cert.Pre_finite_inputs.S3x128 .f32)
    (x5 : FVec Ideal Cert.Pre_finite_inputs.S3x128x128 .f32) (x6 x7 x8 : FVec Ideal Cert.Pre_finite_inputs.S3x128 .f32)
    (h : Cert.Pre_finite_inputs.fn (F := Ideal) x0 x1 x2 x3 x4 x5 x6 x7 x8 = fun _ => 1#1) :
    AllReal x0 ∧ AllReal x3 ∧ AllReal x4 ∧ AllReal x5 ∧ AllReal x6 ∧ AllReal x7 ∧ AllReal x8 := by
  have h0 : Cert.Pre_finite_inputs.fn (F := Ideal) x0 x1 x2 x3 x4 x5 x6 x7 x8 ix0 = 1#1 := congrFun h ix0
  unfold Cert.Pre_finite_inputs.fn Cert.Pre_finite_inputs.fn_part1 at h0
  simp only [andi_at, IntOp.andi_eq_one] at h0
  obtain ⟨⟨⟨⟨⟨⟨e0, e3⟩, e4⟩, e5⟩, e6⟩, e7⟩, e8⟩ := h0
  exact ⟨allReal_of_all x0 _ _ _ _ e0, allReal_of_all x3 _ _ _ _ e3, allReal_of_all x4 _ _ _ _ e4,
    allReal_of_all x5 _ _ _ _ e5, allReal_of_all x6 _ _ _ _ e6, allReal_of_all x7 _ _ _ _ e7,
    allReal_of_all x8 _ _ _ _ e8⟩

end Cert.Gin

end
-- ==== Proof.lean ====
/-
  Three layers of a graph-isomorphism network with batch normalisation (50000 nodes, 800000 edges, 128 channels): a
  program whose dense parts run as band launches against its plain array-language reference.

  Per layer both programs add to every node the sum of its in-neighbours' features (a gather of source rows and a
  scatter-add into destination rows: the same host lines in both), apply two rectified dense layers, and normalise every
  column by its mean and variance over the nodes.  The launches compute the dense layers band by band — on the
  extended reals a change of float format is the identity and a band's rows depend on that band's rows only — and
  accumulate the column sums of z and of z² over the ten bands; the host then forms the variance in one pass,
  E[z²] − (E z)², where the reference forms it in two, E[(z − E z)²].  On real numbers these agree, and every value is
  a real number here: the inputs are finite by the precondition, finite sums and products of reals are real, the
  two-pass variance is non-negative so the square root's argument var + ε is positive.  That is carried layer by
  layer (the one-pass layer of real inputs equals the two-pass layer, whose output is real again), and gives equal
  result arrays.  The node-to-graph assignment is returned unchanged by both programs.
  The two programs' frames are the generated ones; the reference's is its run with the result dropped.
-/
import proofs.«104403_j38585986187615_1_alg».proof.Defs
import proofs.«104403_j38585986187615_1_alg».proof.Proof.Gen.Kernel
import proofs.«104403_j38585986187615_1_alg».proof.Proof.Gen.Kernel.Frame
import proofs.«104403_j38585986187615_1_alg».proof.Proof.Gen.KernelIdeal
import proofs.«104403_j38585986187615_1_alg».proof.Proof.Gen.KernelIdeal.Frame
import proofs.«104403_j38585986187615_1_alg».proof.Proof.Gen.ReferenceIdeal
import proofs.«104403_j38585986187615_1_alg».proof.Proof.Gen.Pre_finite_inputs
import proofs.«104403_j38585986187615_1_alg».proof.Proof.RefRunP
import proofs.«104403_j38585986187615_1_alg».proof.Proof.KRun
import proofs.«104403_j38585986187615_1_alg».proof.Proof.KValue
import proofs.«104403_j38585986187615_1_alg».proof.Proof.Bridge
import proofs.«104403_j38585986187615_1_alg».proof.Proof.PreReal
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the result array at the reference's last stage function of the (agreeing) arguments: the
    kernel's three one-pass layers equal it because every float argument is real. -/
theorem algebraic : Cert.algebraic_KernelIdeal_ReferenceIdeal := by
  intro m ρ m' ρ' hpre hagree
  refine ⟨fun c => Cert.ReferenceIdeal.ReadP.val_main_v177 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => m ((c.tc : Thread Cert.KernelIdeal.nD Cert.KernelIdeal.τ).loc Cert.KernelIdeal.main_arg2), ?_, ?_⟩
  · refine (θ_run Cert.KernelIdeal.defs _ _).mono (fun r h c => ⟨(h c).1.trans ?_, (h c).2.2.2.1, (h c).2⟩)
      (Cert.KernelIdeal.RunV.run_result (F := Ideal) m ρ)
    obtain ⟨h0, h3, h4, h5, h6, h7, h8⟩ := Cert.Gin.pre_real _ _ _ _ _ _ _ _ _ (hpre c)
    exact (Cert.KernelIdeal.ValueK.value m ρ c).trans (Cert.Bridge.K3_eq _ _ _ _ _ _ _ _ h0 h3 h4 h5 h6 h7 h8)
  · refine (θ_run Cert.ReferenceIdeal.defs _ _).mono (fun r h c => ⟨(h c).1.trans ?_, (h c).2.1.trans (hagree c).2.2.1, (h c).2.2⟩)
      (Cert.ReferenceIdeal.ValueP.run (F := Ideal) m' ρ')
    unfold Cert.ReferenceIdeal.ValueP.res_main_v177
    rw [(hagree c).1, (hagree c).2.1, (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
